-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S512x512 : Shape := ⟨2, ![512, 512]⟩
abbrev S512x1 : Shape := ⟨2, ![512, 1]⟩
abbrev S1x512 : Shape := ⟨2, ![1, 512]⟩
abbrev S512 : Shape := ⟨1, ![512]⟩

abbrev nBuf : Space → Nat
  | .hbm => 20
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .bf16⟩
  | .hbm, ⟨13, _⟩ => ⟨S8192x1, .i32⟩
  | .hbm, ⟨14, _⟩ => ⟨S1x8192, .i32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v68 : BitVec 1 := Scalar.cmpi .eq arg1 c15_i32
  let v69 : BitVec 32 := Scalar.extui v68
  let c0_i32_37 : BitVec 32 := 0#32
  let v70 : BitVec 1 := Scalar.cmpi .ne v69 c0_i32_37
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reducesTo_S8192x1_S_d0_1 : S8192x1.ReducesTo [0, 1] S_
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .bf16 = 32 ∨ (Rect.block (s := S8192x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_v5) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S512x8192 : Shape := ⟨2, ![512, 8192]⟩
abbrev S8192x8192 : Shape := ⟨2, ![8192, 8192]⟩
abbrev S1x8192 : Shape := ⟨2, ![1, 8192]⟩

abbrev nBuf : Space → Nat
  | .hbm => 78
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S512x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x1, .i32⟩
  | .hbm, ⟨18, _⟩ => ⟨S1x8192, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .i1⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .i1⟩
  | .hbm, ⟨59, _⟩ => ⟨S_, .f32⟩
  | .hbm, ⟨60, _⟩ => ⟨S8192, .f32⟩
  | .hbm, ⟨61, _⟩ => ⟨S8192, .i1⟩
  | .hbm, ⟨62, _⟩ => ⟨S8192, .i1⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_call1_v0 : Ref sig .tc := ⟨.hbm, 71, rfl⟩
abbrev main_call1_v1 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.Kernel.Setup.lean ====
/-
  The pairwise-loss kernel, the ground its frame proof stands on.

  The region runs a 16 × 16 grid: point `t` has row tile `i = t / 16` and column tile `j = t % 16`. Windows 0 and 1
  are the row tile and the column tile of ONE array, the normalised embeddings; windows 2 and 3 the labels as a column
  and as a row; window 4 the per-row loss of row tile `i`, stored only at `j = 15`. Four scratch columns carry, over
  the sixteen column tiles of a row tile, the masked sums and the mask counts; they are reset at `j = 0`.

  Here: the arrays as the region finds them (the host lines before it applied to the launch memory), @main as
  "host lines, the region, host lines", a window's block at a point, the two branch conditions `j = 0` and `j = 15`
  in closed form over the 256 points, where the output window is idle, and the staging and scratch memrefs.
-/
import proofs.«171001_j17884243820948_1_alg».proof.Proof.Gen.Kernel.Launch
import proofs.«171001_j17884243820948_1_alg».proof.Proof.Gen.Kernel.Skeleton
import proofs.«171001_j17884243820948_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the row norms and the
    normalisation, cast and reshapes that precede the region. -/
abbrev V0 (c : Dev nD) : Valuation τ sig (Elt F) :=
  StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two stretches of host lines, the region, and the final sum and division: it reduces to the region
    continued by the last stretch, the buffers held at the contents after the first two. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the block index has not moved since the fetch (the row tile and the label column are fetched once per
    row tile, the column tile and the label row at every point). For any proof data over the entry contents whose
    body leaves the inputs in place; one statement per window, the blocks' shapes being literal only there. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branches of the body -/

/-- "This is the first column tile" (`j = 0`), as the body computes it from the grid coordinates. -/
abbrev isFirst (i : grid0.Coords) : Prop :=
  (Scalar.cmpi .ne (Scalar.extui (Scalar.cmpi .eq (BitVec.ofNat 32 (i 1).val) 0#32)) 0#32) = 1#1
/-- It holds at the points ≡ 0 (mod 16). -/
theorem isFirst_iff : ∀ t : Fin cfg0.N, isFirst (grid0.coords t) ↔ t.val % 16 = 0 :=
  (by decide +kernel : ∀ t : Fin grid0.N, isFirst (grid0.coords t) ↔ t.val % 16 = 0)

/-- "This is the last column tile" (`j = 15`). -/
abbrev isLast (i : grid0.Coords) : Prop := k0_cond2 i = 1#1
/-- It holds at the points ≡ 15 (mod 16). -/
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live_0 : ∀ i, cfg0.idle 0 i = false := fun _ => rfl
theorem live_1 : ∀ i, cfg0.idle 1 i = false := fun _ => rfl
theorem live_2 : ∀ i, cfg0.idle 2 i = false := fun _ => rfl
theorem live_3 : ∀ i, cfg0.idle 3 i = false := fun _ => rfl
/-- Away from the last column tile the body stores nothing into the output window, and the pipeline does not write
    it back there. -/
theorem idle_4 : ∀ t : Fin cfg0.N, ¬isLast (grid0.coords t) → cfg0.idle 4 (grid0.coords t) = true := by decide +kernel
theorem noFlush_4 : ∀ t : Fin cfg0.N, ¬isLast (grid0.coords t) → (cfg0.win 4).flush t = false := by decide +kernel
/-- At the last column tile the body stores the row tile's loss into it. -/
theorem live_4 : ∀ t : Fin cfg0.N, isLast (grid0.coords t) → cfg0.idle 4 (grid0.coords t) = false := by decide +kernel

/-! ## The memrefs the body is called with -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
/-- The four scratch columns: the masked sum over same-label pairs, over other-label pairs, and the two counts. -/
abbrev sc0 : Memref sig .tc .vmem S512x1 .f32 := Memref.whole cc0_scratch0
abbrev sc1 : Memref sig .tc .vmem S512x1 .f32 := Memref.whole cc0_scratch1
abbrev sc2 : Memref sig .tc .vmem S512x1 .f32 := Memref.whole cc0_scratch2
abbrev sc3 : Memref sig .tc .vmem S512x1 .f32 := Memref.whole cc0_scratch3

/-- What the region hands its body beside the windows: the four scratch columns at some contents and the generator
    register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.Kernel.Frame

end
-- ==== Proof.Kernel.RunFirst.lean ====
/-
  The kernel body run whole at the first column tile of a row tile (`j = 0`): the four scratch columns, whatever they held, are zeroed and then take the tile's four row sums; the output window is not touched.
  The run is the symbolic execution of the body's memory operations, each branch decided by the case's hypotheses;
  what each buffer ends with is found by the run itself, as the list of pieces stored into it (last first).
-/
import proofs.«171001_j17884243820948_1_alg».proof.Proof.Kernel.Setup

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four input blocks at `x0 … x3` — the body, at the first column tile of a row tile (`j = 0`), runs to the
    continuation holding the inputs as they were and each buffer it stored into with its pieces written. -/
noncomputable def runFirst (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i)
    (x0 x1 : Vec F S512x512 .bf16) (x2 : Vec F S512x1 .i32) (x3 : Vec F S1x512 .i32) :
    Σ' (L0 : List (View.Piece (Elt F) S512x1 .f32)) (L1 : List (View.Piece (Elt F) S512x1 .f32)) (L2 : List (View.Piece (Elt F) S512x1 .f32)), { L3 : List (View.Piece (Elt F) S512x1 .f32) //
      ∀ (xo : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
                ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1)
                ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f L3)) -∗ K ⟨⟩))
          ⊢ wp frame (wpE (defs₀ (F := F)) Variants.none c none) E (cc0__eml_kernel i arg2 harg2 arg3 harg3 arg4 harg4 arg5 harg5 arg6 harg6 arg7 harg7 arg8 harg8 arg9 harg9 arg10 harg10) K } := by
  refine ⟨?_, ?_, ?_, ?_, fun xo E K => ?run⟩
  case run =>
    simp only [cc0__eml_kernel_eq_skeleton]; unfold cc0__eml_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, HS0⟩, ⟨%d6, %f6, -, HS1⟩, ⟨%d7, %f7, -, HS2⟩, ⟨%d8, %f8, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Frame

end
-- ==== Proof.Kernel.RunMid.lean ====
/-
  The kernel body run whole at a column tile that is neither first nor last (`0 < j < 15`): the four scratch columns, at what the tile before left (`s0 … s3`), take the tile's four row sums on top; the output window is not touched.
  The run is the symbolic execution of the body's memory operations, each branch decided by the case's hypotheses;
  what each buffer ends with is found by the run itself, as the list of pieces stored into it (last first).
-/
import proofs.«171001_j17884243820948_1_alg».proof.Proof.Kernel.RunFirst

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four input blocks at `x0 … x3` — the body, at a column tile that is neither first nor last (`0 < j < 15`), runs to the
    continuation holding the inputs as they were and each buffer it stored into with its pieces written. -/
noncomputable def runMid (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i)
    (x0 x1 : Vec F S512x512 .bf16) (x2 : Vec F S512x1 .i32) (x3 : Vec F S1x512 .i32)
    (s0 s1 s2 s3 : Vec F S512x1 .f32) :
    Σ' (L0 : List (View.Piece (Elt F) S512x1 .f32)) (L1 : List (View.Piece (Elt F) S512x1 .f32)) (L2 : List (View.Piece (Elt F) S512x1 .f32)), { L3 : List (View.Piece (Elt F) S512x1 .f32) //
      ∀ (xo : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ owns (c : Thread nD τ) arg7 fullShare s0 ∗ owns (c : Thread nD τ) arg8 fullShare s1 ∗ owns (c : Thread nD τ) arg9 fullShare s2 ∗ owns (c : Thread nD τ) arg10 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
                ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1)
                ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f L3)) -∗ K ⟨⟩))
          ⊢ wp frame (wpE (defs₀ (F := F)) Variants.none c none) E (cc0__eml_kernel i arg2 harg2 arg3 harg3 arg4 harg4 arg5 harg5 arg6 harg6 arg7 harg7 arg8 harg8 arg9 harg9 arg10 harg10) K } := by
  refine ⟨?_, ?_, ?_, ?_, fun xo E K => ?run⟩
  case run =>
    simp only [cc0__eml_kernel_eq_skeleton]; unfold cc0__eml_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, HS0⟩, ⟨%f6, %hf6, HS1⟩, ⟨%f7, %hf7, HS2⟩, ⟨%f8, %hf8, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Frame

end
-- ==== Proof.Kernel.RunLast.lean ====
/-
  The kernel body run whole at the last column tile (`j = 15`): the four scratch columns, at what the tile before left (`s0 … s3`), take the tile's four row sums on top, and the row tile's loss, computed from the totals, is stored whole into the output window.
  The run is the symbolic execution of the body's memory operations, each branch decided by the case's hypotheses;
  what each buffer ends with is found by the run itself, as the list of pieces stored into it (last first).
-/
import proofs.«171001_j17884243820948_1_alg».proof.Proof.Kernel.RunMid

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four input blocks at `x0 … x3` — the body, at the last column tile (`j = 15`), runs to the
    continuation holding the inputs as they were and each buffer it stored into with its pieces written. -/
noncomputable def runLast (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i)
    (x0 x1 : Vec F S512x512 .bf16) (x2 : Vec F S512x1 .i32) (x3 : Vec F S1x512 .i32)
    (s0 s1 s2 s3 : Vec F S512x1 .f32) :
    Σ' (LO : List (View.Piece (Elt F) S512x1 .f32)) (L0 : List (View.Piece (Elt F) S512x1 .f32)) (L1 : List (View.Piece (Elt F) S512x1 .f32)) (L2 : List (View.Piece (Elt F) S512x1 .f32)), { L3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare s0 ∗ owns (c : Thread nD τ) arg8 fullShare s1 ∗ owns (c : Thread nD τ) arg9 fullShare s2 ∗ owns (c : Thread nD τ) arg10 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1)
                ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f L3)) -∗ K ⟨⟩))
          ⊢ wp frame (wpE (defs₀ (F := F)) Variants.none c none) E (cc0__eml_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__eml_kernel_eq_skeleton]; unfold cc0__eml_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, HS0⟩, ⟨%f6, %hf6, HS1⟩, ⟨%f7, %hf7, HS2⟩, ⟨%f8, %hf8, HS3⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.Kernel.Frame

end
-- ==== Proof.Kernel.Frame.lean ====
/-
  What the four scratch columns and the output window hold after each grid point, the region's proof data, and the
  body obligation.

  The contents are an accumulation over the points in grid order. At `j = 0` the scratch columns are reset and take
  the tile's row sums; at `0 < j < 15` they take the tile's row sums on top of what the point before left; at
  `j = 15` they do the same and the output window receives the row tile's loss computed from the totals. Each case's
  contents are what that case's whole-body run stored, read back; between the points of one row tile nothing else
  touches the scratch columns, and the output window, idle away from `j = 15`, is handed back as it was found.
-/
import proofs.«171001_j17884243820948_1_alg».proof.Proof.Kernel.RunLast
import Idealize.ShloMosaic.Lib.Ring

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point -/

/-- The views through which the output window's and the scratch columns' contents are stated (which staging buffer
    is chosen for the output does not matter: covering stores leave the same contents through any view). -/
abbrev VO : View sig .tc .vmem S512x1 .f32 := (Memref.whole cc0_stg4_0 : Memref sig .tc .vmem S512x1 .f32).view
abbrev VS0 : View sig .tc .vmem S512x1 .f32 := sc0.view
abbrev VS1 : View sig .tc .vmem S512x1 .f32 := sc1.view
abbrev VS2 : View sig .tc .vmem S512x1 .f32 := sc2.view
abbrev VS3 : View sig .tc .vmem S512x1 .f32 := sc3.view

/-- The output window's block and the four scratch columns, as one record. -/
structure Acc (F : FTy → Type) [FloatOps F] where
  out : Vec F S512x1 .f32
  s0 : Vec F S512x1 .f32
  s1 : Vec F S512x1 .f32
  s2 : Vec F S512x1 .f32
  s3 : Vec F S512x1 .f32

/-- The body's run at point `t`, a first column tile, on the point's staging memrefs and input blocks. -/
abbrev rF (c : Dev nD) (t : Fin cfg0.N) (h0 : t.val % 16 = 0) (h1 : ¬t.val % 16 = 15) :=
  runFirst (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _)
    ((isFirst_iff t).mpr h0) (fun h => h1 ((isLast_iff t).mp h)) (iblk m c 0 t) (iblk m c 1 t) (iblk m c 2 t) (iblk m c 3 t)
/-- The same at a middle column tile, the scratch columns at `p`'s. -/
abbrev rM (c : Dev nD) (t : Fin cfg0.N) (h0 : ¬t.val % 16 = 0) (h1 : ¬t.val % 16 = 15) (p : Acc F) :=
  runMid (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _)
    (fun h => h0 ((isFirst_iff t).mp h)) (fun h => h1 ((isLast_iff t).mp h)) (iblk m c 0 t) (iblk m c 1 t) (iblk m c 2 t) (iblk m c 3 t) p.s0 p.s1 p.s2 p.s3
/-- The same at the last column tile. -/
abbrev rL (c : Dev nD) (t : Fin cfg0.N) (h0 : ¬t.val % 16 = 0) (h1 : t.val % 16 = 15) (p : Acc F) :=
  runLast (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _)
    (fun h => h0 ((isFirst_iff t).mp h)) ((isLast_iff t).mpr h1) (iblk m c 0 t) (iblk m c 1 t) (iblk m c 2 t) (iblk m c 3 t) p.s0 p.s1 p.s2 p.s3

/-! ## The stores of each case cover the column they go to -/

theorem coverF0 (c : Dev nD) (t : Fin cfg0.N) (h0 : t.val % 16 = 0) (h1 : ¬t.val % 16 = 15) (y : S512x1.Idx) : ∃ pc ∈ (rF m c t h0 h1).1, y ∈ pc.1.set :=
  View.cover_of_tiledL (rF m c t h0 h1).1 S512x1.size (by sl_kernel_rfl) y
theorem coverF1 (c : Dev nD) (t : Fin cfg0.N) (h0 : t.val % 16 = 0) (h1 : ¬t.val % 16 = 15) (y : S512x1.Idx) : ∃ pc ∈ (rF m c t h0 h1).2.1, y ∈ pc.1.set :=
  View.cover_of_tiledL (rF m c t h0 h1).2.1 S512x1.size (by sl_kernel_rfl) y
theorem coverF2 (c : Dev nD) (t : Fin cfg0.N) (h0 : t.val % 16 = 0) (h1 : ¬t.val % 16 = 15) (y : S512x1.Idx) : ∃ pc ∈ (rF m c t h0 h1).2.2.1, y ∈ pc.1.set :=
  View.cover_of_tiledL (rF m c t h0 h1).2.2.1 S512x1.size (by sl_kernel_rfl) y
theorem coverF3 (c : Dev nD) (t : Fin cfg0.N) (h0 : t.val % 16 = 0) (h1 : ¬t.val % 16 = 15) (y : S512x1.Idx) : ∃ pc ∈ (rF m c t h0 h1).2.2.2.1, y ∈ pc.1.set :=
  View.cover_of_tiledL (rF m c t h0 h1).2.2.2.1 S512x1.size (by sl_kernel_rfl) y

theorem coverM0 (c : Dev nD) (t : Fin cfg0.N) (h0 : ¬t.val % 16 = 0) (h1 : ¬t.val % 16 = 15) (p : Acc F) (y : S512x1.Idx) : ∃ pc ∈ (rM m c t h0 h1 p).1, y ∈ pc.1.set :=
  View.cover_of_tiledL (rM m c t h0 h1 p).1 S512x1.size (by sl_kernel_rfl) y
theorem coverM1 (c : Dev nD) (t : Fin cfg0.N) (h0 : ¬t.val % 16 = 0) (h1 : ¬t.val % 16 = 15) (p : Acc F) (y : S512x1.Idx) : ∃ pc ∈ (rM m c t h0 h1 p).2.1, y ∈ pc.1.set :=
  View.cover_of_tiledL (rM m c t h0 h1 p).2.1 S512x1.size (by sl_kernel_rfl) y
theorem coverM2 (c : Dev nD) (t : Fin cfg0.N) (h0 : ¬t.val % 16 = 0) (h1 : ¬t.val % 16 = 15) (p : Acc F) (y : S512x1.Idx) : ∃ pc ∈ (rM m c t h0 h1 p).2.2.1, y ∈ pc.1.set :=
  View.cover_of_tiledL (rM m c t h0 h1 p).2.2.1 S512x1.size (by sl_kernel_rfl) y
theorem coverM3 (c : Dev nD) (t : Fin cfg0.N) (h0 : ¬t.val % 16 = 0) (h1 : ¬t.val % 16 = 15) (p : Acc F) (y : S512x1.Idx) : ∃ pc ∈ (rM m c t h0 h1 p).2.2.2.1, y ∈ pc.1.set :=
  View.cover_of_tiledL (rM m c t h0 h1 p).2.2.2.1 S512x1.size (by sl_kernel_rfl) y

theorem coverLO (c : Dev nD) (t : Fin cfg0.N) (h0 : ¬t.val % 16 = 0) (h1 : t.val % 16 = 15) (p : Acc F) (y : S512x1.Idx) : ∃ pc ∈ (rL m c t h0 h1 p).1, y ∈ pc.1.set :=
  View.cover_of_tiledL (rL m c t h0 h1 p).1 S512x1.size (by sl_kernel_rfl) y
theorem coverL0 (c : Dev nD) (t : Fin cfg0.N) (h0 : ¬t.val % 16 = 0) (h1 : t.val % 16 = 15) (p : Acc F) (y : S512x1.Idx) : ∃ pc ∈ (rL m c t h0 h1 p).2.1, y ∈ pc.1.set :=
  View.cover_of_tiledL (rL m c t h0 h1 p).2.1 S512x1.size (by sl_kernel_rfl) y
theorem coverL1 (c : Dev nD) (t : Fin cfg0.N) (h0 : ¬t.val % 16 = 0) (h1 : t.val % 16 = 15) (p : Acc F) (y : S512x1.Idx) : ∃ pc ∈ (rL m c t h0 h1 p).2.2.1, y ∈ pc.1.set :=
  View.cover_of_tiledL (rL m c t h0 h1 p).2.2.1 S512x1.size (by sl_kernel_rfl) y
theorem coverL2 (c : Dev nD) (t : Fin cfg0.N) (h0 : ¬t.val % 16 = 0) (h1 : t.val % 16 = 15) (p : Acc F) (y : S512x1.Idx) : ∃ pc ∈ (rL m c t h0 h1 p).2.2.2.1, y ∈ pc.1.set :=
  View.cover_of_tiledL (rL m c t h0 h1 p).2.2.2.1 S512x1.size (by sl_kernel_rfl) y
theorem coverL3 (c : Dev nD) (t : Fin cfg0.N) (h0 : ¬t.val % 16 = 0) (h1 : t.val % 16 = 15) (p : Acc F) (y : S512x1.Idx) : ∃ pc ∈ (rL m c t h0 h1 p).2.2.2.2.1, y ∈ pc.1.set :=
  View.cover_of_tiledL (rL m c t h0 h1 p).2.2.2.2.1 S512x1.size (by sl_kernel_rfl) y

/-! ## What each case leaves -/

/-- After a first column tile: the scratch columns at what the run stored; the output window is not consulted there
    (a placeholder). -/
def accFirst (c : Dev nD) (t : Fin cfg0.N) (h0 : t.val % 16 = 0) (h1 : ¬t.val % 16 = 15) : Acc F where
  out := VO.read (Elt F) VO.junk
  s0 := VS0.read (Elt F) (VS0.writes (Elt F) VS0.junk (rF m c t h0 h1).1)
  s1 := VS1.read (Elt F) (VS1.writes (Elt F) VS1.junk (rF m c t h0 h1).2.1)
  s2 := VS2.read (Elt F) (VS2.writes (Elt F) VS2.junk (rF m c t h0 h1).2.2.1)
  s3 := VS3.read (Elt F) (VS3.writes (Elt F) VS3.junk (rF m c t h0 h1).2.2.2.1)

/-- After a middle column tile, from the scratch columns `p` the point before left. -/
def accMid (c : Dev nD) (t : Fin cfg0.N) (h0 : ¬t.val % 16 = 0) (h1 : ¬t.val % 16 = 15) (p : Acc F) : Acc F where
  out := VO.read (Elt F) VO.junk
  s0 := VS0.read (Elt F) (VS0.writes (Elt F) VS0.junk (rM m c t h0 h1 p).1)
  s1 := VS1.read (Elt F) (VS1.writes (Elt F) VS1.junk (rM m c t h0 h1 p).2.1)
  s2 := VS2.read (Elt F) (VS2.writes (Elt F) VS2.junk (rM m c t h0 h1 p).2.2.1)
  s3 := VS3.read (Elt F) (VS3.writes (Elt F) VS3.junk (rM m c t h0 h1 p).2.2.2.1)

/-- After the last column tile: also the output window, at the row tile's loss. -/
def accLast (c : Dev nD) (t : Fin cfg0.N) (h0 : ¬t.val % 16 = 0) (h1 : t.val % 16 = 15) (p : Acc F) : Acc F where
  out := VO.read (Elt F) (VO.writes (Elt F) VO.junk (rL m c t h0 h1 p).1)
  s0 := VS0.read (Elt F) (VS0.writes (Elt F) VS0.junk (rL m c t h0 h1 p).2.1)
  s1 := VS1.read (Elt F) (VS1.writes (Elt F) VS1.junk (rL m c t h0 h1 p).2.2.1)
  s2 := VS2.read (Elt F) (VS2.writes (Elt F) VS2.junk (rL m c t h0 h1 p).2.2.2.1)
  s3 := VS3.read (Elt F) (VS3.writes (Elt F) VS3.junk (rL m c t h0 h1 p).2.2.2.2.1)

/-- THE ACCUMULATION: the record after the body at position `n`, by recursion on the position — the case its
    column tile selects, a middle or last tile from what position `n - 1` left. -/
def accAt (c : Dev nD) : (n : ℕ) → n < cfg0.N → Acc F
  | 0, hn => accFirst m c ⟨0, hn⟩ (Nat.zero_mod _) (show ¬(0 : ℕ) % 16 = 15 by decide)
  | n + 1, hn =>
    if h0 : (n + 1) % 16 = 0 then
      if h1 : (n + 1) % 16 = 15 then False.elim (by omega)
      else accFirst m c ⟨n + 1, hn⟩ h0 h1
    else
      if h1 : (n + 1) % 16 = 15 then accLast m c ⟨n + 1, hn⟩ h0 h1 (accAt c n (Nat.lt_of_succ_lt hn))
      else accMid m c ⟨n + 1, hn⟩ h0 h1 (accAt c n (Nat.lt_of_succ_lt hn))

theorem accAt_first (c : Dev nD) (t : Fin cfg0.N) (h0 : t.val % 16 = 0) (h1 : ¬t.val % 16 = 15) : accAt m c t.val t.isLt = accFirst m c t h0 h1 := by
  obtain ⟨n, hn⟩ := t
  cases n with
  | zero => exact rfl
  | succ n => exact (dif_pos h0).trans ((dif_neg h1).trans rfl)

theorem accAt_mid (c : Dev nD) (t : Fin cfg0.N) (h0 : ¬t.val % 16 = 0) (h1 : ¬t.val % 16 = 15) :
    accAt m c t.val t.isLt = accMid m c t h0 h1 (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_last (c : Dev nD) (t : Fin cfg0.N) (h0 : ¬t.val % 16 = 0) (h1 : t.val % 16 = 15) :
    accAt m c t.val t.isLt = accLast m c t h0 h1 (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region's invariant -/

/-- Before position `n`: at the very first point the scratch columns hold anything; afterwards what position
    `n - 1` left. The generator register rides along at some state. -/
def PhiS (c : Dev nD) : (n : ℕ) → n ≤ cfg0.N → sProp 𝕄
  | 0, _ => Pipeline.ΦA spec0 c
  | n + 1, hn => iprop(iprop(owns (c : Thread nD τ) sc0 fullShare (accAt m c n hn).s0 ∗ owns (c : Thread nD τ) sc1 fullShare (accAt m c n hn).s1
      ∗ owns (c : Thread nD τ) sc2 fullShare (accAt m c n hn).s2 ∗ owns (c : Thread nD τ) sc3 fullShare (accAt m c n hn).s3) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (accAt m c n hn).s0 ∗ owns (c : Thread nD τ) sc1 fullShare (accAt m c n hn).s1
      ∗ owns (c : Thread nD τ) sc2 fullShare (accAt m c n hn).s2 ∗ owns (c : Thread nD τ) sc3 fullShare (accAt m c n hn).s3) ∗ (∃ r, prngReg c r)) := rfl

theorem PhiS_pos (c : Dev nD) (n : ℕ) (h : n ≤ cfg0.N) (hz : n ≠ 0) :
    PhiS m c n h = iprop(iprop(owns (c : Thread nD τ) sc0 fullShare (accAt m c (n - 1) (by omega)).s0 ∗ owns (c : Thread nD τ) sc1 fullShare (accAt m c (n - 1) (by omega)).s1
      ∗ owns (c : Thread nD τ) sc2 fullShare (accAt m c (n - 1) (by omega)).s2 ∗ owns (c : Thread nD τ) sc3 fullShare (accAt m c (n - 1) (by omega)).s3) ∗ (∃ r, prngReg c r)) := by
  cases n with
  | zero => exact absurd rfl hz
  | succ n => rfl

/-! ## The proof data -/

/-- The proof data of the region on core `c`: the arrays as the region finds them; after the body each input's
    buffer at its block, the output's at the accumulation's; the invariant `PhiS`; nothing owed. The two windows
    on the embeddings array hold one half of it each; every other array is held outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accAt m c t.val t.isLt).out
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (accAt m c t.val t.isLt).out := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point. The inputs' memrefs hold their blocks; the point's column tile says which run applies; the
    invariant hands the body the scratch columns at what the point before left (at anything at the very first point)
    and takes them back at this point's contents; away from the last column tile the output window goes back as it
    came. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0 t) fullShare ((dats m 0 c).after 0 t) from by
    unfold Dat.leavesExact; rw [live_0], after_0]
  rw [show (dats m 0 c).leavesExact 1 t = owns (c : Thread nD τ) (ms1 t) fullShare ((dats m 0 c).after 1 t) from by
    unfold Dat.leavesExact; rw [live_1], after_1]
  rw [show (dats m 0 c).leavesExact 2 t = owns (c : Thread nD τ) (ms2 t) fullShare ((dats m 0 c).after 2 t) from by
    unfold Dat.leavesExact; rw [live_2], after_2]
  rw [show (dats m 0 c).leavesExact 3 t = owns (c : Thread nD τ) (ms3 t) fullShare ((dats m 0 c).after 3 t) from by
    unfold Dat.leavesExact; rw [live_3], after_3]
  by_cases h0 : t.val % 16 = 0
  · by_cases h1 : t.val % 16 = 15
    · exfalso; omega
    · rw [Dat.leavesExact_idle (dats m 0 c) 4 t (idle_4 t (fun h => h1 ((isLast_iff t).mp h))) (noFlush_4 t (fun h => h1 ((isLast_iff t).mp h)))]
      rw [accAt_first m c t h0 h1]
      unfold accFirst; (try dsimp only)
      by_cases hz : t.val = 0
      · rw [PhiS_castSucc m c t, PhiS_zero m c _ _ hz, PhiA_eq]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((rF m c t h0 h1).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%e0, HS0⟩, ⟨%e1, HS1⟩, ⟨%e2, HS2⟩, ⟨%e3, HS3⟩⟩
        isplitl [HS0 HS1 HS2 HS3 Hg]
        · isplitr [Hg]
          · isplitl [HS0]
            · unfold owns; iexists _; isplitr
              swap; · iexact HS0
              ipureintro; exact View.read_writes_of_cover _ _ _ _ _ (coverF0 m c t h0 h1)
            isplitl [HS1]
            · unfold owns; iexists _; isplitr
              swap; · iexact HS1
              ipureintro; exact View.read_writes_of_cover _ _ _ _ _ (coverF1 m c t h0 h1)
            isplitl [HS2]
            · unfold owns; iexists _; isplitr
              swap; · iexact HS2
              ipureintro; exact View.read_writes_of_cover _ _ _ _ _ (coverF2 m c t h0 h1)
            unfold owns; iexists _; isplitr
            swap; · iexact HS3
            ipureintro; exact View.read_writes_of_cover _ _ _ _ _ (coverF3 m c t h0 h1)
          · iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((rF m c t h0 h1).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%e0, HS0⟩, ⟨%e1, HS1⟩, ⟨%e2, HS2⟩, ⟨%e3, HS3⟩⟩
        isplitl [HS0 HS1 HS2 HS3 Hg]
        · isplitr [Hg]
          · isplitl [HS0]
            · unfold owns; iexists _; isplitr
              swap; · iexact HS0
              ipureintro; exact View.read_writes_of_cover _ _ _ _ _ (coverF0 m c t h0 h1)
            isplitl [HS1]
            · unfold owns; iexists _; isplitr
              swap; · iexact HS1
              ipureintro; exact View.read_writes_of_cover _ _ _ _ _ (coverF1 m c t h0 h1)
            isplitl [HS2]
            · unfold owns; iexists _; isplitr
              swap; · iexact HS2
              ipureintro; exact View.read_writes_of_cover _ _ _ _ _ (coverF2 m c t h0 h1)
            unfold owns; iexists _; isplitr
            swap; · iexact HS3
            ipureintro; exact View.read_writes_of_cover _ _ _ _ _ (coverF3 m c t h0 h1)
          · iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 16 = 15
    · rw [show (dats m 0 c).leavesExact 4 t = owns (c : Thread nD τ) (ms4 t) fullShare ((dats m 0 c).after 4 t) from by
        unfold Dat.leavesExact; rw [live_4 t ((isLast_iff t).mpr h1)], after_4]
      rw [accAt_last m c t h0 h1]
      unfold accLast; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((rL m c t h0 h1 _).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%e0, HS0⟩, ⟨%e1, HS1⟩, ⟨%e2, HS2⟩, ⟨%e3, HS3⟩⟩
      isplitl [HS0 HS1 HS2 HS3 Hg]
      · isplitr [Hg]
        · isplitl [HS0]
          · unfold owns; iexists _; isplitr
            swap; · iexact HS0
            ipureintro; exact View.read_writes_of_cover _ _ _ _ _ (coverL0 m c t h0 h1 _)
          isplitl [HS1]
          · unfold owns; iexists _; isplitr
            swap; · iexact HS1
            ipureintro; exact View.read_writes_of_cover _ _ _ _ _ (coverL1 m c t h0 h1 _)
          isplitl [HS2]
          · unfold owns; iexists _; isplitr
            swap; · iexact HS2
            ipureintro; exact View.read_writes_of_cover _ _ _ _ _ (coverL2 m c t h0 h1 _)
          unfold owns; iexists _; isplitr
          swap; · iexact HS3
          ipureintro; exact View.read_writes_of_cover _ _ _ _ _ (coverL3 m c t h0 h1 _)
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLO m c t h0 h1 _)
    · rw [Dat.leavesExact_idle (dats m 0 c) 4 t (idle_4 t (fun h => h1 ((isLast_iff t).mp h))) (noFlush_4 t (fun h => h1 ((isLast_iff t).mp h)))]
      rw [accAt_mid m c t h0 h1]
      unfold accMid; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((rM m c t h0 h1 _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3 Hg]
      · isplitr [Hg]
        · isplitl [HS0]
          · unfold owns; iexists _; isplitr
            swap; · iexact HS0
            ipureintro; exact View.read_writes_of_cover _ _ _ _ _ (coverM0 m c t h0 h1 _)
          isplitl [HS1]
          · unfold owns; iexists _; isplitr
            swap; · iexact HS1
            ipureintro; exact View.read_writes_of_cover _ _ _ _ _ (coverM1 m c t h0 h1 _)
          isplitl [HS2]
          · unfold owns; iexists _; isplitr
            swap; · iexact HS2
            ipureintro; exact View.read_writes_of_cover _ _ _ _ _ (coverM2 m c t h0 h1 _)
          unfold owns; iexists _; isplitr
          swap; · iexact HS3
          ipureintro; exact View.read_writes_of_cover _ _ _ _ _ (coverM3 m c t h0 h1 _)
        · iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch columns back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA_eq]
  iintro ⟨⟨HS0, HS1, HS2, HS3⟩, Hg⟩
  isplitr [Hg]
  · isplitl [HS0]; · iexists _; iexact HS0
    isplitl [HS1]; · iexists _; iexact HS1
    isplitl [HS2]; · iexists _; iexact HS2
    iexists _; iexact HS3
  · iexact Hg

end Cert.Kernel.Frame

end
-- ==== Proof.Kernel.Launch.lean ====
/-
  The launch: @main is the host lines that normalise the embeddings and reshape the labels, the region, and the final
  sum and division. The region's first two windows read ONE array, the normalised embeddings: the row tile and the
  column tile. Its buffer is split in two halves, one per window; neither window writes, so both end holding it at
  its entry contents. After the region the host tail reads the per-row losses the region wrote and leaves the result.

  `run_main`: every weakly fair execution terminates, the result buffer at the tail's value of what the region left
  in the loss column, the two argument arrays as they were.
-/
import proofs.«171001_j17884243820948_1_alg».proof.Proof.Kernel.Frame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, one by one -/

/-- The region's arrays at contents `Fa`: the embeddings' buffer in two halves, the label column, the label row and
    the loss column outright. -/
theorem arrays_open (c : Dev nD) (Fa : (w : Fin cfg0.W) → Buf (Elt F) ((cfg0.win w).arr.view.loc (c : Thread nD τ))) :
    ((dats m 0 c).arrays Fa : sProp 𝕄)
      = iprop((((c : Thread nD τ).loc main_v5) ↦{fullShare.left} Fa 0) ∗ (((c : Thread nD τ).loc main_v5) ↦{fullShare.right} Fa 1)
          ∗ (((c : Thread nD τ).loc main_v6) ↦{fullShare} Fa 2) ∗ (((c : Thread nD τ).loc main_v7) ↦{fullShare} Fa 3)
          ∗ (((c : Thread nD τ).loc main_v8) ↦{fullShare} Fa 4)) := by
  unfold Dat.arrays
  rw [bigSep_W0]
  simp only [(arr_whole0 0).set_eq_univ, (arr_whole0 1).set_eq_univ, (arr_whole0 2).set_eq_univ, (arr_whole0 3).set_eq_univ, (arr_whole0 4).set_eq_univ]
  rfl

/-- The buffers behind the arrays, whole, split among the windows: the embeddings' in two halves. -/
theorem hsplit (c : Dev nD) :
    (Pipeline.arrBufs spec0 c (V m c) : sProp 𝕄) ⊢ (dats m 0 c).arrays ((dats m 0 c).arrAt · 0) := by
  rw [arrays_open]
  unfold Pipeline.arrBufs
  rw [bigSep_eq_bigSepL_of_eq [main_v5, main_v6, main_v7, main_v8] (by decide) (by decide)]
  show iprop((((c : Thread nD τ).loc main_v5) ↦{fullShare} V m c main_v5) ∗ (((c : Thread nD τ).loc main_v6) ↦{fullShare} V m c main_v6)
      ∗ (((c : Thread nD τ).loc main_v7) ↦{fullShare} V m c main_v7) ∗ (((c : Thread nD τ).loc main_v8) ↦{fullShare} V m c main_v8)) ⊢ _
  iintro ⟨H5, H6, H7, H8⟩
  ihave H := (pointsTo_share (PosShare.mem_left_op_right fullShare)).1 $$ H5
  icases H with ⟨H5l, H5r⟩
  isplitl [H5l]; · iexact H5l
  isplitl [H5r]; · iexact H5r
  isplitl [H6]; · iexact H6
  isplitl [H7]; · iexact H7
  iexact H8

/-! ## The host tail -/

/-- The buffers the final sum and division touch: the loss column and the four buffers they write. -/
def tailS : Finset (DevRef τ sig) :=
  {Proc.devRef .tc main_v8, Proc.devRef .tc main_cst_0, Proc.devRef .tc main_v9, Proc.devRef .tc main_cst_1, Proc.devRef .tc main_v10}

theorem tailS_eq (c : Dev nD) (W : Valuation τ sig (Elt F)) : (StableHlo.held (c : Thread nD τ) tailS W : sProp 𝕄)
    = iprop((((c : Thread nD τ).loc main_v8) ↦{fullShare} W main_v8) ∗ (((c : Thread nD τ).loc main_cst_0) ↦{fullShare} W main_cst_0)
        ∗ (((c : Thread nD τ).loc main_v9) ↦{fullShare} W main_v9) ∗ (((c : Thread nD τ).loc main_cst_1) ↦{fullShare} W main_cst_1)
        ∗ (((c : Thread nD τ).loc main_v10) ↦{fullShare} W main_v10)) := by
  unfold StableHlo.held
  rw [bigSep_eq_bigSepL_of_eq [Proc.devRef .tc main_v8, Proc.devRef .tc main_cst_0, Proc.devRef .tc main_v9, Proc.devRef .tc main_cst_1, Proc.devRef .tc main_v10] (by decide) (by decide)]
  rfl

theorem hostOps1_in : ∀ op ∈ (hostOps1 : List (HloOp τ sig (Elt F))), op.bufs ⊆ tailS := by
  intro op hop
  simp only [hostOps1, List.mem_cons, List.mem_nil_iff, or_false] at hop
  rcases hop with rfl | rfl | rfl | rfl
  · exact Finset.singleton_subset_iff.mpr (by decide)
  · exact Finset.insert_subset (by decide) (Finset.insert_subset (by decide) (Finset.singleton_subset_iff.mpr (by decide)))
  · exact Finset.singleton_subset_iff.mpr (by decide)
  · exact Finset.insert_subset (by decide) (Finset.insert_subset (by decide) (Finset.singleton_subset_iff.mpr (by decide)))

/-- The contents at the region's exit: the loss column at what the write-backs left, every other buffer as the region
    found it. -/
abbrev Wx (c : Dev nD) : Valuation τ sig (Elt F) :=
  Function.update (V0 m c) (Proc.devRef .tc main_v8) ((dats m 0 c).arrAt 4 cfg0.N)
/-- And after the final sum and division. -/
abbrev Wf (c : Dev nD) : Valuation τ sig (Elt F) := StableHlo.after hostOps1 (Wx m c)

theorem Wx_v8 (c : Dev nD) : Wx m c main_v8 = (dats m 0 c).arrAt 4 cfg0.N := Function.update_self ..
theorem Wx_cst_0 (c : Dev nD) : Wx m c main_cst_0 = V m c main_cst_0 := Function.update_of_ne (by decide) ..
theorem Wx_v9 (c : Dev nD) : Wx m c main_v9 = V m c main_v9 := Function.update_of_ne (by decide) ..
theorem Wx_cst_1 (c : Dev nD) : Wx m c main_cst_1 = V m c main_cst_1 := Function.update_of_ne (by decide) ..
theorem Wx_v10 (c : Dev nD) : Wx m c main_v10 = V m c main_v10 := Function.update_of_ne (by decide) ..

/-- The final sum and division write none of the loss column: it is after them what it was at the region's exit. -/
theorem Wf_v8 (c : Dev nD) : Wf m c main_v8 = (dats m 0 c).arrAt 4 cfg0.N := by
  show StableHlo.after hostOps1 (Wx m c) (Proc.devRef .tc main_v8) = _
  rw [StableHlo.after_of_forall_not_mem _ _ (fun op hop => by
    simp only [hostOps1, List.mem_cons, List.mem_nil_iff, or_false] at hop
    rcases hop with rfl | rfl | rfl | rfl <;>
      simp only [StableHlo.nullary_writes, StableHlo.binary_writes, Finset.mem_singleton] <;>
      exact StableHlo.devRef_ne_of_ne (by decide))]
  exact Wx_v8 m c

/-- What is kept to the end: the two argument arrays and the result. -/
abbrev Zfin (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v10) ↦{fullShare} Wf m c main_v10))

set_option backward.isDefEq.respectTransparency.types false in
/-- The lines after the region: from the arrays at their exit contents and the bypassing buffers as the region found
    them, the sum over the loss column and the division run, and hand back the arrays and what is kept. -/
theorem htail (c : Dev nD) (Q' : PUnit → sProp 𝕄) :
    iprop((iprop((dats m 0 c).arrays ((dats m 0 c).arrAt · cfg0.N) ∗ Zfin m c) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  rw [arrays_open, Pipeline.unscopedRestP_none, unscopedRest0_eq]
  iintro ⟨Hk, Hb, ⟨A0, A1, A2, A3, A4⟩, ⟨R0, R1, R2, R3, R4, R5, R6, R7, R8, R9, R10, R11, R12, R13, R14, R15⟩⟩
  rw [Pipeline.chain_cons, Pipeline.chain_nil]
  have hrefl : (iprop(boundary (c : Thread nD τ) ∗ StableHlo.held (c : Thread nD τ) tailS (Wx m c)) : sProp 𝕄)
      ⊢ iprop(boundary (c : Thread nD τ) ∗ StableHlo.held (c : Thread nD τ) tailS (Wx m c)) := .rfl
  ihave H := hrefl $$ [Hb A4 R12 R13 R14 R15]
  · isplitl [Hb]; · iexact Hb
    rw [tailS_eq, Wx_v8, Wx_cst_0, Wx_v9, Wx_cst_1, Wx_v10]
    isplitl [A4]; · iexact A4
    isplitl [R12]; · iexact R12
    isplitl [R13]; · iexact R13
    isplitl [R14]; · iexact R14
    iexact R15
  iapply (StableHlo.wp_seq (Variants.lift Variants.none) none Set.univ c tailS _ hostOps1 hostOps1_in
    (fun op hop => (List.forall_iff_forall_mem.mp hostOps1_fresh) op hop) (Wx m c)) $$ H
  iintro ⟨Hb, Hh⟩
  ihave Hh' := (Entails.of_eq (tailS_eq c (Wf m c))) $$ Hh
  icases Hh' with ⟨A4w, -, -, -, H10⟩
  ihave A4 := (Entails.of_eq (congrArg (fun f => (((c : Thread nD τ).loc main_v8) ↦{fullShare} f : sProp 𝕄)) (Wf_v8 m c))) $$ A4w
  iapply (Pipeline.tail_ret (fun q => (cfgs q).toPCfg (Val := Elt F)) (Pipeline.defs (fun q => (cfgs q).toPCfg (Val := Elt F)) defs₀)
    (Variants.lift Variants.none) c _ (boundary (c : Thread nD τ)) _ Q')
  isplitl [Hk]; · iexact Hk
  isplitl [Hb]; · iexact Hb
  isplitl [A0 A1 A2 A3 A4]
  · isplitl [A0]; · iexact A0
    isplitl [A1]; · iexact A1
    isplitl [A2]; · iexact A2
    isplitl [A3]; · iexact A3
    iexact A4
  isplitl [R0]; · iexact R0
  isplitl [R1]; · iexact R1
  iexact H10

/-! ## The arguments pass through the host prefix untouched -/

theorem V_arg0 (c : Dev nD) : V m c main_arg0 = m ((c : Thread nD τ).loc main_arg0) := by
  dsimp only [V, V0]
  simp only [hostOps0, hostOps0_1, List.flatten_cons, List.flatten_nil, List.append_nil, List.cons_append, List.nil_append]
  after_results
theorem V_arg1 (c : Dev nD) : V m c main_arg1 = m ((c : Thread nD τ).loc main_arg1) := by
  dsimp only [V, V0]
  simp only [hostOps0, hostOps0_1, List.flatten_cons, List.flatten_nil, List.append_nil, List.cons_append, List.nil_append]
  after_results

/-! ## The run -/

set_option backward.isDefEq.respectTransparency.types false in
/-- From any memory with zero counters every weakly fair execution of @main terminates; the result buffer ends at the
    final sum and division of what the region left in the loss column, and the two argument arrays end as they began. -/
theorem run_main : θ_run defs (onTc (τ := τ) (main (F := F))) ⟨m, fun _ => 0, ρ⟩ (fun r => ∀ c : Dev nD,
      r.2.mem ((c : Thread nD τ).loc main_v10) = Wf m c main_v10
      ∧ r.2.mem ((c : Thread nD τ).loc main_arg0) = m ((c : Thread nD τ).loc main_arg0)
      ∧ r.2.mem ((c : Thread nD τ).loc main_arg1) = m ((c : Thread nD τ).loc main_arg1)) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp))
    (u₀ := initOf (Pipeline.cells (Pipeline.pin (fun q => (cfgs q).toPCfg (Val := Elt F)) (fun q => (cfgs q).toPCfg_adm)) cellOf_inj)
      (Pipeline.launchToks (Pipeline.pin (fun q => (cfgs q).toPCfg (Val := Elt F)) (fun q => (cfgs q).toPCfg_adm)) cellOf_inj))
    (hu₀ := by
      iintro Hu; imodintro
      isplitl [Hu]
      · iapply (show (ownU _ : sProp 𝕄) ⊢ BI.own (emb₁ (initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := Zfin m)
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c : Thread nD τ).loc main_arg0) = V m c main_arg0 ∧ s.mem ((c : Thread nD τ).loc main_arg1) = V m c main_arg1
      ∧ s.mem ((c : Thread nD τ).loc main_v10) = Wf m c main_v10)
    (hY := fun c s' => by
      iintro ⟨-, ⟨Ha0, Ha1, H10⟩, HSI⟩
      icombine HSI Ha0 gives %h0
      icombine HSI Ha1 gives %h1
      icombine HSI H10 gives %h10
      imodintro
      isplitr; · ipureintro; exact ⟨Buf.eq_of_forall_mem_univ h0, Buf.eq_of_forall_mem_univ h1, Buf.eq_of_forall_mem_univ h10⟩
      iexact HSI)
    (hQ := fun s h c => by
      obtain ⟨-, -, h0, h1, h10⟩ := h c
      exact ⟨h10, h0.trans (V_arg0 m c), h1.trans (V_arg1 m c)⟩)

end Cert.Kernel.Frame

end
-- ==== Proof.KernelIdeal.Setup.lean ====
/-
  The pairwise-loss kernel, the ground its frame proof stands on.

  The region runs a 16 × 16 grid: point `t` has row tile `i = t / 16` and column tile `j = t % 16`. Windows 0 and 1
  are the row tile and the column tile of ONE array, the normalised embeddings; windows 2 and 3 the labels as a column
  and as a row; window 4 the per-row loss of row tile `i`, stored only at `j = 15`. Four scratch columns carry, over
  the sixteen column tiles of a row tile, the masked sums and the mask counts; they are reset at `j = 0`.

  Here: the arrays as the region finds them (the host lines before it applied to the launch memory), @main as
  "host lines, the region, host lines", a window's block at a point, the two branch conditions `j = 0` and `j = 15`
  in closed form over the 256 points, where the output window is idle, and the staging and scratch memrefs.
-/
import proofs.«171001_j17884243820948_1_alg».proof.Proof.Gen.KernelIdeal.Launch
import proofs.«171001_j17884243820948_1_alg».proof.Proof.Gen.KernelIdeal.Skeleton
import proofs.«171001_j17884243820948_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the row norms and the
    normalisation, cast and reshapes that precede the region. -/
abbrev V0 (c : Dev nD) : Valuation τ sig (Elt F) :=
  StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two stretches of host lines, the region, and the final sum and division: it reduces to the region
    continued by the last stretch, the buffers held at the contents after the first two. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the block index has not moved since the fetch (the row tile and the label column are fetched once per
    row tile, the column tile and the label row at every point). For any proof data over the entry contents whose
    body leaves the inputs in place; one statement per window, the blocks' shapes being literal only there. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branches of the body -/

/-- "This is the first column tile" (`j = 0`), as the body computes it from the grid coordinates. -/
abbrev isFirst (i : grid0.Coords) : Prop :=
  (Scalar.cmpi .ne (Scalar.extui (Scalar.cmpi .eq (BitVec.ofNat 32 (i 1).val) 0#32)) 0#32) = 1#1
/-- It holds at the points ≡ 0 (mod 16). -/
theorem isFirst_iff : ∀ t : Fin cfg0.N, isFirst (grid0.coords t) ↔ t.val % 16 = 0 :=
  (by decide +kernel : ∀ t : Fin grid0.N, isFirst (grid0.coords t) ↔ t.val % 16 = 0)

/-- "This is the last column tile" (`j = 15`). -/
abbrev isLast (i : grid0.Coords) : Prop := k0_cond2 i = 1#1
/-- It holds at the points ≡ 15 (mod 16). -/
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live_0 : ∀ i, cfg0.idle 0 i = false := fun _ => rfl
theorem live_1 : ∀ i, cfg0.idle 1 i = false := fun _ => rfl
theorem live_2 : ∀ i, cfg0.idle 2 i = false := fun _ => rfl
theorem live_3 : ∀ i, cfg0.idle 3 i = false := fun _ => rfl
/-- Away from the last column tile the body stores nothing into the output window, and the pipeline does not write
    it back there. -/
theorem idle_4 : ∀ t : Fin cfg0.N, ¬isLast (grid0.coords t) → cfg0.idle 4 (grid0.coords t) = true := by decide +kernel
theorem noFlush_4 : ∀ t : Fin cfg0.N, ¬isLast (grid0.coords t) → (cfg0.win 4).flush t = false := by decide +kernel
/-- At the last column tile the body stores the row tile's loss into it. -/
theorem live_4 : ∀ t : Fin cfg0.N, isLast (grid0.coords t) → cfg0.idle 4 (grid0.coords t) = false := by decide +kernel

/-! ## The memrefs the body is called with -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
/-- The four scratch columns: the masked sum over same-label pairs, over other-label pairs, and the two counts. -/
abbrev sc0 : Memref sig .tc .vmem S512x1 .f32 := Memref.whole cc0_scratch0
abbrev sc1 : Memref sig .tc .vmem S512x1 .f32 := Memref.whole cc0_scratch1
abbrev sc2 : Memref sig .tc .vmem S512x1 .f32 := Memref.whole cc0_scratch2
abbrev sc3 : Memref sig .tc .vmem S512x1 .f32 := Memref.whole cc0_scratch3

/-- What the region hands its body beside the windows: the four scratch columns at some contents and the generator
    register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.KernelIdeal.Frame

end
-- ==== Proof.KernelIdeal.RunFirst.lean ====
/-
  The kernel body run whole at the first column tile of a row tile (`j = 0`): the four scratch columns, whatever they held, are zeroed and then take the tile's four row sums; the output window is not touched.
  The run is the symbolic execution of the body's memory operations, each branch decided by the case's hypotheses;
  what each buffer ends with is found by the run itself, as the list of pieces stored into it (last first).
-/
import proofs.«171001_j17884243820948_1_alg».proof.Proof.KernelIdeal.Setup

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four input blocks at `x0 … x3` — the body, at the first column tile of a row tile (`j = 0`), runs to the
    continuation holding the inputs as they were and each buffer it stored into with its pieces written. -/
noncomputable def runFirst (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i)
    (x0 x1 : Vec F S512x512 .bf16) (x2 : Vec F S512x1 .i32) (x3 : Vec F S1x512 .i32) :
    Σ' (L0 : List (View.Piece (Elt F) S512x1 .f32)) (L1 : List (View.Piece (Elt F) S512x1 .f32)) (L2 : List (View.Piece (Elt F) S512x1 .f32)), { L3 : List (View.Piece (Elt F) S512x1 .f32) //
      ∀ (xo : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
                ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1)
                ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f L3)) -∗ K ⟨⟩))
          ⊢ wp frame (wpE (defs₀ (F := F)) Variants.none c none) E (cc0__eml_kernel i arg2 harg2 arg3 harg3 arg4 harg4 arg5 harg5 arg6 harg6 arg7 harg7 arg8 harg8 arg9 harg9 arg10 harg10) K } := by
  refine ⟨?_, ?_, ?_, ?_, fun xo E K => ?run⟩
  case run =>
    simp only [cc0__eml_kernel_eq_skeleton]; unfold cc0__eml_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, HS0⟩, ⟨%d6, %f6, -, HS1⟩, ⟨%d7, %f7, -, HS2⟩, ⟨%d8, %f8, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Frame

end
-- ==== Proof.KernelIdeal.RunMid.lean ====
/-
  The kernel body run whole at a column tile that is neither first nor last (`0 < j < 15`): the four scratch columns, at what the tile before left (`s0 … s3`), take the tile's four row sums on top; the output window is not touched.
  The run is the symbolic execution of the body's memory operations, each branch decided by the case's hypotheses;
  what each buffer ends with is found by the run itself, as the list of pieces stored into it (last first).
-/
import proofs.«171001_j17884243820948_1_alg».proof.Proof.KernelIdeal.RunFirst

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four input blocks at `x0 … x3` — the body, at a column tile that is neither first nor last (`0 < j < 15`), runs to the
    continuation holding the inputs as they were and each buffer it stored into with its pieces written. -/
noncomputable def runMid (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i)
    (x0 x1 : Vec F S512x512 .bf16) (x2 : Vec F S512x1 .i32) (x3 : Vec F S1x512 .i32)
    (s0 s1 s2 s3 : Vec F S512x1 .f32) :
    Σ' (L0 : List (View.Piece (Elt F) S512x1 .f32)) (L1 : List (View.Piece (Elt F) S512x1 .f32)) (L2 : List (View.Piece (Elt F) S512x1 .f32)), { L3 : List (View.Piece (Elt F) S512x1 .f32) //
      ∀ (xo : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ owns (c : Thread nD τ) arg7 fullShare s0 ∗ owns (c : Thread nD τ) arg8 fullShare s1 ∗ owns (c : Thread nD τ) arg9 fullShare s2 ∗ owns (c : Thread nD τ) arg10 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
                ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1)
                ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f L3)) -∗ K ⟨⟩))
          ⊢ wp frame (wpE (defs₀ (F := F)) Variants.none c none) E (cc0__eml_kernel i arg2 harg2 arg3 harg3 arg4 harg4 arg5 harg5 arg6 harg6 arg7 harg7 arg8 harg8 arg9 harg9 arg10 harg10) K } := by
  refine ⟨?_, ?_, ?_, ?_, fun xo E K => ?run⟩
  case run =>
    simp only [cc0__eml_kernel_eq_skeleton]; unfold cc0__eml_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, HS0⟩, ⟨%f6, %hf6, HS1⟩, ⟨%f7, %hf7, HS2⟩, ⟨%f8, %hf8, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Frame

end
-- ==== Proof.KernelIdeal.RunLast.lean ====
/-
  The kernel body run whole at the last column tile (`j = 15`): the four scratch columns, at what the tile before left (`s0 … s3`), take the tile's four row sums on top, and the row tile's loss, computed from the totals, is stored whole into the output window.
  The run is the symbolic execution of the body's memory operations, each branch decided by the case's hypotheses;
  what each buffer ends with is found by the run itself, as the list of pieces stored into it (last first).
-/
import proofs.«171001_j17884243820948_1_alg».proof.Proof.KernelIdeal.RunMid

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four input blocks at `x0 … x3` — the body, at the last column tile (`j = 15`), runs to the
    continuation holding the inputs as they were and each buffer it stored into with its pieces written. -/
noncomputable def runLast (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i)
    (x0 x1 : Vec F S512x512 .bf16) (x2 : Vec F S512x1 .i32) (x3 : Vec F S1x512 .i32)
    (s0 s1 s2 s3 : Vec F S512x1 .f32) :
    Σ' (LO : List (View.Piece (Elt F) S512x1 .f32)) (L0 : List (View.Piece (Elt F) S512x1 .f32)) (L1 : List (View.Piece (Elt F) S512x1 .f32)) (L2 : List (View.Piece (Elt F) S512x1 .f32)), { L3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare s0 ∗ owns (c : Thread nD τ) arg8 fullShare s1 ∗ owns (c : Thread nD τ) arg9 fullShare s2 ∗ owns (c : Thread nD τ) arg10 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1)
                ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f L3)) -∗ K ⟨⟩))
          ⊢ wp frame (wpE (defs₀ (F := F)) Variants.none c none) E (cc0__eml_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__eml_kernel_eq_skeleton]; unfold cc0__eml_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, HS0⟩, ⟨%f6, %hf6, HS1⟩, ⟨%f7, %hf7, HS2⟩, ⟨%f8, %hf8, HS3⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Frame

end
-- ==== Proof.KernelIdeal.Frame.lean ====
/-
  What the four scratch columns and the output window hold after each grid point, the region's proof data, and the
  body obligation.

  The contents are an accumulation over the points in grid order. At `j = 0` the scratch columns are reset and take
  the tile's row sums; at `0 < j < 15` they take the tile's row sums on top of what the point before left; at
  `j = 15` they do the same and the output window receives the row tile's loss computed from the totals. Each case's
  contents are what that case's whole-body run stored, read back; between the points of one row tile nothing else
  touches the scratch columns, and the output window, idle away from `j = 15`, is handed back as it was found.
-/
import proofs.«171001_j17884243820948_1_alg».proof.Proof.KernelIdeal.RunLast
import Idealize.ShloMosaic.Lib.Ring

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point -/

/-- The views through which the output window's and the scratch columns' contents are stated (which staging buffer
    is chosen for the output does not matter: covering stores leave the same contents through any view). -/
abbrev VO : View sig .tc .vmem S512x1 .f32 := (Memref.whole cc0_stg4_0 : Memref sig .tc .vmem S512x1 .f32).view
abbrev VS0 : View sig .tc .vmem S512x1 .f32 := sc0.view
abbrev VS1 : View sig .tc .vmem S512x1 .f32 := sc1.view
abbrev VS2 : View sig .tc .vmem S512x1 .f32 := sc2.view
abbrev VS3 : View sig .tc .vmem S512x1 .f32 := sc3.view

/-- The output window's block and the four scratch columns, as one record. -/
structure Acc (F : FTy → Type) [FloatOps F] where
  out : Vec F S512x1 .f32
  s0 : Vec F S512x1 .f32
  s1 : Vec F S512x1 .f32
  s2 : Vec F S512x1 .f32
  s3 : Vec F S512x1 .f32

/-- The body's run at point `t`, a first column tile, on the point's staging memrefs and input blocks. -/
abbrev rF (c : Dev nD) (t : Fin cfg0.N) (h0 : t.val % 16 = 0) (h1 : ¬t.val % 16 = 15) :=
  runFirst (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _)
    ((isFirst_iff t).mpr h0) (fun h => h1 ((isLast_iff t).mp h)) (iblk m c 0 t) (iblk m c 1 t) (iblk m c 2 t) (iblk m c 3 t)
/-- The same at a middle column tile, the scratch columns at `p`'s. -/
abbrev rM (c : Dev nD) (t : Fin cfg0.N) (h0 : ¬t.val % 16 = 0) (h1 : ¬t.val % 16 = 15) (p : Acc F) :=
  runMid (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _)
    (fun h => h0 ((isFirst_iff t).mp h)) (fun h => h1 ((isLast_iff t).mp h)) (iblk m c 0 t) (iblk m c 1 t) (iblk m c 2 t) (iblk m c 3 t) p.s0 p.s1 p.s2 p.s3
/-- The same at the last column tile. -/
abbrev rL (c : Dev nD) (t : Fin cfg0.N) (h0 : ¬t.val % 16 = 0) (h1 : t.val % 16 = 15) (p : Acc F) :=
  runLast (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _)
    (fun h => h0 ((isFirst_iff t).mp h)) ((isLast_iff t).mpr h1) (iblk m c 0 t) (iblk m c 1 t) (iblk m c 2 t) (iblk m c 3 t) p.s0 p.s1 p.s2 p.s3

/-! ## The stores of each case cover the column they go to -/

theorem coverF0 (c : Dev nD) (t : Fin cfg0.N) (h0 : t.val % 16 = 0) (h1 : ¬t.val % 16 = 15) (y : S512x1.Idx) : ∃ pc ∈ (rF m c t h0 h1).1, y ∈ pc.1.set :=
  View.cover_of_tiledL (rF m c t h0 h1).1 S512x1.size (by sl_kernel_rfl) y
theorem coverF1 (c : Dev nD) (t : Fin cfg0.N) (h0 : t.val % 16 = 0) (h1 : ¬t.val % 16 = 15) (y : S512x1.Idx) : ∃ pc ∈ (rF m c t h0 h1).2.1, y ∈ pc.1.set :=
  View.cover_of_tiledL (rF m c t h0 h1).2.1 S512x1.size (by sl_kernel_rfl) y
theorem coverF2 (c : Dev nD) (t : Fin cfg0.N) (h0 : t.val % 16 = 0) (h1 : ¬t.val % 16 = 15) (y : S512x1.Idx) : ∃ pc ∈ (rF m c t h0 h1).2.2.1, y ∈ pc.1.set :=
  View.cover_of_tiledL (rF m c t h0 h1).2.2.1 S512x1.size (by sl_kernel_rfl) y
theorem coverF3 (c : Dev nD) (t : Fin cfg0.N) (h0 : t.val % 16 = 0) (h1 : ¬t.val % 16 = 15) (y : S512x1.Idx) : ∃ pc ∈ (rF m c t h0 h1).2.2.2.1, y ∈ pc.1.set :=
  View.cover_of_tiledL (rF m c t h0 h1).2.2.2.1 S512x1.size (by sl_kernel_rfl) y

theorem coverM0 (c : Dev nD) (t : Fin cfg0.N) (h0 : ¬t.val % 16 = 0) (h1 : ¬t.val % 16 = 15) (p : Acc F) (y : S512x1.Idx) : ∃ pc ∈ (rM m c t h0 h1 p).1, y ∈ pc.1.set :=
  View.cover_of_tiledL (rM m c t h0 h1 p).1 S512x1.size (by sl_kernel_rfl) y
theorem coverM1 (c : Dev nD) (t : Fin cfg0.N) (h0 : ¬t.val % 16 = 0) (h1 : ¬t.val % 16 = 15) (p : Acc F) (y : S512x1.Idx) : ∃ pc ∈ (rM m c t h0 h1 p).2.1, y ∈ pc.1.set :=
  View.cover_of_tiledL (rM m c t h0 h1 p).2.1 S512x1.size (by sl_kernel_rfl) y
theorem coverM2 (c : Dev nD) (t : Fin cfg0.N) (h0 : ¬t.val % 16 = 0) (h1 : ¬t.val % 16 = 15) (p : Acc F) (y : S512x1.Idx) : ∃ pc ∈ (rM m c t h0 h1 p).2.2.1, y ∈ pc.1.set :=
  View.cover_of_tiledL (rM m c t h0 h1 p).2.2.1 S512x1.size (by sl_kernel_rfl) y
theorem coverM3 (c : Dev nD) (t : Fin cfg0.N) (h0 : ¬t.val % 16 = 0) (h1 : ¬t.val % 16 = 15) (p : Acc F) (y : S512x1.Idx) : ∃ pc ∈ (rM m c t h0 h1 p).2.2.2.1, y ∈ pc.1.set :=
  View.cover_of_tiledL (rM m c t h0 h1 p).2.2.2.1 S512x1.size (by sl_kernel_rfl) y

theorem coverLO (c : Dev nD) (t : Fin cfg0.N) (h0 : ¬t.val % 16 = 0) (h1 : t.val % 16 = 15) (p : Acc F) (y : S512x1.Idx) : ∃ pc ∈ (rL m c t h0 h1 p).1, y ∈ pc.1.set :=
  View.cover_of_tiledL (rL m c t h0 h1 p).1 S512x1.size (by sl_kernel_rfl) y
theorem coverL0 (c : Dev nD) (t : Fin cfg0.N) (h0 : ¬t.val % 16 = 0) (h1 : t.val % 16 = 15) (p : Acc F) (y : S512x1.Idx) : ∃ pc ∈ (rL m c t h0 h1 p).2.1, y ∈ pc.1.set :=
  View.cover_of_tiledL (rL m c t h0 h1 p).2.1 S512x1.size (by sl_kernel_rfl) y
theorem coverL1 (c : Dev nD) (t : Fin cfg0.N) (h0 : ¬t.val % 16 = 0) (h1 : t.val % 16 = 15) (p : Acc F) (y : S512x1.Idx) : ∃ pc ∈ (rL m c t h0 h1 p).2.2.1, y ∈ pc.1.set :=
  View.cover_of_tiledL (rL m c t h0 h1 p).2.2.1 S512x1.size (by sl_kernel_rfl) y
theorem coverL2 (c : Dev nD) (t : Fin cfg0.N) (h0 : ¬t.val % 16 = 0) (h1 : t.val % 16 = 15) (p : Acc F) (y : S512x1.Idx) : ∃ pc ∈ (rL m c t h0 h1 p).2.2.2.1, y ∈ pc.1.set :=
  View.cover_of_tiledL (rL m c t h0 h1 p).2.2.2.1 S512x1.size (by sl_kernel_rfl) y
theorem coverL3 (c : Dev nD) (t : Fin cfg0.N) (h0 : ¬t.val % 16 = 0) (h1 : t.val % 16 = 15) (p : Acc F) (y : S512x1.Idx) : ∃ pc ∈ (rL m c t h0 h1 p).2.2.2.2.1, y ∈ pc.1.set :=
  View.cover_of_tiledL (rL m c t h0 h1 p).2.2.2.2.1 S512x1.size (by sl_kernel_rfl) y

/-! ## What each case leaves -/

/-- After a first column tile: the scratch columns at what the run stored; the output window is not consulted there
    (a placeholder). -/
def accFirst (c : Dev nD) (t : Fin cfg0.N) (h0 : t.val % 16 = 0) (h1 : ¬t.val % 16 = 15) : Acc F where
  out := VO.read (Elt F) VO.junk
  s0 := VS0.read (Elt F) (VS0.writes (Elt F) VS0.junk (rF m c t h0 h1).1)
  s1 := VS1.read (Elt F) (VS1.writes (Elt F) VS1.junk (rF m c t h0 h1).2.1)
  s2 := VS2.read (Elt F) (VS2.writes (Elt F) VS2.junk (rF m c t h0 h1).2.2.1)
  s3 := VS3.read (Elt F) (VS3.writes (Elt F) VS3.junk (rF m c t h0 h1).2.2.2.1)

/-- After a middle column tile, from the scratch columns `p` the point before left. -/
def accMid (c : Dev nD) (t : Fin cfg0.N) (h0 : ¬t.val % 16 = 0) (h1 : ¬t.val % 16 = 15) (p : Acc F) : Acc F where
  out := VO.read (Elt F) VO.junk
  s0 := VS0.read (Elt F) (VS0.writes (Elt F) VS0.junk (rM m c t h0 h1 p).1)
  s1 := VS1.read (Elt F) (VS1.writes (Elt F) VS1.junk (rM m c t h0 h1 p).2.1)
  s2 := VS2.read (Elt F) (VS2.writes (Elt F) VS2.junk (rM m c t h0 h1 p).2.2.1)
  s3 := VS3.read (Elt F) (VS3.writes (Elt F) VS3.junk (rM m c t h0 h1 p).2.2.2.1)

/-- After the last column tile: also the output window, at the row tile's loss. -/
def accLast (c : Dev nD) (t : Fin cfg0.N) (h0 : ¬t.val % 16 = 0) (h1 : t.val % 16 = 15) (p : Acc F) : Acc F where
  out := VO.read (Elt F) (VO.writes (Elt F) VO.junk (rL m c t h0 h1 p).1)
  s0 := VS0.read (Elt F) (VS0.writes (Elt F) VS0.junk (rL m c t h0 h1 p).2.1)
  s1 := VS1.read (Elt F) (VS1.writes (Elt F) VS1.junk (rL m c t h0 h1 p).2.2.1)
  s2 := VS2.read (Elt F) (VS2.writes (Elt F) VS2.junk (rL m c t h0 h1 p).2.2.2.1)
  s3 := VS3.read (Elt F) (VS3.writes (Elt F) VS3.junk (rL m c t h0 h1 p).2.2.2.2.1)

/-- THE ACCUMULATION: the record after the body at position `n`, by recursion on the position — the case its
    column tile selects, a middle or last tile from what position `n - 1` left. -/
def accAt (c : Dev nD) : (n : ℕ) → n < cfg0.N → Acc F
  | 0, hn => accFirst m c ⟨0, hn⟩ (Nat.zero_mod _) (show ¬(0 : ℕ) % 16 = 15 by decide)
  | n + 1, hn =>
    if h0 : (n + 1) % 16 = 0 then
      if h1 : (n + 1) % 16 = 15 then False.elim (by omega)
      else accFirst m c ⟨n + 1, hn⟩ h0 h1
    else
      if h1 : (n + 1) % 16 = 15 then accLast m c ⟨n + 1, hn⟩ h0 h1 (accAt c n (Nat.lt_of_succ_lt hn))
      else accMid m c ⟨n + 1, hn⟩ h0 h1 (accAt c n (Nat.lt_of_succ_lt hn))

theorem accAt_first (c : Dev nD) (t : Fin cfg0.N) (h0 : t.val % 16 = 0) (h1 : ¬t.val % 16 = 15) : accAt m c t.val t.isLt = accFirst m c t h0 h1 := by
  obtain ⟨n, hn⟩ := t
  cases n with
  | zero => exact rfl
  | succ n => exact (dif_pos h0).trans ((dif_neg h1).trans rfl)

theorem accAt_mid (c : Dev nD) (t : Fin cfg0.N) (h0 : ¬t.val % 16 = 0) (h1 : ¬t.val % 16 = 15) :
    accAt m c t.val t.isLt = accMid m c t h0 h1 (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_last (c : Dev nD) (t : Fin cfg0.N) (h0 : ¬t.val % 16 = 0) (h1 : t.val % 16 = 15) :
    accAt m c t.val t.isLt = accLast m c t h0 h1 (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region's invariant -/

/-- Before position `n`: at the very first point the scratch columns hold anything; afterwards what position
    `n - 1` left. The generator register rides along at some state. -/
def PhiS (c : Dev nD) : (n : ℕ) → n ≤ cfg0.N → sProp 𝕄
  | 0, _ => Pipeline.ΦA spec0 c
  | n + 1, hn => iprop(iprop(owns (c : Thread nD τ) sc0 fullShare (accAt m c n hn).s0 ∗ owns (c : Thread nD τ) sc1 fullShare (accAt m c n hn).s1
      ∗ owns (c : Thread nD τ) sc2 fullShare (accAt m c n hn).s2 ∗ owns (c : Thread nD τ) sc3 fullShare (accAt m c n hn).s3) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (accAt m c n hn).s0 ∗ owns (c : Thread nD τ) sc1 fullShare (accAt m c n hn).s1
      ∗ owns (c : Thread nD τ) sc2 fullShare (accAt m c n hn).s2 ∗ owns (c : Thread nD τ) sc3 fullShare (accAt m c n hn).s3) ∗ (∃ r, prngReg c r)) := rfl

theorem PhiS_pos (c : Dev nD) (n : ℕ) (h : n ≤ cfg0.N) (hz : n ≠ 0) :
    PhiS m c n h = iprop(iprop(owns (c : Thread nD τ) sc0 fullShare (accAt m c (n - 1) (by omega)).s0 ∗ owns (c : Thread nD τ) sc1 fullShare (accAt m c (n - 1) (by omega)).s1
      ∗ owns (c : Thread nD τ) sc2 fullShare (accAt m c (n - 1) (by omega)).s2 ∗ owns (c : Thread nD τ) sc3 fullShare (accAt m c (n - 1) (by omega)).s3) ∗ (∃ r, prngReg c r)) := by
  cases n with
  | zero => exact absurd rfl hz
  | succ n => rfl

/-! ## The proof data -/

/-- The proof data of the region on core `c`: the arrays as the region finds them; after the body each input's
    buffer at its block, the output's at the accumulation's; the invariant `PhiS`; nothing owed. The two windows
    on the embeddings array hold one half of it each; every other array is held outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accAt m c t.val t.isLt).out
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (accAt m c t.val t.isLt).out := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point. The inputs' memrefs hold their blocks; the point's column tile says which run applies; the
    invariant hands the body the scratch columns at what the point before left (at anything at the very first point)
    and takes them back at this point's contents; away from the last column tile the output window goes back as it
    came. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0 t) fullShare ((dats m 0 c).after 0 t) from by
    unfold Dat.leavesExact; rw [live_0], after_0]
  rw [show (dats m 0 c).leavesExact 1 t = owns (c : Thread nD τ) (ms1 t) fullShare ((dats m 0 c).after 1 t) from by
    unfold Dat.leavesExact; rw [live_1], after_1]
  rw [show (dats m 0 c).leavesExact 2 t = owns (c : Thread nD τ) (ms2 t) fullShare ((dats m 0 c).after 2 t) from by
    unfold Dat.leavesExact; rw [live_2], after_2]
  rw [show (dats m 0 c).leavesExact 3 t = owns (c : Thread nD τ) (ms3 t) fullShare ((dats m 0 c).after 3 t) from by
    unfold Dat.leavesExact; rw [live_3], after_3]
  by_cases h0 : t.val % 16 = 0
  · by_cases h1 : t.val % 16 = 15
    · exfalso; omega
    · rw [Dat.leavesExact_idle (dats m 0 c) 4 t (idle_4 t (fun h => h1 ((isLast_iff t).mp h))) (noFlush_4 t (fun h => h1 ((isLast_iff t).mp h)))]
      rw [accAt_first m c t h0 h1]
      unfold accFirst; (try dsimp only)
      by_cases hz : t.val = 0
      · rw [PhiS_castSucc m c t, PhiS_zero m c _ _ hz, PhiA_eq]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((rF m c t h0 h1).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%e0, HS0⟩, ⟨%e1, HS1⟩, ⟨%e2, HS2⟩, ⟨%e3, HS3⟩⟩
        isplitl [HS0 HS1 HS2 HS3 Hg]
        · isplitr [Hg]
          · isplitl [HS0]
            · unfold owns; iexists _; isplitr
              swap; · iexact HS0
              ipureintro; exact View.read_writes_of_cover _ _ _ _ _ (coverF0 m c t h0 h1)
            isplitl [HS1]
            · unfold owns; iexists _; isplitr
              swap; · iexact HS1
              ipureintro; exact View.read_writes_of_cover _ _ _ _ _ (coverF1 m c t h0 h1)
            isplitl [HS2]
            · unfold owns; iexists _; isplitr
              swap; · iexact HS2
              ipureintro; exact View.read_writes_of_cover _ _ _ _ _ (coverF2 m c t h0 h1)
            unfold owns; iexists _; isplitr
            swap; · iexact HS3
            ipureintro; exact View.read_writes_of_cover _ _ _ _ _ (coverF3 m c t h0 h1)
          · iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((rF m c t h0 h1).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%e0, HS0⟩, ⟨%e1, HS1⟩, ⟨%e2, HS2⟩, ⟨%e3, HS3⟩⟩
        isplitl [HS0 HS1 HS2 HS3 Hg]
        · isplitr [Hg]
          · isplitl [HS0]
            · unfold owns; iexists _; isplitr
              swap; · iexact HS0
              ipureintro; exact View.read_writes_of_cover _ _ _ _ _ (coverF0 m c t h0 h1)
            isplitl [HS1]
            · unfold owns; iexists _; isplitr
              swap; · iexact HS1
              ipureintro; exact View.read_writes_of_cover _ _ _ _ _ (coverF1 m c t h0 h1)
            isplitl [HS2]
            · unfold owns; iexists _; isplitr
              swap; · iexact HS2
              ipureintro; exact View.read_writes_of_cover _ _ _ _ _ (coverF2 m c t h0 h1)
            unfold owns; iexists _; isplitr
            swap; · iexact HS3
            ipureintro; exact View.read_writes_of_cover _ _ _ _ _ (coverF3 m c t h0 h1)
          · iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 16 = 15
    · rw [show (dats m 0 c).leavesExact 4 t = owns (c : Thread nD τ) (ms4 t) fullShare ((dats m 0 c).after 4 t) from by
        unfold Dat.leavesExact; rw [live_4 t ((isLast_iff t).mpr h1)], after_4]
      rw [accAt_last m c t h0 h1]
      unfold accLast; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((rL m c t h0 h1 _).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%e0, HS0⟩, ⟨%e1, HS1⟩, ⟨%e2, HS2⟩, ⟨%e3, HS3⟩⟩
      isplitl [HS0 HS1 HS2 HS3 Hg]
      · isplitr [Hg]
        · isplitl [HS0]
          · unfold owns; iexists _; isplitr
            swap; · iexact HS0
            ipureintro; exact View.read_writes_of_cover _ _ _ _ _ (coverL0 m c t h0 h1 _)
          isplitl [HS1]
          · unfold owns; iexists _; isplitr
            swap; · iexact HS1
            ipureintro; exact View.read_writes_of_cover _ _ _ _ _ (coverL1 m c t h0 h1 _)
          isplitl [HS2]
          · unfold owns; iexists _; isplitr
            swap; · iexact HS2
            ipureintro; exact View.read_writes_of_cover _ _ _ _ _ (coverL2 m c t h0 h1 _)
          unfold owns; iexists _; isplitr
          swap; · iexact HS3
          ipureintro; exact View.read_writes_of_cover _ _ _ _ _ (coverL3 m c t h0 h1 _)
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLO m c t h0 h1 _)
    · rw [Dat.leavesExact_idle (dats m 0 c) 4 t (idle_4 t (fun h => h1 ((isLast_iff t).mp h))) (noFlush_4 t (fun h => h1 ((isLast_iff t).mp h)))]
      rw [accAt_mid m c t h0 h1]
      unfold accMid; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((rM m c t h0 h1 _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3 Hg]
      · isplitr [Hg]
        · isplitl [HS0]
          · unfold owns; iexists _; isplitr
            swap; · iexact HS0
            ipureintro; exact View.read_writes_of_cover _ _ _ _ _ (coverM0 m c t h0 h1 _)
          isplitl [HS1]
          · unfold owns; iexists _; isplitr
            swap; · iexact HS1
            ipureintro; exact View.read_writes_of_cover _ _ _ _ _ (coverM1 m c t h0 h1 _)
          isplitl [HS2]
          · unfold owns; iexists _; isplitr
            swap; · iexact HS2
            ipureintro; exact View.read_writes_of_cover _ _ _ _ _ (coverM2 m c t h0 h1 _)
          unfold owns; iexists _; isplitr
          swap; · iexact HS3
          ipureintro; exact View.read_writes_of_cover _ _ _ _ _ (coverM3 m c t h0 h1 _)
        · iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch columns back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA_eq]
  iintro ⟨⟨HS0, HS1, HS2, HS3⟩, Hg⟩
  isplitr [Hg]
  · isplitl [HS0]; · iexists _; iexact HS0
    isplitl [HS1]; · iexists _; iexact HS1
    isplitl [HS2]; · iexists _; iexact HS2
    iexists _; iexact HS3
  · iexact Hg

end Cert.KernelIdeal.Frame

end
-- ==== Proof.KernelIdeal.Launch.lean ====
/-
  The launch: @main is the host lines that normalise the embeddings and reshape the labels, the region, and the final
  sum and division. The region's first two windows read ONE array, the normalised embeddings: the row tile and the
  column tile. Its buffer is split in two halves, one per window; neither window writes, so both end holding it at
  its entry contents. After the region the host tail reads the per-row losses the region wrote and leaves the result.

  `run_main`: every weakly fair execution terminates, the result buffer at the tail's value of what the region left
  in the loss column, the two argument arrays as they were.
-/
import proofs.«171001_j17884243820948_1_alg».proof.Proof.KernelIdeal.Frame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, one by one -/

/-- The region's arrays at contents `Fa`: the embeddings' buffer in two halves, the label column, the label row and
    the loss column outright. -/
theorem arrays_open (c : Dev nD) (Fa : (w : Fin cfg0.W) → Buf (Elt F) ((cfg0.win w).arr.view.loc (c : Thread nD τ))) :
    ((dats m 0 c).arrays Fa : sProp 𝕄)
      = iprop((((c : Thread nD τ).loc main_v5) ↦{fullShare.left} Fa 0) ∗ (((c : Thread nD τ).loc main_v5) ↦{fullShare.right} Fa 1)
          ∗ (((c : Thread nD τ).loc main_v6) ↦{fullShare} Fa 2) ∗ (((c : Thread nD τ).loc main_v7) ↦{fullShare} Fa 3)
          ∗ (((c : Thread nD τ).loc main_v8) ↦{fullShare} Fa 4)) := by
  unfold Dat.arrays
  rw [bigSep_W0]
  simp only [(arr_whole0 0).set_eq_univ, (arr_whole0 1).set_eq_univ, (arr_whole0 2).set_eq_univ, (arr_whole0 3).set_eq_univ, (arr_whole0 4).set_eq_univ]
  rfl

/-- The buffers behind the arrays, whole, split among the windows: the embeddings' in two halves. -/
theorem hsplit (c : Dev nD) :
    (Pipeline.arrBufs spec0 c (V m c) : sProp 𝕄) ⊢ (dats m 0 c).arrays ((dats m 0 c).arrAt · 0) := by
  rw [arrays_open]
  unfold Pipeline.arrBufs
  rw [bigSep_eq_bigSepL_of_eq [main_v5, main_v6, main_v7, main_v8] (by decide) (by decide)]
  show iprop((((c : Thread nD τ).loc main_v5) ↦{fullShare} V m c main_v5) ∗ (((c : Thread nD τ).loc main_v6) ↦{fullShare} V m c main_v6)
      ∗ (((c : Thread nD τ).loc main_v7) ↦{fullShare} V m c main_v7) ∗ (((c : Thread nD τ).loc main_v8) ↦{fullShare} V m c main_v8)) ⊢ _
  iintro ⟨H5, H6, H7, H8⟩
  ihave H := (pointsTo_share (PosShare.mem_left_op_right fullShare)).1 $$ H5
  icases H with ⟨H5l, H5r⟩
  isplitl [H5l]; · iexact H5l
  isplitl [H5r]; · iexact H5r
  isplitl [H6]; · iexact H6
  isplitl [H7]; · iexact H7
  iexact H8

/-! ## The host tail -/

/-- The buffers the final sum and division touch: the loss column and the four buffers they write. -/
def tailS : Finset (DevRef τ sig) :=
  {Proc.devRef .tc main_v8, Proc.devRef .tc main_cst_0, Proc.devRef .tc main_v9, Proc.devRef .tc main_cst_1, Proc.devRef .tc main_v10}

theorem tailS_eq (c : Dev nD) (W : Valuation τ sig (Elt F)) : (StableHlo.held (c : Thread nD τ) tailS W : sProp 𝕄)
    = iprop((((c : Thread nD τ).loc main_v8) ↦{fullShare} W main_v8) ∗ (((c : Thread nD τ).loc main_cst_0) ↦{fullShare} W main_cst_0)
        ∗ (((c : Thread nD τ).loc main_v9) ↦{fullShare} W main_v9) ∗ (((c : Thread nD τ).loc main_cst_1) ↦{fullShare} W main_cst_1)
        ∗ (((c : Thread nD τ).loc main_v10) ↦{fullShare} W main_v10)) := by
  unfold StableHlo.held
  rw [bigSep_eq_bigSepL_of_eq [Proc.devRef .tc main_v8, Proc.devRef .tc main_cst_0, Proc.devRef .tc main_v9, Proc.devRef .tc main_cst_1, Proc.devRef .tc main_v10] (by decide) (by decide)]
  rfl

theorem hostOps1_in : ∀ op ∈ (hostOps1 : List (HloOp τ sig (Elt F))), op.bufs ⊆ tailS := by
  intro op hop
  simp only [hostOps1, List.mem_cons, List.mem_nil_iff, or_false] at hop
  rcases hop with rfl | rfl | rfl | rfl
  · exact Finset.singleton_subset_iff.mpr (by decide)
  · exact Finset.insert_subset (by decide) (Finset.insert_subset (by decide) (Finset.singleton_subset_iff.mpr (by decide)))
  · exact Finset.singleton_subset_iff.mpr (by decide)
  · exact Finset.insert_subset (by decide) (Finset.insert_subset (by decide) (Finset.singleton_subset_iff.mpr (by decide)))

/-- The contents at the region's exit: the loss column at what the write-backs left, every other buffer as the region
    found it. -/
abbrev Wx (c : Dev nD) : Valuation τ sig (Elt F) :=
  Function.update (V0 m c) (Proc.devRef .tc main_v8) ((dats m 0 c).arrAt 4 cfg0.N)
/-- And after the final sum and division. -/
abbrev Wf (c : Dev nD) : Valuation τ sig (Elt F) := StableHlo.after hostOps1 (Wx m c)

theorem Wx_v8 (c : Dev nD) : Wx m c main_v8 = (dats m 0 c).arrAt 4 cfg0.N := Function.update_self ..
theorem Wx_cst_0 (c : Dev nD) : Wx m c main_cst_0 = V m c main_cst_0 := Function.update_of_ne (by decide) ..
theorem Wx_v9 (c : Dev nD) : Wx m c main_v9 = V m c main_v9 := Function.update_of_ne (by decide) ..
theorem Wx_cst_1 (c : Dev nD) : Wx m c main_cst_1 = V m c main_cst_1 := Function.update_of_ne (by decide) ..
theorem Wx_v10 (c : Dev nD) : Wx m c main_v10 = V m c main_v10 := Function.update_of_ne (by decide) ..

/-- The final sum and division write none of the loss column: it is after them what it was at the region's exit. -/
theorem Wf_v8 (c : Dev nD) : Wf m c main_v8 = (dats m 0 c).arrAt 4 cfg0.N := by
  show StableHlo.after hostOps1 (Wx m c) (Proc.devRef .tc main_v8) = _
  rw [StableHlo.after_of_forall_not_mem _ _ (fun op hop => by
    simp only [hostOps1, List.mem_cons, List.mem_nil_iff, or_false] at hop
    rcases hop with rfl | rfl | rfl | rfl <;>
      simp only [StableHlo.nullary_writes, StableHlo.binary_writes, Finset.mem_singleton] <;>
      exact StableHlo.devRef_ne_of_ne (by decide))]
  exact Wx_v8 m c

/-- What is kept to the end: the two argument arrays and the result. -/
abbrev Zfin (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v10) ↦{fullShare} Wf m c main_v10))

set_option backward.isDefEq.respectTransparency.types false in
/-- The lines after the region: from the arrays at their exit contents and the bypassing buffers as the region found
    them, the sum over the loss column and the division run, and hand back the arrays and what is kept. -/
theorem htail (c : Dev nD) (Q' : PUnit → sProp 𝕄) :
    iprop((iprop((dats m 0 c).arrays ((dats m 0 c).arrAt · cfg0.N) ∗ Zfin m c) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  rw [arrays_open, Pipeline.unscopedRestP_none, unscopedRest0_eq]
  iintro ⟨Hk, Hb, ⟨A0, A1, A2, A3, A4⟩, ⟨R0, R1, R2, R3, R4, R5, R6, R7, R8, R9, R10, R11, R12, R13, R14, R15⟩⟩
  rw [Pipeline.chain_cons, Pipeline.chain_nil]
  have hrefl : (iprop(boundary (c : Thread nD τ) ∗ StableHlo.held (c : Thread nD τ) tailS (Wx m c)) : sProp 𝕄)
      ⊢ iprop(boundary (c : Thread nD τ) ∗ StableHlo.held (c : Thread nD τ) tailS (Wx m c)) := .rfl
  ihave H := hrefl $$ [Hb A4 R12 R13 R14 R15]
  · isplitl [Hb]; · iexact Hb
    rw [tailS_eq, Wx_v8, Wx_cst_0, Wx_v9, Wx_cst_1, Wx_v10]
    isplitl [A4]; · iexact A4
    isplitl [R12]; · iexact R12
    isplitl [R13]; · iexact R13
    isplitl [R14]; · iexact R14
    iexact R15
  iapply (StableHlo.wp_seq (Variants.lift Variants.none) none Set.univ c tailS _ hostOps1 hostOps1_in
    (fun op hop => (List.forall_iff_forall_mem.mp hostOps1_fresh) op hop) (Wx m c)) $$ H
  iintro ⟨Hb, Hh⟩
  ihave Hh' := (Entails.of_eq (tailS_eq c (Wf m c))) $$ Hh
  icases Hh' with ⟨A4w, -, -, -, H10⟩
  ihave A4 := (Entails.of_eq (congrArg (fun f => (((c : Thread nD τ).loc main_v8) ↦{fullShare} f : sProp 𝕄)) (Wf_v8 m c))) $$ A4w
  iapply (Pipeline.tail_ret (fun q => (cfgs q).toPCfg (Val := Elt F)) (Pipeline.defs (fun q => (cfgs q).toPCfg (Val := Elt F)) defs₀)
    (Variants.lift Variants.none) c _ (boundary (c : Thread nD τ)) _ Q')
  isplitl [Hk]; · iexact Hk
  isplitl [Hb]; · iexact Hb
  isplitl [A0 A1 A2 A3 A4]
  · isplitl [A0]; · iexact A0
    isplitl [A1]; · iexact A1
    isplitl [A2]; · iexact A2
    isplitl [A3]; · iexact A3
    iexact A4
  isplitl [R0]; · iexact R0
  isplitl [R1]; · iexact R1
  iexact H10

/-! ## The arguments pass through the host prefix untouched -/

theorem V_arg0 (c : Dev nD) : V m c main_arg0 = m ((c : Thread nD τ).loc main_arg0) := by
  dsimp only [V, V0]
  simp only [hostOps0, hostOps0_1, List.flatten_cons, List.flatten_nil, List.append_nil, List.cons_append, List.nil_append]
  after_results
theorem V_arg1 (c : Dev nD) : V m c main_arg1 = m ((c : Thread nD τ).loc main_arg1) := by
  dsimp only [V, V0]
  simp only [hostOps0, hostOps0_1, List.flatten_cons, List.flatten_nil, List.append_nil, List.cons_append, List.nil_append]
  after_results

/-! ## The run -/

set_option backward.isDefEq.respectTransparency.types false in
/-- From any memory with zero counters every weakly fair execution of @main terminates; the result buffer ends at the
    final sum and division of what the region left in the loss column, and the two argument arrays end as they began. -/
theorem run_main : θ_run defs (onTc (τ := τ) (main (F := F))) ⟨m, fun _ => 0, ρ⟩ (fun r => ∀ c : Dev nD,
      r.2.mem ((c : Thread nD τ).loc main_v10) = Wf m c main_v10
      ∧ r.2.mem ((c : Thread nD τ).loc main_arg0) = m ((c : Thread nD τ).loc main_arg0)
      ∧ r.2.mem ((c : Thread nD τ).loc main_arg1) = m ((c : Thread nD τ).loc main_arg1)) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp))
    (u₀ := initOf (Pipeline.cells (Pipeline.pin (fun q => (cfgs q).toPCfg (Val := Elt F)) (fun q => (cfgs q).toPCfg_adm)) cellOf_inj)
      (Pipeline.launchToks (Pipeline.pin (fun q => (cfgs q).toPCfg (Val := Elt F)) (fun q => (cfgs q).toPCfg_adm)) cellOf_inj))
    (hu₀ := by
      iintro Hu; imodintro
      isplitl [Hu]
      · iapply (show (ownU _ : sProp 𝕄) ⊢ BI.own (emb₁ (initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := Zfin m)
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c : Thread nD τ).loc main_arg0) = V m c main_arg0 ∧ s.mem ((c : Thread nD τ).loc main_arg1) = V m c main_arg1
      ∧ s.mem ((c : Thread nD τ).loc main_v10) = Wf m c main_v10)
    (hY := fun c s' => by
      iintro ⟨-, ⟨Ha0, Ha1, H10⟩, HSI⟩
      icombine HSI Ha0 gives %h0
      icombine HSI Ha1 gives %h1
      icombine HSI H10 gives %h10
      imodintro
      isplitr; · ipureintro; exact ⟨Buf.eq_of_forall_mem_univ h0, Buf.eq_of_forall_mem_univ h1, Buf.eq_of_forall_mem_univ h10⟩
      iexact HSI)
    (hQ := fun s h c => by
      obtain ⟨-, -, h0, h1, h10⟩ := h c
      exact ⟨h10, h0.trans (V_arg0 m c), h1.trans (V_arg1 m c)⟩)

end Cert.KernelIdeal.Frame

end
-- ==== Proof.KernelIdeal.Blocks.lean ====
/-
  THE TILES AS PARTS OF THE WHOLE ARRAYS, AND THE LOSS COLUMN AFTER THE REGION.

  The region's 256 points are the pairs (row tile `i`, column tile `j`) in row-major order: point `t` has `i = t / 16`
  and `j = t % 16`. A tile's entry sits in its array at "tile number × tile extent + position inside the tile" on
  every axis. So at point `t` the row tile of the normalised embeddings is rows `512·(t/16) … 512·(t/16) + 511`, the
  column tile rows `512·(t%16) … 512·(t%16) + 511` of the same array, and the two label tiles the same ranges of the
  label column and the label row.

  The loss column is written back only at the last column tile of each row tile, `t % 16 = 15`, and what is written
  there is the output block the accumulation holds after point `t`. Row `r` of the column lies in row tile `r / 512` at
  position `r % 512`, and that tile's write-back is the point `16·(r/512) + 15`; the sixteen write-backs cover the
  column, so after the region row `r` holds the accumulation's output block after that point, at position `r % 512`.
-/
import proofs.«171001_j17884243820948_1_alg».proof.Proof.KernelIdeal.Frame
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-! ## The grid's coordinates and the tiles' numbers -/

/-- Point `t` is row tile `t / 16`, column tile `t % 16`. -/
theorem coords_eq : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-- The tile numbers of the five windows at point `t`, axis by axis: the row tile of the embeddings, the label column
    and the loss column follow `t / 16`; the column tile of the embeddings and the label row follow `t % 16`; every
    other axis has the one tile `0`. -/
theorem tile_numbers : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

/-- There are 256 points. -/
theorem point_lt (t : Fin cfg0.N) : t.val < 256 := lt_of_lt_of_eq t.isLt (show cfg0.N = 256 from N_0)

/-- A position inside row tile `t / 16` is a row of the array. -/
theorem row_lt (t : Fin cfg0.N) (p : Fin 512) : t.val / 16 * 512 + p.val < 8192 := by
  have := point_lt t; have := p.isLt; omega

/-- A position inside column tile `t % 16` is a row of the array (a column of the pair table). -/
theorem col_lt (t : Fin cfg0.N) (q : Fin 512) : t.val % 16 * 512 + q.val < 8192 := by
  have := q.isLt; omega

/-! ## The input tiles read at an index -/

/-- The row tile of the normalised embeddings: its entry `(p, k)` is the array's entry `(512·(t/16) + p, k)`. -/
theorem iblk0_apply (c : Dev nD) (t : Fin cfg0.N) (p k : Fin 512) :
    (iblk m c 0 t : Vec F S512x512 .bf16) (ix2 p k)
      = (V m c main_v5 : S8192x512.Idx → Elt F .bf16) (ix2 ⟨t.val / 16 * 512 + p.val, row_lt t p⟩ k) := by
  obtain ⟨e0, e1, -⟩ := tile_numbers t
  unfold iblk
  rw [View.read_apply]
  show (V m c main_v5 : S8192x512.Idx → Elt F .bf16) _ = _
  refine congrArg (V m c main_v5 : S8192x512.Idx → Elt F .bf16) (funext fun a => Fin.ext ?_)
  match a with
  | ⟨0, _⟩ => show win0_0.index t (0 : Fin 2) * 512 + 1 * p.val = t.val / 16 * 512 + p.val; rw [e0]; omega
  | ⟨1, _⟩ => show win0_0.index t (1 : Fin 2) * 512 + 1 * k.val = k.val; rw [e1]; omega

/-- The column tile of the normalised embeddings: its entry `(q, k)` is the array's entry `(512·(t%16) + q, k)`. -/
theorem iblk1_apply (c : Dev nD) (t : Fin cfg0.N) (q k : Fin 512) :
    (iblk m c 1 t : Vec F S512x512 .bf16) (ix2 q k)
      = (V m c main_v5 : S8192x512.Idx → Elt F .bf16) (ix2 ⟨t.val % 16 * 512 + q.val, col_lt t q⟩ k) := by
  obtain ⟨-, -, e0, e1, -⟩ := tile_numbers t
  unfold iblk
  rw [View.read_apply]
  show (V m c main_v5 : S8192x512.Idx → Elt F .bf16) _ = _
  refine congrArg (V m c main_v5 : S8192x512.Idx → Elt F .bf16) (funext fun a => Fin.ext ?_)
  match a with
  | ⟨0, _⟩ => show win0_1.index t (0 : Fin 2) * 512 + 1 * q.val = t.val % 16 * 512 + q.val; rw [e0]; omega
  | ⟨1, _⟩ => show win0_1.index t (1 : Fin 2) * 512 + 1 * k.val = k.val; rw [e1]; omega

/-- The tile of the label column: its entry `(p, 0)` is the column's entry `(512·(t/16) + p, 0)`. -/
theorem iblk2_apply (c : Dev nD) (t : Fin cfg0.N) (p : Fin 512) (z : Fin 1) :
    (iblk m c 2 t : Vec F S512x1 .i32) (ix2 p z)
      = (V m c main_v6 : S8192x1.Idx → Elt F .i32) (ix2 ⟨t.val / 16 * 512 + p.val, row_lt t p⟩ z) := by
  obtain ⟨-, -, -, -, e0, e1, -⟩ := tile_numbers t
  unfold iblk
  rw [View.read_apply]
  show (V m c main_v6 : S8192x1.Idx → Elt F .i32) _ = _
  refine congrArg (V m c main_v6 : S8192x1.Idx → Elt F .i32) (funext fun a => Fin.ext ?_)
  match a with
  | ⟨0, _⟩ => show win0_2.index t (0 : Fin 2) * 512 + 1 * p.val = t.val / 16 * 512 + p.val; rw [e0]; omega
  | ⟨1, _⟩ => show win0_2.index t (1 : Fin 2) * 1 + 1 * z.val = z.val; rw [e1]; omega

/-- The tile of the label row: its entry `(0, q)` is the row's entry `(0, 512·(t%16) + q)`. -/
theorem iblk3_apply (c : Dev nD) (t : Fin cfg0.N) (z : Fin 1) (q : Fin 512) :
    (iblk m c 3 t : Vec F S1x512 .i32) (ix2 z q)
      = (V m c main_v7 : S1x8192.Idx → Elt F .i32) (ix2 z ⟨t.val % 16 * 512 + q.val, col_lt t q⟩) := by
  obtain ⟨-, -, -, -, -, -, e0, e1, -⟩ := tile_numbers t
  unfold iblk
  rw [View.read_apply]
  show (V m c main_v7 : S1x8192.Idx → Elt F .i32) _ = _
  refine congrArg (V m c main_v7 : S1x8192.Idx → Elt F .i32) (funext fun a => Fin.ext ?_)
  match a with
  | ⟨0, _⟩ => show win0_3.index t (0 : Fin 2) * 1 + 1 * z.val = z.val; rw [e0]; omega
  | ⟨1, _⟩ => show win0_3.index t (1 : Fin 2) * 512 + 1 * q.val = t.val % 16 * 512 + q.val; rw [e1]; omega

/-! ## The loss column after the region -/

/-- The write-back point of the row tile that holds row `r` is a point. -/
theorem flushPoint_lt (r : ℕ) (hr : r < 8192) : 16 * (r / 512) + 15 < cfg0.N := by
  rw [show cfg0.N = 256 from N_0]; omega

/-- THE LOSS COLUMN as one function of the row: the accumulation's output block after the write-back point of the
    row's tile, at the row's position inside the tile. -/
def lossCol (c : Dev nD) : S8192x1.Idx → Elt F .f32 := fun i =>
  (accAt m c (16 * ((i 0).val / 512) + 15) (flushPoint_lt _ (idx2_lt0 i))).out
    (ix2 ⟨(i 0).val % 512, Nat.mod_lt _ (by decide)⟩ ⟨0, Nat.one_pos⟩)

/-- The accumulation depends on the point's number only. -/
theorem accAt_congr (c : Dev nD) {n n' : ℕ} (h : n = n') (hn : n < cfg0.N) (hn' : n' < cfg0.N) :
    accAt m c n hn = accAt m c n' hn' := by
  subst h; rfl

/-- `lossCol` at a row of the tile written back at point `n`: that point's output block at the row's position. -/
theorem lossCol_apply (c : Dev nD) (i : S8192x1.Idx) (n : ℕ) (hn : n < cfg0.N) (y : S512x1.Idx)
    (h1 : 16 * ((i 0).val / 512) + 15 = n) (h2 : (i 0).val % 512 = (y 0).val) :
    lossCol m c i = (accAt m c n hn).out y := by
  unfold lossCol
  rw [accAt_congr m c h1 _ hn]
  refine congrArg (accAt m c n hn).out (funext fun a => Fin.ext ?_)
  match a with
  | ⟨0, _⟩ => exact h2
  | ⟨1, _⟩ => show 0 = (y 1).val; have h : (y 1).val < 1 := (y 1).isLt; omega

/-- WHAT A WRITE-BACK WRITES: at a point `t` with `t % 16 = 15` the block written back is the part of `lossCol` under
    the point's tile, rows `512·(t/16) … 512·(t/16) + 511`: for such a row the tile's write-back point is `t` itself. -/
theorem flushed4_eq (c : Dev nD) (t : Fin cfg0.N) (hf : (cfg0.win 4).flush t = true) :
    (dats m 0 c).flushed 4 t = ((cfg0.win 4).blk t).view.read (Elt F) (lossCol m c) := by
  have h15 : t.val % 16 = 15 := (flush0_4 t).mp hf
  have hN := point_lt t
  obtain ⟨-, -, -, -, -, -, -, -, e0, e1⟩ := tile_numbers t
  show (cfg0.win 4).cut (grid0.coords t) ((dats m 0 c).after 4 t) = _
  rw [after_4]
  funext y
  rw [View.read_apply]
  have hy : (y 0).val < 512 := (y 0).isLt
  refine (lossCol_apply m c _ t.val t.isLt ((cfg0.win 4).xinj (grid0.coords t) y) ?_ ?_).symm
  · show 16 * ((win0_4.index t (0 : Fin 2) * 512 + 1 * (y 0).val) / 512) + 15 = t.val
    rw [e0]; omega
  · show (win0_4.index t (0 : Fin 2) * 512 + 1 * (y 0).val) % 512 = (y 0).val
    rw [e0]; omega

/-- A row of the column is under point `t`'s tile iff each coordinate is in the tile's range on its axis. -/
theorem mem_blk4 (t : Fin cfg0.N) (i : S8192x1.Idx) :
    i ∈ ((cfg0.win 4).blk t).view.set
      ↔ ∀ a : Fin 2, win0_4.index t a * S512x1.size a ≤ (i a).val ∧ (i a).val < win0_4.index t a * S512x1.size a + S512x1.size a := by
  show i ∈ ((View.whole main_v8).slice (win0_4.rect t)).set ↔ _
  rw [View.set_slice_whole, Rect.mem_set_unit]
  exact Iff.rfl

/-- THE WRITE-BACKS COVER THE COLUMN: row `r` is under the tile of the point `16·(r/512) + 15`, which writes back. -/
theorem cover4 (i : S8192x1.Idx) : ∃ t : Fin cfg0.N, (cfg0.win 4).flush t = true ∧ i ∈ ((cfg0.win 4).blk t).view.set := by
  have hi0 : (i 0).val < 8192 := idx2_lt0 i
  have hi1 : (i 1).val < 1 := idx2_lt1 i
  refine ⟨⟨16 * ((i 0).val / 512) + 15, flushPoint_lt _ hi0⟩, (flush0_4 _).mpr (by show (16 * ((i 0).val / 512) + 15) % 16 = 15; omega), ?_⟩
  obtain ⟨-, -, -, -, -, -, -, -, e0, e1⟩ := tile_numbers ⟨16 * ((i 0).val / 512) + 15, flushPoint_lt _ hi0⟩
  rw [mem_blk4]
  intro a
  match a with
  | ⟨0, _⟩ =>
    show win0_4.index _ (0 : Fin 2) * 512 ≤ (i 0).val ∧ (i 0).val < win0_4.index _ (0 : Fin 2) * 512 + 512
    rw [e0]; show (16 * ((i 0).val / 512) + 15) / 16 * 512 ≤ (i 0).val ∧ (i 0).val < (16 * ((i 0).val / 512) + 15) / 16 * 512 + 512
    omega
  | ⟨1, _⟩ =>
    show win0_4.index _ (1 : Fin 2) * 1 ≤ (i 1).val ∧ (i 1).val < win0_4.index _ (1 : Fin 2) * 1 + 1
    rw [e1]; omega

/-- After the region's write-backs the loss column is `lossCol`. -/
theorem out_col_eq (c : Dev nD) : (dats m 0 c).arrAt 4 cfg0.N = lossCol m c :=
  (dats m 0 c).arrAt_eq_of_cover 4 (lossCol m c) (flushed4_eq m c) cover4

/-- Row by row: after the region row `r` of the loss column holds the accumulation's output block after point
    `16·(r/512) + 15`, at position `r % 512`. -/
theorem out_col (c : Dev nD) (r : Fin 8192) (z : Fin 1) :
    ((dats m 0 c).arrAt 4 cfg0.N : S8192x1.Idx → Elt F .f32) (ix2 r z)
      = (accAt m c (16 * (r.val / 512) + 15) (flushPoint_lt _ r.isLt)).out (ix2 ⟨r.val % 512, Nat.mod_lt _ (by decide)⟩ z) := by
  rw [out_col_eq]
  exact lossCol_apply m c _ _ _ _ rfl rfl

end Cert.KernelIdeal.Frame

end
-- ==== Proof.KernelIdeal.Steps.lean ====
/-
  One column tile's contribution, named. With `E` the tile of `exp (-(1 - e_r · e_c))`, `P` the 0/1 tile of
  "same label and not the same row", and `N` the tile of "other label", a column tile adds to the four scratch columns
  the row sums of `E * P`, of `E * N`, of `P` and of `N`; the loss of a row tile is computed from the four totals.
  These are the kernel's own arithmetic terms, under names that say what they are.
-/
import proofs.«171001_j17884243820948_1_alg».proof.Proof.Gen.KernelIdeal.Skeleton

noncomputable section

namespace Cert.KernelIdeal.Frame

open Cert.KernelIdeal Cert.KernelIdeal.Gen
open Idealize.ShloMosaic Idealize.SL.Sem

variable {F : FTy → Type} [FloatOps F]

/-- The f32 zero the masks select where they are false. -/
abbrev fzero : F .f32 := Scalar.ofBits .f32 0x00000000#32

/-- Scratch column 0 after a column tile: what it held plus the row sums of `E * P`. -/
def stepPosSum (i : grid0.Coords) (x0 x1 : Vec F S512x512 .bf16) (x2 : Vec F S512x1 .i32) (x3 : Vec F S1x512 .i32)
    (s : Vec F S512x1 .f32) : Vec F S512x1 .f32 :=
  k0_pay12 (k0_pay6 x0 x1) (k0_pay8 i x2 x3) s
/-- Scratch column 1: plus the row sums of `E * N`. -/
def stepNegSum (x0 x1 : Vec F S512x512 .bf16) (x2 : Vec F S512x1 .i32) (x3 : Vec F S1x512 .i32)
    (s : Vec F S512x1 .f32) : Vec F S512x1 .f32 :=
  k0_pay13 (k0_pay6 x0 x1) (k0_pay9 x2 x3) fzero k0_pay10 s
/-- Scratch column 2: plus the row sums of `P`. -/
def stepPosCnt (i : grid0.Coords) (x2 : Vec F S512x1 .i32) (x3 : Vec F S1x512 .i32)
    (s : Vec F S512x1 .f32) : Vec F S512x1 .f32 :=
  k0_pay14 (k0_pay8 i x2 x3) s
/-- Scratch column 3: plus the row sums of `N`. -/
def stepNegCnt (x2 : Vec F S512x1 .i32) (x3 : Vec F S1x512 .i32) (s : Vec F S512x1 .f32) : Vec F S512x1 .f32 :=
  k0_pay15 (k0_pay9 x2 x3) fzero k0_pay10 s
/-- The row tile's loss from the four totals (positive sum, negative sum, positive count, negative count). -/
def lossOf (a0 a1 a2 a3 : Vec F S512x1 .f32) : Vec F S512x1 .f32 := k0_pay1 a2 a3 a0 a1

end Cert.KernelIdeal.Frame

end
-- ==== Proof.Spec.lean ====
/-
  THE SPECIFICATION: a contrastive loss over L2-normalised embeddings, written index by index on the extended reals.

  Input: embeddings `x r k` (8192 rows of 512 coordinates) and one integer label `l r` per row.

    n r      = max (√ (∑ₖ x r k · x r k)) c12                the row's Euclidean norm, clamped below by the constant c12
    e r k    = x r k / n r                                   the normalised row
    s r c    = ∑ₖ e r k · e c k                              cosine similarity of rows r and c
    E r c    = exp (−(1 − s r c))                            exp of minus the cosine distance
    pm r c   = 1 if l r = l c and r ≠ c, else 0              "positive pair": same label, different rows
    nm r c   = 1 if l r ≠ l c, else 0                        "negative pair": different labels
    pc r, nc r = ∑_c pm r c, ∑_c nm r c                      how many positives / negatives row r has
    ps r, ns r = ∑_c E r c · pm r c, ∑_c E r c · nm r c       the similarity mass on each
    pmean r  = ps r / max (pc r) 1,  nmean r = ns r / max (nc r) 1
    row r    = −log (pmean r / ((pmean r + nmean r) + eps))  if 0 < pc r and 0 < nc r, else 0
    loss     = (∑ᵣ row r) / 8192

  Every operation is the exact one on `EReal`: `/` is `Ideal.div`, and `√`, `exp`, `log` are `Ideal.sqrt`,
  `Ideal.exp`, `Ideal.log`. The three constants that are not 0 or 1 stay the values their 32-bit patterns denote
  (`c12`, `eps`, `rows`); nothing below depends on their numerical values. Sums are plain `Finset` sums over
  `Fin 512` / `Fin 8192`; a sum that starts from the initial value zero is the same sum (`zero_add`).

  The file ends with the facts both programs' proofs use: the mask written as a product of two 0/1 factors is `pm`
  (`mask_mul`), and a sum over 8192 columns is the sum over 16 blocks of 512 columns (`sum_blocks`).
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Spec

open Idealize.ShloMosaic

/-! ## The three constants -/

/-- The lower clamp of a row norm: the value of the f32 pattern `0x2B8CBCCC` (about 10⁻¹²). -/
abbrev c12 : EReal := Ideal.ofBits .f32 0x2B8CBCCC#32
/-- The guard added to the denominator inside the logarithm: the value of the f32 pattern `0x322BCC77` (about 10⁻⁸). -/
abbrev eps : EReal := Ideal.ofBits .f32 0x322BCC77#32
/-- The number of rows as a float: the value of the f32 pattern `0x46000000` (8192). -/
abbrev rows : EReal := Ideal.ofBits .f32 0x46000000#32

/-! ## The loss, piece by piece -/

section Pieces
variable (x : Fin 8192 → Fin 512 → EReal) (l : Fin 8192 → BitVec 32)

/-- The clamped Euclidean norm of row `r`. -/
def n (r : Fin 8192) : EReal := max (Ideal.sqrt (∑ k : Fin 512, x r k * x r k)) c12

/-- Row `r` divided by its clamped norm. -/
def e (r : Fin 8192) (k : Fin 512) : EReal := Ideal.div (x r k) (n x r)

/-- The cosine similarity of rows `r` and `c`: the inner product of the normalised rows. -/
def s (r c : Fin 8192) : EReal := ∑ k : Fin 512, e x r k * e x c k

/-- `exp` of minus the cosine distance `1 − s r c`. -/
def E (r c : Fin 8192) : EReal := Ideal.exp (-(1 - s x r c))

/-- The positive-pair mask: same label and not the same row. -/
def pm (r c : Fin 8192) : EReal := if l r = l c ∧ r ≠ c then 1 else 0

/-- The negative-pair mask: different labels. -/
def nm (r c : Fin 8192) : EReal := if l r = l c then 0 else 1

/-- The number of positive partners of row `r`. -/
def pc (r : Fin 8192) : EReal := ∑ c : Fin 8192, pm l r c

/-- The number of negative partners of row `r`. -/
def nc (r : Fin 8192) : EReal := ∑ c : Fin 8192, nm l r c

/-- The similarity mass of row `r` on its positive partners. -/
def ps (r : Fin 8192) : EReal := ∑ c : Fin 8192, E x r c * pm l r c

/-- The similarity mass of row `r` on its negative partners. -/
def ns (r : Fin 8192) : EReal := ∑ c : Fin 8192, E x r c * nm l r c

/-- The mean over the positive partners (the count clamped below by one, so an empty set divides by one). -/
def pmean (r : Fin 8192) : EReal := Ideal.div (ps x l r) (max (pc l r) 1)

/-- The mean over the negative partners. -/
def nmean (r : Fin 8192) : EReal := Ideal.div (ns x l r) (max (nc l r) 1)

/-- Row `r`'s term: minus the logarithm of the positive share, for a row that has a partner of each kind; else zero. -/
def row (r : Fin 8192) : EReal :=
  if 0 < pc l r ∧ 0 < nc l r then
    -(Ideal.log (Ideal.div (pmean x l r) ((pmean x l r + nmean x l r) + eps)))
  else 0

/-- The loss: the mean of the rows' terms. -/
def loss : EReal := Ideal.div (∑ r : Fin 8192, row x l r) rows

end Pieces

/-! ## The positive mask as a product of two 0/1 factors

A program forms the positive mask as `[same label] · (1 − [same row])` with each bracket 0 or 1. On the extended reals
`1 − 1 = 0`, `1 − 0 = 1`, `1 · 1 = 1`, `1 · 0 = 0` and `0 · y = 0`, so the product is `pm`. -/

/-- `1 − 1 = 0` on the extended reals (both are the real number one). -/
theorem one_sub_one : (1 : EReal) - 1 = 0 := by
  rw [show (1 : EReal) = ((1 : ℝ) : EReal) from rfl, ← EReal.coe_sub, sub_self]; rfl

/-- The product form of the positive mask. -/
theorem mask_mul (l : Fin 8192 → BitVec 32) (r c : Fin 8192) :
    (if l r = l c then (1 : EReal) else 0) * (1 - (if r = c then (1 : EReal) else 0)) = pm l r c := by
  unfold pm
  by_cases hl : l r = l c
  · by_cases hr : r = c
    · rw [if_pos hl, if_pos hr, if_neg (show ¬(l r = l c ∧ r ≠ c) from fun h => h.2 hr), one_sub_one, mul_zero]
    · rw [if_pos hl, if_neg hr, if_pos (show l r = l c ∧ r ≠ c from ⟨hl, hr⟩), sub_zero, mul_one]
  · rw [if_neg hl, if_neg (show ¬(l r = l c ∧ r ≠ c) from fun h => hl h.1), zero_mul]

/-! ## Dropping a zero initial value -/

/-- A sum started from the initial value zero is the sum. -/
theorem zero_add_sum {ι : Type} (t : Finset ι) (f : ι → EReal) : 0 + ∑ i ∈ t, f i = ∑ i ∈ t, f i := zero_add _

/-! ## A sum over 8192 columns, block by block

Column `c < 8192` is `j · 512 + q` for exactly one block `j < 16` and offset `q < 512` (`j = c / 512`, `q = c % 512`),
so a sum over all columns is the sum over the blocks of the sums inside each block. Addition on the extended reals is
commutative and associative (also at the infinities), so no finiteness is needed. -/

/-- A pair (block, offset) is a column. -/
def blockEquiv : Fin 16 × Fin 512 ≃ Fin 8192 where
  toFun p := ⟨p.1.val * 512 + p.2.val, by have := p.1.isLt; have := p.2.isLt; omega⟩
  invFun c := (⟨c.val / 512, by have := c.isLt; omega⟩, ⟨c.val % 512, by omega⟩)
  left_inv p := by
    have h1 := p.1.isLt; have h2 := p.2.isLt
    refine Prod.ext (Fin.ext ?_) (Fin.ext ?_)
    · show (p.1.val * 512 + p.2.val) / 512 = p.1.val; omega
    · show (p.1.val * 512 + p.2.val) % 512 = p.2.val; omega
  right_inv c := Fin.ext (by show c.val / 512 * 512 + c.val % 512 = c.val; omega)

/-- The sum over the columns is the sum over 16 blocks of 512 columns. -/
theorem sum_blocks {M : Type*} [AddCommMonoid M] (f : Fin 8192 → M) :
    ∑ j : Fin 16, ∑ q : Fin 512, f ⟨j.val * 512 + q.val, by have := j.isLt; have := q.isLt; omega⟩ = ∑ c : Fin 8192, f c := by
  rw [← Equiv.sum_comp blockEquiv f, Fintype.sum_prod_type]
  rfl

end Cert.Spec

end
-- ==== Proof.KernelIdeal.Columns.lean ====
/-
  Columns: a vector recast as a one-column matrix, and a one-column matrix spread over many columns, read at an index.

  A row-wise sum of an a × b matrix is a vector of length a; keeping it as an a × 1 column is a recast that changes no
  position: entry (i, 0) of the column is entry i of the vector (both sit at row-major position i). Spreading an a × 1
  column over b columns repeats it: entry (i, c) of the result is entry (i, 0) of the column, whatever c.
-/
import Idealize.ShloMosaic.Lib.ValueLayout

namespace Cert.KernelIdeal.Columns

open Idealize.ShloMosaic Idealize.ShloMosaic.ValueIdx

variable {α : Type}

/-- A vector of length a recast as an a × 1 column reads, at (i, u), the vector at i: the unit coordinate u is 0 and
    the row-major position i · 1 + 0 is i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.Columns
-- ==== Proof.KernelIdeal.PayIdx.lean ====
/-
  The tile arithmetic, entry by entry.

  At grid point (i, j) the body sees a 512 × 512 row tile x0 and column tile x1 of the normalised embeddings, the row
  tile's labels as a column l2 and the column tile's labels as a row l3, and four 512 × 1 accumulator columns. Each
  value it stores is a pure function of those; this file reads each such function at one entry, on the extended reals:

    exp-term      (p, q) ↦ exp (−(1 − ∑ₖ x0 (p, k) · x1 (q, k)))      the product contracts the two tiles' second axes
    same label    (p, q) ↦ [l2 p = l3 q]                                as a one-bit word
    positive mask (p, q) ↦ 1 if l2 p = l3 q and i·512 + p ≠ j·512 + q, else 0
    negative mask (p, q) ↦ 0 if l2 p = l3 q, else 1
    accumulators  p ↦ old p + ∑_q (exp-term · mask) (p, q),  old p + ∑_q mask (p, q)
    resets        p ↦ 0
    row loss      p ↦ −log (pm / ((pm + nm) + eps)) if both counts are positive, else 0,
                      pm = positive mass / max (positive count) 1,  nm = negative mass / max (negative count) 1

  The zero and one bit patterns are read as the numbers 0 and 1; 0 − y is −y. Row and column numbers are formed as
  32-bit words, i·512 + p with i < 16 and p < 512: below 8192, so no word wraps and equality of the words is equality
  of the numbers.
-/
import proofs.«171001_j17884243820948_1_alg».proof.Proof.Gen.KernelIdeal.Skeleton
import proofs.«171001_j17884243820948_1_alg».proof.Proof.Spec
import proofs.«171001_j17884243820948_1_alg».proof.Proof.KernelIdeal.Columns
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.KernelIdeal.PayIdx

open Cert.KernelIdeal Cert.KernelIdeal.Gen
open Idealize.ShloMosaic Idealize.ShloMosaic.ValueIdx

/-! ## The four resets: each column is set to the zero word, the number 0 -/

theorem pay2_apply (p : Fin 512) : k0_pay2 (F := Ideal) (ix2 p (0 : Fin 1)) = 0 := by
  unfold k0_pay2
  exact (congrFun (shapeCast_self _ _) _).trans Ideal.ofBits_zero_f32

/-! ## The product of a row tile with a column tile

The product contracts axis 1 of both operands: output entry (p, q) pairs the left operand's entry (p, k) with the right
operand's entry (q, k). The four lemmas below read the operand indices' coordinates off the dimension numbers; the
contraction index has one coordinate, so the sum over it is a sum over k < 512. -/

theorem lhs_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide),
    dif_pos (show (0 : Fin S512x512.rank) ∈ dot_S512x512_S512x512_S512x512_1_1_0_0_n_n.lhsNonContracting by decide)]
  rfl
theorem lhs_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide),
    dif_pos (show (0 : Fin S512x512.rank) ∈ dot_S512x512_S512x512_S512x512_1_1_0_0_n_n.rhsNonContracting by decide)]
  rfl
theorem rhs_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- The product into a zero accumulator, at (p, q): the inner product of row p of the left tile with row q of the right. -/
theorem matmul_rows (a b : FVec Ideal S512x512 .bf16) (p q : Fin 512) :
    FloatOps.matmul dot_S512x512_S512x512_S512x512_1_1_0_0_n_n none a b (constant (F := Ideal) S512x512 .f32 0x00000000#32) (ix2 p q)
      = ∑ k : Fin 512, a (ix2 p k) * b (ix2 q k) := by
  rw [Ideal.matmul_constant_zero_apply,
    ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 p q)
      ((contrEquiv1 dot_S512x512_S512x512_S512x512_1_1_0_0_n_n 512 rfl rfl).symm k) = ix2 p k :=
    funext fun a => Fin.ext (by
      match a with
      | ⟨0, _⟩ => exact lhs_0 _ _
      | ⟨1, _⟩ => exact (lhs_1 _ _).trans hk)
  have er : dot_S512x512_S512x512_S512x512_1_1_0_0_n_n.rhsIdx (ix2 p q)
      ((contrEquiv1 dot_S512x512_S512x512_S512x512_1_1_0_0_n_n 512 rfl rfl).symm k) = ix2 q k :=
    funext fun a => Fin.ext (by
      match a with
      | ⟨0, _⟩ => exact rhs_0 _ _
      | ⟨1, _⟩ => exact (rhs_1 _ _).trans hk)
  rw [el, er]

/-- The exp-term: exp of minus the cosine distance 1 − ⟨row p of x0, row q of x1⟩. -/
theorem pay6_apply (x0 x1 : Vec Ideal S512x512 .bf16) (p q : Fin 512) :
    k0_pay6 x0 x1 (ix2 p q) = Ideal.exp (-(1 - ∑ k : Fin 512, x0 (ix2 p k) * x1 (ix2 q k))) := by
  unfold k0_pay6
  rw [shapeCast_self, shapeCast_self]
  show Ideal.exp (Ideal.ofBits .f32 0x00000000#32 - (Ideal.ofBits .f32 0x3F800000#32
    - FloatOps.matmul dot_S512x512_S512x512_S512x512_1_1_0_0_n_n none x0 x1 (constant (F := Ideal) S512x512 .f32 0x00000000#32) (ix2 p q))) = _
  rw [matmul_rows, Ideal.ofBits_zero_f32, Ideal.ofBits_one_f32, zero_sub]

/-! ## The label masks -/

/-- A one-bit word is 1 exactly when the Boolean it was made from is true. -/
theorem ofBool_eq_one (b : Bool) : BitVec.ofBool b = (1 : BitVec 1) ↔ b = true := by cases b <;> decide

/-- The comparison word of two 32-bit words is 1 exactly when they are equal. -/
theorem cmpi_eq_one (x y : BitVec 32) : IntOp.cmpi .eq x y = (1 : BitVec 1) ↔ x = y := by
  unfold IntOp.cmpi
  rw [ofBool_eq_one]
  exact beq_iff_eq

/-- Flipping a one-bit word with 1: the result is 1 exactly when the word was not 1. -/
theorem xori_one_eq_one (a : BitVec 1) : IntOp.xori a 1#1 = (1 : BitVec 1) ↔ ¬ a = (1 : BitVec 1) := by
  rcases BitVec.eq_zero_or_eq_one a with h | h <;> subst h <;> decide

/-- The conjunction of two one-bit words is 1 exactly when both are. -/
theorem andi_eq_one (a b : BitVec 1) : IntOp.andi a b = (1 : BitVec 1) ↔ a = (1 : BitVec 1) ∧ b = (1 : BitVec 1) := by
  rcases BitVec.eq_zero_or_eq_one a with h | h <;> rcases BitVec.eq_zero_or_eq_one b with h' | h' <;> subst h <;> subst h' <;> decide

/-- "Same label": entry (p, q) compares the row tile's label p with the column tile's label q. -/
theorem pay7_apply (l2 : Vec Ideal S512x1 .i32) (l3 : Vec Ideal S1x512 .i32) (p q : Fin 512) :
    k0_pay7 l2 l3 (ix2 p q) = IntOp.cmpi .eq (l2 (ix2 p (0 : Fin 1))) (l3 (ix2 (0 : Fin 1) q)) := by
  unfold k0_pay7
  rw [shapeCast_self, shapeCast_self]
  show IntOp.cmpi .eq (broadcastTo S512x512 l2 broadcasts_S512x1_S512x512 (ix2 p q))
    (broadcastTo S512x512 l3 broadcasts_S1x512_S512x512 (ix2 p q)) = _
  rw [Columns.broadcastTo_a1_ab_apply, broadcastTo_1b_ab_apply]

/-- That word is 1 exactly when the two labels are equal. -/
theorem pay7_eq_one (l2 : Vec Ideal S512x1 .i32) (l3 : Vec Ideal S1x512 .i32) (p q : Fin 512) :
    k0_pay7 l2 l3 (ix2 p q) = (1 : BitVec 1) ↔ l2 (ix2 p (0 : Fin 1)) = l3 (ix2 (0 : Fin 1) q) := by
  rw [pay7_apply]; exact cmpi_eq_one _ _

/-- Row number and column number of entry (p, q) of tile (i, j), as 32-bit words: nothing wraps, since both are below
    8192, so the two words are equal exactly when the two numbers are. -/
theorem word_eq_iff (a b : Fin 16) (p q : Fin 512) :
    IntOp.addi (IntOp.muli (BitVec.ofNat 32 a.val) 512#32) (BitVec.ofNat 32 p.val)
      = IntOp.addi (IntOp.muli (BitVec.ofNat 32 b.val) 512#32) (BitVec.ofNat 32 q.val)
    ↔ a.val * 512 + p.val = b.val * 512 + q.val := by
  have ha := a.isLt; have hb := b.isLt; have hp := p.isLt; have hq := q.isLt
  unfold IntOp.addi IntOp.muli
  rw [← BitVec.toNat_inj]
  simp only [BitVec.toNat_add, BitVec.toNat_mul, BitVec.toNat_ofNat]
  omega

/-- The positive-pair mask of tile (i, j): 1 where the labels agree and the entry is off the diagonal of the whole
    8192 × 8192 matrix (row number i·512 + p, column number j·512 + q), else 0. -/
theorem pay8_apply (i : grid0.Coords) (l2 : Vec Ideal S512x1 .i32) (l3 : Vec Ideal S1x512 .i32) (p q : Fin 512) :
    k0_pay8 i l2 l3 (ix2 p q)
      = if l2 (ix2 p (0 : Fin 1)) = l3 (ix2 (0 : Fin 1) q) ∧ (i 0).val * 512 + p.val ≠ (i 1).val * 512 + q.val then (1 : EReal) else 0 := by
  unfold k0_pay8
  show Scalar.select (IntOp.andi (k0_pay7 l2 l3 (ix2 p q))
      (IntOp.xori (IntOp.cmpi .eq
        (IntOp.addi (IntOp.muli (BitVec.ofNat 32 (i 0).val) 512#32) (iota .tc S512x512 32 [0] iota_S512x512_d0_w32 (ix2 p q)))
        (IntOp.addi (IntOp.muli (BitVec.ofNat 32 (i 1).val) 512#32) (iota .tc S512x512 32 [1] iota_S512x512_d1_w32 (ix2 p q)))) 1#1))
      (Ideal.ofBits .f32 0x3F800000#32) (Ideal.ofBits .f32 0x00000000#32) = _
  rw [iota_single_apply, iota_single_apply, Ideal.ofBits_one_f32, Ideal.ofBits_zero_f32]
  unfold Scalar.select
  refine if_congr ?_ rfl rfl
  rw [andi_eq_one, xori_one_eq_one, pay7_eq_one, cmpi_eq_one]
  exact and_congr_right fun _ => not_congr (word_eq_iff (i 0) (i 1) p q)

/-- The negative-pair mask: 0 where the labels agree, else 1. -/
theorem pay11_apply (l2 : Vec Ideal S512x1 .i32) (l3 : Vec Ideal S1x512 .i32) (p q : Fin 512) :
    k0_pay11 (k0_pay9 l2 l3) (Scalar.ofBits (F := Ideal) .f32 0x00000000#32) k0_pay10 (ix2 p q)
      = if l2 (ix2 p (0 : Fin 1)) = l3 (ix2 (0 : Fin 1) q) then (0 : EReal) else 1 := by
  unfold k0_pay11 k0_pay9 k0_pay10
  show Scalar.select (IntOp.xori (k0_pay7 l2 l3 (ix2 p q)) 1#1) (Ideal.ofBits .f32 0x3F800000#32) (Ideal.ofBits .f32 0x00000000#32) = _
  rw [Ideal.ofBits_one_f32, Ideal.ofBits_zero_f32]
  unfold Scalar.select
  by_cases h : l2 (ix2 p (0 : Fin 1)) = l3 (ix2 (0 : Fin 1) q)
  · rw [if_pos h, if_neg ((xori_one_eq_one _).not.mpr (not_not.mpr ((pay7_eq_one l2 l3 p q).mpr h)))]
  · rw [if_neg h, if_pos ((xori_one_eq_one _).mpr (mt (pay7_eq_one l2 l3 p q).mp h))]

/-! ## The four accumulators -/

/-- The sum of a tile's row p over its 512 columns, started from the zero word: the plain sum of the row's entries. -/
theorem rowSum_apply (v : FVec Ideal S512x512 .f32) (p : Fin 512) :
    multiReduction (F := Ideal) .add [1] S512 v 0x00000000#32 reduces_S512x512_S512 (.inl rfl) rfl (ix1 p)
      = ∑ q : Fin 512, v (ix2 p q) := by
  refine (Ideal.multiReduction_add_single v 0x00000000#32 reduces_S512x512_S512 (.inl rfl) rfl (ix1 p)).trans ?_
  refine Finset.sum_congr rfl fun q _ => congrArg v ?_
  funext a
  match a with
  | ⟨0, _⟩ => rfl
  | ⟨1, _⟩ => rfl

/-- A scratch column plus the row sums of a tile, kept as a column: entry (p, 0) is the old entry plus the sum of the
    tile's row p. -/
theorem acc_apply (v : FVec Ideal S512x512 .f32) (s : Vec Ideal S512x1 .f32) (p : Fin 512) :
    shapeCast S512x1 (addf s (shapeCast S512x1
        (multiReduction (F := Ideal) .add [1] S512 v 0x00000000#32 reduces_S512x512_S512 (.inl rfl) rfl) shapeCasts_S512_S512x1))
      shapeCasts_S512x1_S512x1 (ix2 p (0 : Fin 1))
      = s (ix2 p (0 : Fin 1)) + ∑ q : Fin 512, v (ix2 p q) := by
  rw [shapeCast_self]
  show s (ix2 p (0 : Fin 1)) + shapeCast S512x1
      (multiReduction (F := Ideal) .add [1] S512 v 0x00000000#32 reduces_S512x512_S512 (.inl rfl) rfl) shapeCasts_S512_S512x1 (ix2 p (0 : Fin 1)) = _
  rw [Columns.shapeCast_a_a1_apply, rowSum_apply]

/-- The positive mass: the old entry plus the row's sum of exp-term times positive mask. -/
theorem pay12_apply (E PM : FVec Ideal S512x512 .f32) (s : Vec Ideal S512x1 .f32) (p : Fin 512) :
    k0_pay12 E PM s (ix2 p (0 : Fin 1)) = s (ix2 p (0 : Fin 1)) + ∑ q : Fin 512, E (ix2 p q) * PM (ix2 p q) := by
  unfold k0_pay12
  exact acc_apply (mulf E PM) s p

/-- The negative mass: the old entry plus the row's sum of exp-term times negative mask. -/
theorem pay13_apply (E : FVec Ideal S512x512 .f32) (v34 : IVec S512x512 1) (c : Ideal .f32) (v35 : FVec Ideal S512x512 .f32)
    (s : Vec Ideal S512x1 .f32) (p : Fin 512) :
    k0_pay13 E v34 c v35 s (ix2 p (0 : Fin 1))
      = s (ix2 p (0 : Fin 1)) + ∑ q : Fin 512, E (ix2 p q) * k0_pay11 v34 c v35 (ix2 p q) := by
  unfold k0_pay13
  exact acc_apply (mulf E (k0_pay11 v34 c v35)) s p

/-- The positive count: the old entry plus the row's sum of the positive mask. -/
theorem pay14_apply (PM : FVec Ideal S512x512 .f32) (s : Vec Ideal S512x1 .f32) (p : Fin 512) :
    k0_pay14 PM s (ix2 p (0 : Fin 1)) = s (ix2 p (0 : Fin 1)) + ∑ q : Fin 512, PM (ix2 p q) := by
  unfold k0_pay14
  exact acc_apply PM s p

/-- The negative count: the old entry plus the row's sum of the negative mask. -/
theorem pay15_apply (v34 : IVec S512x512 1) (c : Ideal .f32) (v35 : FVec Ideal S512x512 .f32)
    (s : Vec Ideal S512x1 .f32) (p : Fin 512) :
    k0_pay15 v34 c v35 s (ix2 p (0 : Fin 1)) = s (ix2 p (0 : Fin 1)) + ∑ q : Fin 512, k0_pay11 v34 c v35 (ix2 p q) := by
  unfold k0_pay15
  exact acc_apply (k0_pay11 v34 c v35) s p

/-! ## The row's loss -/

/-- The comparison word of "b < a" on the extended reals is 1 exactly when b < a. -/
theorem ogt_eq_one (a b : EReal) : FloatOps.cmpf (F := Ideal) (φ := .f32) .ogt a b = (1 : BitVec 1) ↔ b < a := by
  show BitVec.ofBool (decide (b < a)) = (1 : BitVec 1) ↔ b < a
  rw [ofBool_eq_one]
  exact decide_eq_true_iff

/-- The last column tile's store: for a row with a partner of each kind, minus the logarithm of the positive share;
    else zero. (v71, v72 the two counts, v73, v77 the two masses.) -/
theorem pay1_apply (v71 v72 v73 v77 : Vec Ideal S512x1 .f32) (p : Fin 512) :
    k0_pay1 v71 v72 v73 v77 (ix2 p (0 : Fin 1))
      = if 0 < v71 (ix2 p (0 : Fin 1)) ∧ 0 < v72 (ix2 p (0 : Fin 1)) then
          -(Ideal.log (Ideal.div (Ideal.div (v73 (ix2 p (0 : Fin 1))) (max (v71 (ix2 p (0 : Fin 1))) 1))
            ((Ideal.div (v73 (ix2 p (0 : Fin 1))) (max (v71 (ix2 p (0 : Fin 1))) 1)
              + Ideal.div (v77 (ix2 p (0 : Fin 1))) (max (v72 (ix2 p (0 : Fin 1))) 1)) + Cert.Spec.eps)))
        else 0 := by
  unfold k0_pay1
  generalize ix2 p (0 : Fin 1) = j
  show Scalar.select (IntOp.andi (FloatOps.cmpf (F := Ideal) (φ := .f32) .ogt (v71 j) (Ideal.ofBits .f32 0x00000000#32))
        (FloatOps.cmpf (F := Ideal) (φ := .f32) .ogt (v72 j) (Ideal.ofBits .f32 0x00000000#32)))
      (Ideal.ofBits .f32 0x00000000#32 - Ideal.log (Ideal.div (Ideal.div (v73 j) (max (v71 j) (Ideal.ofBits .f32 0x3F800000#32)))
        ((Ideal.div (v73 j) (max (v71 j) (Ideal.ofBits .f32 0x3F800000#32))
          + Ideal.div (v77 j) (max (v72 j) (Ideal.ofBits .f32 0x3F800000#32))) + Ideal.ofBits .f32 0x322BCC77#32)))
      (Ideal.ofBits .f32 0x00000000#32) = _
  rw [Ideal.ofBits_one_f32, Ideal.ofBits_zero_f32, zero_sub]
  unfold Scalar.select
  refine if_congr ?_ rfl rfl
  rw [andi_eq_one, ogt_eq_one, ogt_eq_one]

theorem pay3_apply (p : Fin 512) : k0_pay3 (F := Ideal) (ix2 p (0 : Fin 1)) = 0 := by
  unfold k0_pay3
  exact (congrFun (shapeCast_self _ _) _).trans Ideal.ofBits_zero_f32
theorem pay4_apply (p : Fin 512) : k0_pay4 (F := Ideal) (ix2 p (0 : Fin 1)) = 0 := by
  unfold k0_pay4
  exact (congrFun (shapeCast_self _ _) _).trans Ideal.ofBits_zero_f32
theorem pay5_apply (p : Fin 512) : k0_pay5 (F := Ideal) (ix2 p (0 : Fin 1)) = 0 := by
  unfold k0_pay5
  exact (congrFun (shapeCast_self _ _) _).trans Ideal.ofBits_zero_f32

end Cert.KernelIdeal.PayIdx

end
-- ==== Proof.KernelIdeal.Fold1.lean ====
/-
  ONE COLUMN TILE'S CONTRIBUTION TO A ROW, in the specification's terms.

  At the grid point (row tile `i`, column tile `j`) the kernel adds, to each of its four scratch columns at position `p`,
  a sum over the 512 columns `q` of the tile. When the row tile's row `p` is row `R` of the normalised embeddings `e X`,
  the column tile's row `q` is row `C q`, and the two label tiles carry the labels `L R` and `L (C q)`, the summands are
  the specification's: the inner product of the two rows is the cosine similarity `s X R (C q)`, so the tile's exp-term
  is `E X R (C q)`; "same label and different numbers `i·512 + p ≠ j·512 + q`" is `pm L R (C q)`, the numbers being
  `R` and `C q` themselves; "other label" is `nm L R (C q)`. So the four columns receive

      ∑_q E X R (C q) · pm L R (C q),   ∑_q E X R (C q) · nm L R (C q),   ∑_q pm L R (C q),   ∑_q nm L R (C q).

  First for any tiles with those properties, then at a grid point `t` for the tiles the region hands the body there,
  given what the three arrays hold when the region starts (the hypotheses `hE`, `hL6`, `hL7`).
-/
import proofs.«171001_j17884243820948_1_alg».proof.Proof.KernelIdeal.Blocks
import proofs.«171001_j17884243820948_1_alg».proof.Proof.KernelIdeal.Steps
import proofs.«171001_j17884243820948_1_alg».proof.Proof.KernelIdeal.PayIdx
import proofs.«171001_j17884243820948_1_alg».proof.Proof.Spec

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx
open Idealize.SL Idealize.SL.Sem

/-! ## The summands -/

/-- The tile's exp-term at `(p, q)` is `E X R C` when row `p` of the left tile is row `R` of `e X` and row `q` of the right
    tile is row `C`. -/
theorem expTerm_eq (x0 x1 : Vec Ideal S512x512 .bf16) (p q : Fin 512) (X : Fin 8192 → Fin 512 → EReal) (R C : Fin 8192)
    (hx0 : ∀ k, x0 (ix2 p k) = Cert.Spec.e X R k) (hx1 : ∀ k, x1 (ix2 q k) = Cert.Spec.e X C k) :
    k0_pay6 x0 x1 (ix2 p q) = Cert.Spec.E X R C := by
  rw [PayIdx.pay6_apply]
  unfold Cert.Spec.E Cert.Spec.s
  simp only [hx0, hx1]

/-- The tile's positive mask at `(p, q)` is `pm L R C` when the labels there are `L R` and `L C` and the row and column
    numbers the tile forms are `R` and `C`. -/
theorem posMask_eq (i : grid0.Coords) (l2 : Vec Ideal S512x1 .i32) (l3 : Vec Ideal S1x512 .i32) (p q : Fin 512)
    (L : Fin 8192 → BitVec 32) (R C : Fin 8192)
    (hl2 : l2 (ix2 p (0 : Fin 1)) = L R) (hl3 : l3 (ix2 (0 : Fin 1) q) = L C)
    (hR : R.val = (i 0).val * 512 + p.val) (hC : C.val = (i 1).val * 512 + q.val) :
    k0_pay8 i l2 l3 (ix2 p q) = Cert.Spec.pm L R C := by
  rw [PayIdx.pay8_apply, hl2, hl3]
  unfold Cert.Spec.pm
  refine if_congr (and_congr_right fun _ => not_congr ?_) rfl rfl
  rw [← hR, ← hC]
  exact Fin.val_inj

/-- The tile's negative mask at `(p, q)` is `nm L R C` when the labels there are `L R` and `L C`. -/
theorem negMask_eq (l2 : Vec Ideal S512x1 .i32) (l3 : Vec Ideal S1x512 .i32) (p q : Fin 512)
    (L : Fin 8192 → BitVec 32) (R C : Fin 8192)
    (hl2 : l2 (ix2 p (0 : Fin 1)) = L R) (hl3 : l3 (ix2 (0 : Fin 1) q) = L C) :
    k0_pay11 (k0_pay9 l2 l3) (fzero (F := Ideal)) (k0_pay10 (F := Ideal)) (ix2 p q) = Cert.Spec.nm L R C := by
  rw [PayIdx.pay11_apply, hl2, hl3]
  rfl

/-! ## The four steps, for any tiles -/

section AnyTiles
variable (i : grid0.Coords) (x0 x1 : Vec Ideal S512x512 .bf16) (l2 : Vec Ideal S512x1 .i32) (l3 : Vec Ideal S1x512 .i32)
  (s : Vec Ideal S512x1 .f32) (p : Fin 512) (X : Fin 8192 → Fin 512 → EReal) (L : Fin 8192 → BitVec 32)
  (R : Fin 8192) (C : Fin 512 → Fin 8192)

/-- The positive mass after a column tile. -/
theorem stepPosSum_apply (hx0 : ∀ k, x0 (ix2 p k) = Cert.Spec.e X R k) (hx1 : ∀ q k, x1 (ix2 q k) = Cert.Spec.e X (C q) k)
    (hl2 : l2 (ix2 p (0 : Fin 1)) = L R) (hl3 : ∀ q, l3 (ix2 (0 : Fin 1) q) = L (C q))
    (hR : R.val = (i 0).val * 512 + p.val) (hC : ∀ q, (C q).val = (i 1).val * 512 + q.val) :
    stepPosSum i x0 x1 l2 l3 s (ix2 p (0 : Fin 1))
      = s (ix2 p (0 : Fin 1)) + ∑ q : Fin 512, Cert.Spec.E X R (C q) * Cert.Spec.pm L R (C q) := by
  unfold stepPosSum
  rw [PayIdx.pay12_apply]
  refine congrArg (s (ix2 p (0 : Fin 1)) + ·) (Finset.sum_congr rfl fun q _ => ?_)
  rw [expTerm_eq x0 x1 p q X R (C q) hx0 (hx1 q), posMask_eq i l2 l3 p q L R (C q) hl2 (hl3 q) hR (hC q)]

/-- The negative mass after a column tile. -/
theorem stepNegSum_apply (hx0 : ∀ k, x0 (ix2 p k) = Cert.Spec.e X R k) (hx1 : ∀ q k, x1 (ix2 q k) = Cert.Spec.e X (C q) k)
    (hl2 : l2 (ix2 p (0 : Fin 1)) = L R) (hl3 : ∀ q, l3 (ix2 (0 : Fin 1) q) = L (C q)) :
    stepNegSum x0 x1 l2 l3 s (ix2 p (0 : Fin 1))
      = s (ix2 p (0 : Fin 1)) + ∑ q : Fin 512, Cert.Spec.E X R (C q) * Cert.Spec.nm L R (C q) := by
  unfold stepNegSum
  rw [PayIdx.pay13_apply]
  refine congrArg (s (ix2 p (0 : Fin 1)) + ·) (Finset.sum_congr rfl fun q _ => ?_)
  rw [expTerm_eq x0 x1 p q X R (C q) hx0 (hx1 q), negMask_eq l2 l3 p q L R (C q) hl2 (hl3 q)]

/-- The positive count after a column tile. -/
theorem stepPosCnt_apply (hl2 : l2 (ix2 p (0 : Fin 1)) = L R) (hl3 : ∀ q, l3 (ix2 (0 : Fin 1) q) = L (C q))
    (hR : R.val = (i 0).val * 512 + p.val) (hC : ∀ q, (C q).val = (i 1).val * 512 + q.val) :
    stepPosCnt i l2 l3 s (ix2 p (0 : Fin 1)) = s (ix2 p (0 : Fin 1)) + ∑ q : Fin 512, Cert.Spec.pm L R (C q) := by
  unfold stepPosCnt
  rw [PayIdx.pay14_apply]
  refine congrArg (s (ix2 p (0 : Fin 1)) + ·) (Finset.sum_congr rfl fun q _ => ?_)
  exact posMask_eq i l2 l3 p q L R (C q) hl2 (hl3 q) hR (hC q)

/-- The negative count after a column tile. -/
theorem stepNegCnt_apply (hl2 : l2 (ix2 p (0 : Fin 1)) = L R) (hl3 : ∀ q, l3 (ix2 (0 : Fin 1) q) = L (C q)) :
    stepNegCnt l2 l3 s (ix2 p (0 : Fin 1)) = s (ix2 p (0 : Fin 1)) + ∑ q : Fin 512, Cert.Spec.nm L R (C q) := by
  unfold stepNegCnt
  rw [PayIdx.pay15_apply]
  refine congrArg (s (ix2 p (0 : Fin 1)) + ·) (Finset.sum_congr rfl fun q _ => ?_)
  exact negMask_eq l2 l3 p q L R (C q) hl2 (hl3 q)

end AnyTiles

/-! ## The four steps at a grid point -/

section AtPoint
variable (m : (ℓ : Loc nD τ sig) → Buf (Elt Ideal) ℓ) (c : Dev nD)
  (X : Fin 8192 → Fin 512 → EReal) (L : Fin 8192 → BitVec 32)
  (hE : ∀ r k, (V m c main_v5 : S8192x512.Idx → Elt Ideal .bf16) (ix2 r k) = Cert.Spec.e X r k)
  (hL6 : ∀ r (z : Fin 1), (V m c main_v6 : S8192x1.Idx → Elt Ideal .i32) (ix2 r z) = L r)
  (hL7 : ∀ (z : Fin 1) r, (V m c main_v7 : S1x8192.Idx → Elt Ideal .i32) (ix2 z r) = L r)
  (t : Fin cfg0.N) (p : Fin 512) (s : Vec Ideal S512x1 .f32) (R : Fin 8192) (C : Fin 512 → Fin 8192)
  (hR : R.val = t.val / 16 * 512 + p.val) (hC : ∀ q, (C q).val = t.val % 16 * 512 + q.val)

include hE hR in
/-- Row `p` of the row tile at point `t` is row `R` of `e X`. -/
theorem rowTile_eq (k : Fin 512) : (iblk m c 0 t : Vec Ideal S512x512 .bf16) (ix2 p k) = Cert.Spec.e X R k := by
  rw [iblk0_apply m c t p k, show (⟨t.val / 16 * 512 + p.val, row_lt t p⟩ : Fin 8192) = R from Fin.ext hR.symm, hE]

include hE hC in
/-- Row `q` of the column tile at point `t` is row `C q` of `e X`. -/
theorem colTile_eq (q k : Fin 512) : (iblk m c 1 t : Vec Ideal S512x512 .bf16) (ix2 q k) = Cert.Spec.e X (C q) k := by
  rw [iblk1_apply m c t q k, show (⟨t.val % 16 * 512 + q.val, col_lt t q⟩ : Fin 8192) = C q from Fin.ext (hC q).symm, hE]

include hL6 hR in
/-- The row tile's label at position `p` is `L R`. -/
theorem rowLabel_eq : (iblk m c 2 t : Vec Ideal S512x1 .i32) (ix2 p (0 : Fin 1)) = L R := by
  rw [iblk2_apply m c t p 0, show (⟨t.val / 16 * 512 + p.val, row_lt t p⟩ : Fin 8192) = R from Fin.ext hR.symm, hL6]

include hL7 hC in
/-- The column tile's label at position `q` is `L (C q)`. -/
theorem colLabel_eq (q : Fin 512) : (iblk m c 3 t : Vec Ideal S1x512 .i32) (ix2 (0 : Fin 1) q) = L (C q) := by
  rw [iblk3_apply m c t 0 q, show (⟨t.val % 16 * 512 + q.val, col_lt t q⟩ : Fin 8192) = C q from Fin.ext (hC q).symm, hL7]

include hR in
/-- `R` is the row number the tile forms from the grid coordinates. -/
theorem rowNumber_eq : R.val = ((grid0.coords t) 0).val * 512 + p.val := by rw [(coords_eq t).1]; exact hR

include hC in
/-- `C q` is the column number the tile forms from the grid coordinates. -/
theorem colNumber_eq (q : Fin 512) : (C q).val = ((grid0.coords t) 1).val * 512 + q.val := by rw [(coords_eq t).2]; exact hC q

include hE hL6 hL7 hR hC in
/-- The positive mass after point `t`, from the column `s` before it. -/
theorem stepPosSum_at :
    stepPosSum (grid0.coords t) (iblk m c 0 t) (iblk m c 1 t) (iblk m c 2 t) (iblk m c 3 t) s (ix2 p (0 : Fin 1))
      = s (ix2 p (0 : Fin 1)) + ∑ q : Fin 512, Cert.Spec.E X R (C q) * Cert.Spec.pm L R (C q) :=
  stepPosSum_apply (grid0.coords t) (iblk m c 0 t) (iblk m c 1 t) (iblk m c 2 t) (iblk m c 3 t) s p X L R C
    (rowTile_eq m c X hE t p R hR) (colTile_eq m c X hE t C hC) (rowLabel_eq m c L hL6 t p R hR) (colLabel_eq m c L hL7 t C hC)
    (rowNumber_eq t p R hR) (colNumber_eq t C hC)

include hE hL6 hL7 hR hC in
/-- The negative mass after point `t`. -/
theorem stepNegSum_at :
    stepNegSum (iblk m c 0 t) (iblk m c 1 t) (iblk m c 2 t) (iblk m c 3 t) s (ix2 p (0 : Fin 1))
      = s (ix2 p (0 : Fin 1)) + ∑ q : Fin 512, Cert.Spec.E X R (C q) * Cert.Spec.nm L R (C q) :=
  stepNegSum_apply (iblk m c 0 t) (iblk m c 1 t) (iblk m c 2 t) (iblk m c 3 t) s p X L R C
    (rowTile_eq m c X hE t p R hR) (colTile_eq m c X hE t C hC) (rowLabel_eq m c L hL6 t p R hR) (colLabel_eq m c L hL7 t C hC)

include hL6 hL7 hR hC in
/-- The positive count after point `t`. -/
theorem stepPosCnt_at :
    stepPosCnt (grid0.coords t) (iblk m c 2 t) (iblk m c 3 t) s (ix2 p (0 : Fin 1))
      = s (ix2 p (0 : Fin 1)) + ∑ q : Fin 512, Cert.Spec.pm L R (C q) :=
  stepPosCnt_apply (grid0.coords t) (iblk m c 2 t) (iblk m c 3 t) s p L R C
    (rowLabel_eq m c L hL6 t p R hR) (colLabel_eq m c L hL7 t C hC) (rowNumber_eq t p R hR) (colNumber_eq t C hC)

include hL6 hL7 hR hC in
/-- The negative count after point `t`. -/
theorem stepNegCnt_at :
    stepNegCnt (iblk m c 2 t) (iblk m c 3 t) s (ix2 p (0 : Fin 1))
      = s (ix2 p (0 : Fin 1)) + ∑ q : Fin 512, Cert.Spec.nm L R (C q) :=
  stepNegCnt_apply (iblk m c 2 t) (iblk m c 3 t) s p L R C
    (rowLabel_eq m c L hL6 t p R hR) (colLabel_eq m c L hL7 t C hC)

end AtPoint

end Cert.KernelIdeal.Frame

end
-- ==== Proof.KernelIdeal.Pieces.lean ====
/-
  What each case's run stored, read back as the kernel's own arithmetic: the first column tile leaves each scratch
  column at the tile's contribution on the zeros just stored; every later tile at the contribution on top of what was
  there; the last tile also leaves the output window at the loss of the four completed totals. Each store covers its
  whole column, so a column's contents are its last store's value, the loads inside it reading whole buffers.
-/
import proofs.«171001_j17884243820948_1_alg».proof.Proof.KernelIdeal.Frame
import proofs.«171001_j17884243820948_1_alg».proof.Proof.KernelIdeal.Steps
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## Each case's stores cover the column they go to (on any memrefs) -/

theorem gcoverF0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .bf16) (x2 : Vec F S512x1 .i32) (x3 : Vec F S1x512 .i32) (y : S512x1.Idx) :
    ∃ pc ∈ (runFirst (F := F) c i arg2 harg2 arg3 harg3 arg4 harg4 arg5 harg5 arg6 harg6 arg7 harg7 arg8 harg8 arg9 harg9 arg10 harg10 hc0 hc1 x0 x1 x2 x3).1, y ∈ pc.1.set :=
  View.cover_of_tiledL _ S512x1.size (by sl_kernel_rfl) y
theorem gcoverF1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .bf16) (x2 : Vec F S512x1 .i32) (x3 : Vec F S1x512 .i32) (y : S512x1.Idx) :
    ∃ pc ∈ (runFirst (F := F) c i arg2 harg2 arg3 harg3 arg4 harg4 arg5 harg5 arg6 harg6 arg7 harg7 arg8 harg8 arg9 harg9 arg10 harg10 hc0 hc1 x0 x1 x2 x3).2.1, y ∈ pc.1.set :=
  View.cover_of_tiledL _ S512x1.size (by sl_kernel_rfl) y
theorem gcoverF2 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .bf16) (x2 : Vec F S512x1 .i32) (x3 : Vec F S1x512 .i32) (y : S512x1.Idx) :
    ∃ pc ∈ (runFirst (F := F) c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL _ S512x1.size (by sl_kernel_rfl) y
theorem gcoverF3 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .bf16) (x2 : Vec F S512x1 .i32) (x3 : Vec F S1x512 .i32) (y : S512x1.Idx) :
    ∃ pc ∈ (runFirst (F := F) c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL _ S512x1.size (by sl_kernel_rfl) y
theorem gcoverM0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .bf16) (x2 : Vec F S512x1 .i32) (x3 : Vec F S1x512 .i32) (s0 s1 s2 s3 : Vec F S512x1 .f32) (y : S512x1.Idx) :
    ∃ pc ∈ (runMid (F := F) c i arg2 harg2 arg3 harg3 arg4 harg4 arg5 harg5 arg6 harg6 arg7 harg7 arg8 harg8 arg9 harg9 arg10 harg10 hc0 hc1 x0 x1 x2 x3 s0 s1 s2 s3).1, y ∈ pc.1.set :=
  View.cover_of_tiledL _ S512x1.size (by sl_kernel_rfl) y
theorem gcoverM1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .bf16) (x2 : Vec F S512x1 .i32) (x3 : Vec F S1x512 .i32) (s0 s1 s2 s3 : Vec F S512x1 .f32) (y : S512x1.Idx) :
    ∃ pc ∈ (runMid (F := F) c i arg2 harg2 arg3 harg3 arg4 harg4 arg5 harg5 arg6 harg6 arg7 harg7 arg8 harg8 arg9 harg9 arg10 harg10 hc0 hc1 x0 x1 x2 x3 s0 s1 s2 s3).2.1, y ∈ pc.1.set :=
  View.cover_of_tiledL _ S512x1.size (by sl_kernel_rfl) y
theorem gcoverM2 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .bf16) (x2 : Vec F S512x1 .i32) (x3 : Vec F S1x512 .i32) (s0 s1 s2 s3 : Vec F S512x1 .f32) (y : S512x1.Idx) :
    ∃ pc ∈ (runMid (F := F) c i arg2 harg2 arg3 harg3 arg4 harg4 arg5 harg5 arg6 harg6 arg7 harg7 arg8 harg8 arg9 harg9 arg10 harg10 hc0 hc1 x0 x1 x2 x3 s0 s1 s2 s3).2.2.1, y ∈ pc.1.set :=
  View.cover_of_tiledL _ S512x1.size (by sl_kernel_rfl) y
theorem gcoverM3 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .bf16) (x2 : Vec F S512x1 .i32) (x3 : Vec F S1x512 .i32) (s0 s1 s2 s3 : Vec F S512x1 .f32) (y : S512x1.Idx) :
    ∃ pc ∈ (runMid (F := F) c i arg2 harg2 arg3 harg3 arg4 harg4 arg5 harg5 arg6 harg6 arg7 harg7 arg8 harg8 arg9 harg9 arg10 harg10 hc0 hc1 x0 x1 x2 x3 s0 s1 s2 s3).2.2.2.1, y ∈ pc.1.set :=
  View.cover_of_tiledL _ S512x1.size (by sl_kernel_rfl) y
theorem gcoverLO (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .bf16) (x2 : Vec F S512x1 .i32) (x3 : Vec F S1x512 .i32) (s0 s1 s2 s3 : Vec F S512x1 .f32) (y : S512x1.Idx) :
    ∃ pc ∈ (runLast (F := F) c i arg2 harg2 arg3 harg3 arg4 harg4 arg5 harg5 arg6 harg6 arg7 harg7 arg8 harg8 arg9 harg9 arg10 harg10 hc0 hc1 x0 x1 x2 x3 s0 s1 s2 s3).1, y ∈ pc.1.set :=
  View.cover_of_tiledL _ S512x1.size (by sl_kernel_rfl) y
theorem gcoverL0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .bf16) (x2 : Vec F S512x1 .i32) (x3 : Vec F S1x512 .i32) (s0 s1 s2 s3 : Vec F S512x1 .f32) (y : S512x1.Idx) :
    ∃ pc ∈ (runLast (F := F) c i arg2 harg2 arg3 harg3 arg4 harg4 arg5 harg5 arg6 harg6 arg7 harg7 arg8 harg8 arg9 harg9 arg10 harg10 hc0 hc1 x0 x1 x2 x3 s0 s1 s2 s3).2.1, y ∈ pc.1.set :=
  View.cover_of_tiledL _ S512x1.size (by sl_kernel_rfl) y
theorem gcoverL1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .bf16) (x2 : Vec F S512x1 .i32) (x3 : Vec F S1x512 .i32) (s0 s1 s2 s3 : Vec F S512x1 .f32) (y : S512x1.Idx) :
    ∃ pc ∈ (runLast (F := F) c i arg2 harg2 arg3 harg3 arg4 harg4 arg5 harg5 arg6 harg6 arg7 harg7 arg8 harg8 arg9 harg9 arg10 harg10 hc0 hc1 x0 x1 x2 x3 s0 s1 s2 s3).2.2.1, y ∈ pc.1.set :=
  View.cover_of_tiledL _ S512x1.size (by sl_kernel_rfl) y
theorem gcoverL2 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .bf16) (x2 : Vec F S512x1 .i32) (x3 : Vec F S1x512 .i32) (s0 s1 s2 s3 : Vec F S512x1 .f32) (y : S512x1.Idx) :
    ∃ pc ∈ (runLast (F := F) c i arg2 harg2 arg3 harg3 arg4 harg4 arg5 harg5 arg6 harg6 arg7 harg7 arg8 harg8 arg9 harg9 arg10 harg10 hc0 hc1 x0 x1 x2 x3 s0 s1 s2 s3).2.2.2.1, y ∈ pc.1.set :=
  View.cover_of_tiledL _ S512x1.size (by sl_kernel_rfl) y
theorem gcoverL3 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .bf16) (x2 : Vec F S512x1 .i32) (x3 : Vec F S1x512 .i32) (s0 s1 s2 s3 : Vec F S512x1 .f32) (y : S512x1.Idx) :
    ∃ pc ∈ (runLast (F := F) c i arg2 harg2 arg3 harg3 arg4 harg4 arg5 harg5 arg6 harg6 arg7 harg7 arg8 harg8 arg9 harg9 arg10 harg10 hc0 hc1 x0 x1 x2 x3 s0 s1 s2 s3).2.2.2.2.1, y ∈ pc.1.set :=
  View.cover_of_tiledL _ S512x1.size (by sl_kernel_rfl) y

/-! ## The first column tile: reset, then the tile's row sums -/

theorem first_s0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .bf16) (x2 : Vec F S512x1 .i32) (x3 : Vec F S1x512 .i32) :
    VS0.read (Elt F) (VS0.writes (Elt F) VS0.junk (runFirst (F := F) c i arg2 harg2 arg3 harg3 arg4 harg4 arg5 harg5 arg6 harg6 arg7 harg7 arg8 harg8 arg9 harg9 arg10 harg10 hc0 hc1 x0 x1 x2 x3).1) = stepPosSum i x0 x1 x2 x3 (k0_pay2 (F := F)) := by
  rw [View.read_writes_eq_canon _ _ _ (gcoverF0 c i arg2 harg2 arg3 harg3 arg4 harg4 arg5 harg5 arg6 harg6 arg7 harg7 arg8 harg8 arg9 harg9 arg10 harg10 hc0 hc1 x0 x1 x2 x3)]
  unfold runFirst
  dsimp only
  sl_unfold_words
  rw [View.canon_cons_unit_zero (S := S512x1) hz, View.readCov_unit_zero (S := S512x1) _ hz]
  unfold stepPosSum
  simp only [View.readAt_eq_ld, harg2.read_unread, harg3.read_unread, harg4.read_unread, harg5.read_unread, harg7.read_unread, harg8.read_unread, harg9.read_unread, harg10.read_unread,
    View.ld_unit_zero (S := S512x512) hz, View.ld_unit_zero (S := S512x1) hz, View.ld_unit_zero (S := S1x512) hz]

theorem first_s1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .bf16) (x2 : Vec F S512x1 .i32) (x3 : Vec F S1x512 .i32) :
    VS1.read (Elt F) (VS1.writes (Elt F) VS1.junk (runFirst (F := F) c i arg2 harg2 arg3 harg3 arg4 harg4 arg5 harg5 arg6 harg6 arg7 harg7 arg8 harg8 arg9 harg9 arg10 harg10 hc0 hc1 x0 x1 x2 x3).2.1) = stepNegSum x0 x1 x2 x3 (k0_pay3 (F := F)) := by
  rw [View.read_writes_eq_canon _ _ _ (gcoverF1 c i arg2 harg2 arg3 harg3 arg4 harg4 arg5 harg5 arg6 harg6 arg7 harg7 arg8 harg8 arg9 harg9 arg10 harg10 hc0 hc1 x0 x1 x2 x3)]
  unfold runFirst
  dsimp only
  sl_unfold_words
  rw [View.canon_cons_unit_zero (S := S512x1) hz, View.readCov_unit_zero (S := S512x1) _ hz]
  unfold stepNegSum
  simp only [View.readAt_eq_ld, harg2.read_unread, harg3.read_unread, harg4.read_unread, harg5.read_unread, harg7.read_unread, harg8.read_unread, harg9.read_unread, harg10.read_unread,
    View.ld_unit_zero (S := S512x512) hz, View.ld_unit_zero (S := S512x1) hz, View.ld_unit_zero (S := S1x512) hz]

theorem first_s2 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .bf16) (x2 : Vec F S512x1 .i32) (x3 : Vec F S1x512 .i32) :
    VS2.read (Elt F) (VS2.writes (Elt F) VS2.junk (runFirst (F := F) c i arg2 harg2 arg3 harg3 arg4 harg4 arg5 harg5 arg6 harg6 arg7 harg7 arg8 harg8 arg9 harg9 arg10 harg10 hc0 hc1 x0 x1 x2 x3).2.2.1) = stepPosCnt i x2 x3 (k0_pay4 (F := F)) := by
  rw [View.read_writes_eq_canon _ _ _ (gcoverF2 c i arg2 harg2 arg3 harg3 arg4 harg4 arg5 harg5 arg6 harg6 arg7 harg7 arg8 harg8 arg9 harg9 arg10 harg10 hc0 hc1 x0 x1 x2 x3)]
  unfold runFirst
  dsimp only
  sl_unfold_words
  rw [View.canon_cons_unit_zero (S := S512x1) hz, View.readCov_unit_zero (S := S512x1) _ hz]
  unfold stepPosCnt
  simp only [View.readAt_eq_ld, harg2.read_unread, harg3.read_unread, harg4.read_unread, harg5.read_unread, harg7.read_unread, harg8.read_unread, harg9.read_unread, harg10.read_unread,
    View.ld_unit_zero (S := S512x512) hz, View.ld_unit_zero (S := S512x1) hz, View.ld_unit_zero (S := S1x512) hz]

theorem first_s3 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 x1 : Vec F S512x512 .bf16) (x2 : Vec F S512x1 .i32) (x3 : Vec F S1x512 .i32) :
    VS3.read (Elt F) (VS3.writes (Elt F) VS3.junk (runFirst (F := F) c i arg2 harg2 arg3 harg3 arg4 harg4 arg5 harg5 arg6 harg6 arg7 harg7 arg8 harg8 arg9 harg9 arg10 harg10 hc0 hc1 x0 x1 x2 x3).2.2.2.1) = stepNegCnt x2 x3 (k0_pay5 (F := F)) := by
  rw [View.read_writes_eq_canon _ _ _ (gcoverF3 c i arg2 harg2 arg3 harg3 arg4 harg4 arg5 harg5 arg6 harg6 arg7 harg7 arg8 harg8 arg9 harg9 arg10 harg10 hc0 hc1 x0 x1 x2 x3)]
  unfold runFirst
  dsimp only
  sl_unfold_words
  rw [View.canon_cons_unit_zero (S := S512x1) hz, View.readCov_unit_zero (S := S512x1) _ hz]
  unfold stepNegCnt
  simp only [View.readAt_eq_ld, harg2.read_unread, harg3.read_unread, harg4.read_unread, harg5.read_unread, harg7.read_unread, harg8.read_unread, harg9.read_unread, harg10.read_unread,
    View.ld_unit_zero (S := S512x512) hz, View.ld_unit_zero (S := S512x1) hz, View.ld_unit_zero (S := S1x512) hz]

/-! ## A middle column tile: the tile's row sums on top of what was there -/

theorem mid_s0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .bf16) (x2 : Vec F S512x1 .i32) (x3 : Vec F S1x512 .i32) (s0 s1 s2 s3 : Vec F S512x1 .f32) :
    VS0.read (Elt F) (VS0.writes (Elt F) VS0.junk (runMid (F := F) c i arg2 harg2 arg3 harg3 arg4 harg4 arg5 harg5 arg6 harg6 arg7 harg7 arg8 harg8 arg9 harg9 arg10 harg10 hc0 hc1 x0 x1 x2 x3 s0 s1 s2 s3).1) = stepPosSum i x0 x1 x2 x3 s0 := by
  rw [View.read_writes_eq_canon _ _ _ (gcoverM0 c i arg2 harg2 arg3 harg3 arg4 harg4 arg5 harg5 arg6 harg6 arg7 harg7 arg8 harg8 arg9 harg9 arg10 harg10 hc0 hc1 x0 x1 x2 x3 s0 s1 s2 s3)]
  unfold runMid
  dsimp only
  sl_unfold_words
  rw [View.canon_unit_zero hz]
  unfold stepPosSum
  simp only [View.readAt_eq_ld, harg2.read_unread, harg3.read_unread, harg4.read_unread, harg5.read_unread, harg7.read_unread, harg8.read_unread, harg9.read_unread, harg10.read_unread,
    View.ld_unit_zero (S := S512x512) hz, View.ld_unit_zero (S := S512x1) hz, View.ld_unit_zero (S := S1x512) hz]

theorem mid_s1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .bf16) (x2 : Vec F S512x1 .i32) (x3 : Vec F S1x512 .i32) (s0 s1 s2 s3 : Vec F S512x1 .f32) :
    VS1.read (Elt F) (VS1.writes (Elt F) VS1.junk (runMid (F := F) c i arg2 harg2 arg3 harg3 arg4 harg4 arg5 harg5 arg6 harg6 arg7 harg7 arg8 harg8 arg9 harg9 arg10 harg10 hc0 hc1 x0 x1 x2 x3 s0 s1 s2 s3).2.1) = stepNegSum x0 x1 x2 x3 s1 := by
  rw [View.read_writes_eq_canon _ _ _ (gcoverM1 c i arg2 harg2 arg3 harg3 arg4 harg4 arg5 harg5 arg6 harg6 arg7 harg7 arg8 harg8 arg9 harg9 arg10 harg10 hc0 hc1 x0 x1 x2 x3 s0 s1 s2 s3)]
  unfold runMid
  dsimp only
  sl_unfold_words
  rw [View.canon_unit_zero hz]
  unfold stepNegSum
  simp only [View.readAt_eq_ld, harg2.read_unread, harg3.read_unread, harg4.read_unread, harg5.read_unread, harg7.read_unread, harg8.read_unread, harg9.read_unread, harg10.read_unread,
    View.ld_unit_zero (S := S512x512) hz, View.ld_unit_zero (S := S512x1) hz, View.ld_unit_zero (S := S1x512) hz]

theorem mid_s2 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .bf16) (x2 : Vec F S512x1 .i32) (x3 : Vec F S1x512 .i32) (s0 s1 s2 s3 : Vec F S512x1 .f32) :
    VS2.read (Elt F) (VS2.writes (Elt F) VS2.junk (runMid (F := F) c i arg2 harg2 arg3 harg3 arg4 harg4 arg5 harg5 arg6 harg6 arg7 harg7 arg8 harg8 arg9 harg9 arg10 harg10 hc0 hc1 x0 x1 x2 x3 s0 s1 s2 s3).2.2.1) = stepPosCnt i x2 x3 s2 := by
  rw [View.read_writes_eq_canon _ _ _ (gcoverM2 c i arg2 harg2 arg3 harg3 arg4 harg4 arg5 harg5 arg6 harg6 arg7 harg7 arg8 harg8 arg9 harg9 arg10 harg10 hc0 hc1 x0 x1 x2 x3 s0 s1 s2 s3)]
  unfold runMid
  dsimp only
  sl_unfold_words
  rw [View.canon_unit_zero hz]
  unfold stepPosCnt
  simp only [View.readAt_eq_ld, harg2.read_unread, harg3.read_unread, harg4.read_unread, harg5.read_unread, harg7.read_unread, harg8.read_unread, harg9.read_unread, harg10.read_unread,
    View.ld_unit_zero (S := S512x512) hz, View.ld_unit_zero (S := S512x1) hz, View.ld_unit_zero (S := S1x512) hz]

theorem mid_s3 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 x1 : Vec F S512x512 .bf16) (x2 : Vec F S512x1 .i32) (x3 : Vec F S1x512 .i32) (s0 s1 s2 s3 : Vec F S512x1 .f32) :
    VS3.read (Elt F) (VS3.writes (Elt F) VS3.junk (runMid (F := F) c i arg2 harg2 arg3 harg3 arg4 harg4 arg5 harg5 arg6 harg6 arg7 harg7 arg8 harg8 arg9 harg9 arg10 harg10 hc0 hc1 x0 x1 x2 x3 s0 s1 s2 s3).2.2.2.1) = stepNegCnt x2 x3 s3 := by
  rw [View.read_writes_eq_canon _ _ _ (gcoverM3 c i arg2 harg2 arg3 harg3 arg4 harg4 arg5 harg5 arg6 harg6 arg7 harg7 arg8 harg8 arg9 harg9 arg10 harg10 hc0 hc1 x0 x1 x2 x3 s0 s1 s2 s3)]
  unfold runMid
  dsimp only
  sl_unfold_words
  rw [View.canon_unit_zero hz]
  unfold stepNegCnt
  simp only [View.readAt_eq_ld, harg2.read_unread, harg3.read_unread, harg4.read_unread, harg5.read_unread, harg7.read_unread, harg8.read_unread, harg9.read_unread, harg10.read_unread,
    View.ld_unit_zero (S := S512x512) hz, View.ld_unit_zero (S := S512x1) hz, View.ld_unit_zero (S := S1x512) hz]

/-! ## The last column tile: the same, and the row tile's loss from the totals -/

theorem last_s0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .bf16) (x2 : Vec F S512x1 .i32) (x3 : Vec F S1x512 .i32) (s0 s1 s2 s3 : Vec F S512x1 .f32) :
    VS0.read (Elt F) (VS0.writes (Elt F) VS0.junk (runLast (F := F) c i arg2 harg2 arg3 harg3 arg4 harg4 arg5 harg5 arg6 harg6 arg7 harg7 arg8 harg8 arg9 harg9 arg10 harg10 hc0 hc1 x0 x1 x2 x3 s0 s1 s2 s3).2.1) = stepPosSum i x0 x1 x2 x3 s0 := by
  rw [View.read_writes_eq_canon _ _ _ (gcoverL0 c i arg2 harg2 arg3 harg3 arg4 harg4 arg5 harg5 arg6 harg6 arg7 harg7 arg8 harg8 arg9 harg9 arg10 harg10 hc0 hc1 x0 x1 x2 x3 s0 s1 s2 s3)]
  unfold runLast
  dsimp only
  sl_unfold_words
  rw [View.canon_unit_zero hz]
  unfold stepPosSum
  simp only [View.readAt_eq_ld, harg2.read_unread, harg3.read_unread, harg4.read_unread, harg5.read_unread, harg7.read_unread, harg8.read_unread, harg9.read_unread, harg10.read_unread,
    View.ld_unit_zero (S := S512x512) hz, View.ld_unit_zero (S := S512x1) hz, View.ld_unit_zero (S := S1x512) hz]

theorem last_s1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .bf16) (x2 : Vec F S512x1 .i32) (x3 : Vec F S1x512 .i32) (s0 s1 s2 s3 : Vec F S512x1 .f32) :
    VS1.read (Elt F) (VS1.writes (Elt F) VS1.junk (runLast (F := F) c i arg2 harg2 arg3 harg3 arg4 harg4 arg5 harg5 arg6 harg6 arg7 harg7 arg8 harg8 arg9 harg9 arg10 harg10 hc0 hc1 x0 x1 x2 x3 s0 s1 s2 s3).2.2.1) = stepNegSum x0 x1 x2 x3 s1 := by
  rw [View.read_writes_eq_canon _ _ _ (gcoverL1 c i arg2 harg2 arg3 harg3 arg4 harg4 arg5 harg5 arg6 harg6 arg7 harg7 arg8 harg8 arg9 harg9 arg10 harg10 hc0 hc1 x0 x1 x2 x3 s0 s1 s2 s3)]
  unfold runLast
  dsimp only
  sl_unfold_words
  rw [View.canon_unit_zero hz]
  unfold stepNegSum
  simp only [View.readAt_eq_ld, harg2.read_unread, harg3.read_unread, harg4.read_unread, harg5.read_unread, harg7.read_unread, harg8.read_unread, harg9.read_unread, harg10.read_unread,
    View.ld_unit_zero (S := S512x512) hz, View.ld_unit_zero (S := S512x1) hz, View.ld_unit_zero (S := S1x512) hz]

theorem last_s2 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .bf16) (x2 : Vec F S512x1 .i32) (x3 : Vec F S1x512 .i32) (s0 s1 s2 s3 : Vec F S512x1 .f32) :
    VS2.read (Elt F) (VS2.writes (Elt F) VS2.junk (runLast (F := F) c i arg2 harg2 arg3 harg3 arg4 harg4 arg5 harg5 arg6 harg6 arg7 harg7 arg8 harg8 arg9 harg9 arg10 harg10 hc0 hc1 x0 x1 x2 x3 s0 s1 s2 s3).2.2.2.1) = stepPosCnt i x2 x3 s2 := by
  rw [View.read_writes_eq_canon _ _ _ (gcoverL2 c i arg2 harg2 arg3 harg3 arg4 harg4 arg5 harg5 arg6 harg6 arg7 harg7 arg8 harg8 arg9 harg9 arg10 harg10 hc0 hc1 x0 x1 x2 x3 s0 s1 s2 s3)]
  unfold runLast
  dsimp only
  sl_unfold_words
  rw [View.canon_unit_zero hz]
  unfold stepPosCnt
  simp only [View.readAt_eq_ld, harg2.read_unread, harg3.read_unread, harg4.read_unread, harg5.read_unread, harg7.read_unread, harg8.read_unread, harg9.read_unread, harg10.read_unread,
    View.ld_unit_zero (S := S512x512) hz, View.ld_unit_zero (S := S512x1) hz, View.ld_unit_zero (S := S1x512) hz]

theorem last_s3 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .bf16) (x2 : Vec F S512x1 .i32) (x3 : Vec F S1x512 .i32) (s0 s1 s2 s3 : Vec F S512x1 .f32) :
    VS3.read (Elt F) (VS3.writes (Elt F) VS3.junk (runLast (F := F) c i arg2 harg2 arg3 harg3 arg4 harg4 arg5 harg5 arg6 harg6 arg7 harg7 arg8 harg8 arg9 harg9 arg10 harg10 hc0 hc1 x0 x1 x2 x3 s0 s1 s2 s3).2.2.2.2.1) = stepNegCnt x2 x3 s3 := by
  rw [View.read_writes_eq_canon _ _ _ (gcoverL3 c i arg2 harg2 arg3 harg3 arg4 harg4 arg5 harg5 arg6 harg6 arg7 harg7 arg8 harg8 arg9 harg9 arg10 harg10 hc0 hc1 x0 x1 x2 x3 s0 s1 s2 s3)]
  unfold runLast
  dsimp only
  sl_unfold_words
  rw [View.canon_unit_zero hz]
  unfold stepNegCnt
  simp only [View.readAt_eq_ld, harg2.read_unread, harg3.read_unread, harg4.read_unread, harg5.read_unread, harg7.read_unread, harg8.read_unread, harg9.read_unread, harg10.read_unread,
    View.ld_unit_zero (S := S512x512) hz, View.ld_unit_zero (S := S512x1) hz, View.ld_unit_zero (S := S1x512) hz]

theorem last_out (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 x1 : Vec F S512x512 .bf16) (x2 : Vec F S512x1 .i32) (x3 : Vec F S1x512 .i32) (s0 s1 s2 s3 : Vec F S512x1 .f32) :
    VO.read (Elt F) (VO.writes (Elt F) VO.junk (runLast (F := F) c i arg2 harg2 arg3 harg3 arg4 harg4 arg5 harg5 arg6 harg6 arg7 harg7 arg8 harg8 arg9 harg9 arg10 harg10 hc0 hc1 x0 x1 x2 x3 s0 s1 s2 s3).1)
      = lossOf (stepPosSum i x0 x1 x2 x3 s0) (stepNegSum x0 x1 x2 x3 s1) (stepPosCnt i x2 x3 s2) (stepNegCnt x2 x3 s3) := by
  rw [View.read_writes_eq_canon _ _ _ (gcoverLO c i arg2 harg2 arg3 harg3 arg4 harg4 arg5 harg5 arg6 harg6 arg7 harg7 arg8 harg8 arg9 harg9 arg10 harg10 hc0 hc1 x0 x1 x2 x3 s0 s1 s2 s3)]
  unfold runLast
  dsimp only
  sl_unfold_words
  rw [View.canon_unit_zero hz]
  simp only [View.readCov_unit_zero (S := S512x1) _ hz]
  unfold lossOf stepPosSum stepNegSum stepPosCnt stepNegCnt
  simp only [View.readAt_eq_ld, harg2.read_unread, harg3.read_unread, harg4.read_unread, harg5.read_unread, harg7.read_unread, harg8.read_unread, harg9.read_unread, harg10.read_unread,
    View.ld_unit_zero (S := S512x512) hz, View.ld_unit_zero (S := S512x1) hz, View.ld_unit_zero (S := S1x512) hz]

/-! ## The accumulation in the steps' terms -/

variable (m : (ℓ : Loc nD τ sig) → Buf (Elt F) ℓ)

/-- After a first column tile the scratch columns hold the tile's contribution alone (on the stored zeros). -/
theorem accAt_first_eq (c : Dev nD) (t : Fin cfg0.N) (h0 : t.val % 16 = 0) (h1 : ¬t.val % 16 = 15) :
    (accAt m c t.val t.isLt).s0 = stepPosSum (grid0.coords t) (iblk m c 0 t) (iblk m c 1 t) (iblk m c 2 t) (iblk m c 3 t) (k0_pay2 (F := F))
    ∧ (accAt m c t.val t.isLt).s1 = stepNegSum (iblk m c 0 t) (iblk m c 1 t) (iblk m c 2 t) (iblk m c 3 t) (k0_pay3 (F := F))
    ∧ (accAt m c t.val t.isLt).s2 = stepPosCnt (grid0.coords t) (iblk m c 2 t) (iblk m c 3 t) (k0_pay4 (F := F))
    ∧ (accAt m c t.val t.isLt).s3 = stepNegCnt (iblk m c 2 t) (iblk m c 3 t) (k0_pay5 (F := F)) := by
  rw [accAt_first m c t h0 h1]
  unfold accFirst; dsimp only
  refine ⟨?_, ?_, ?_, ?_⟩
  · exact first_s0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t)
  · exact first_s1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t)
  · exact first_s2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t)
  · exact first_s3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t)

/-- After any later column tile they hold the tile's contribution on top of what the point before left. -/
theorem accAt_next_eq (c : Dev nD) (t : Fin cfg0.N) (h0 : ¬t.val % 16 = 0) :
    (accAt m c t.val t.isLt).s0 = stepPosSum (grid0.coords t) (iblk m c 0 t) (iblk m c 1 t) (iblk m c 2 t) (iblk m c 3 t) (accAt m c (t.val - 1) (Nat.lt_of_le_of_lt (Nat.sub_le _ _) t.isLt)).s0
    ∧ (accAt m c t.val t.isLt).s1 = stepNegSum (iblk m c 0 t) (iblk m c 1 t) (iblk m c 2 t) (iblk m c 3 t) (accAt m c (t.val - 1) (Nat.lt_of_le_of_lt (Nat.sub_le _ _) t.isLt)).s1
    ∧ (accAt m c t.val t.isLt).s2 = stepPosCnt (grid0.coords t) (iblk m c 2 t) (iblk m c 3 t) (accAt m c (t.val - 1) (Nat.lt_of_le_of_lt (Nat.sub_le _ _) t.isLt)).s2
    ∧ (accAt m c t.val t.isLt).s3 = stepNegCnt (iblk m c 2 t) (iblk m c 3 t) (accAt m c (t.val - 1) (Nat.lt_of_le_of_lt (Nat.sub_le _ _) t.isLt)).s3 := by
  by_cases h1 : t.val % 16 = 15
  · rw [accAt_last m c t h0 h1]
    unfold accLast; dsimp only
    refine ⟨?_, ?_, ?_, ?_⟩
    · exact last_s0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (accAt m c (t.val - 1) (Nat.lt_of_le_of_lt (Nat.sub_le _ _) t.isLt)).s0 (accAt m c (t.val - 1) (Nat.lt_of_le_of_lt (Nat.sub_le _ _) t.isLt)).s1 (accAt m c (t.val - 1) (Nat.lt_of_le_of_lt (Nat.sub_le _ _) t.isLt)).s2 (accAt m c (t.val - 1) (Nat.lt_of_le_of_lt (Nat.sub_le _ _) t.isLt)).s3
    · exact last_s1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (accAt m c (t.val - 1) (Nat.lt_of_le_of_lt (Nat.sub_le _ _) t.isLt)).s0 (accAt m c (t.val - 1) (Nat.lt_of_le_of_lt (Nat.sub_le _ _) t.isLt)).s1 (accAt m c (t.val - 1) (Nat.lt_of_le_of_lt (Nat.sub_le _ _) t.isLt)).s2 (accAt m c (t.val - 1) (Nat.lt_of_le_of_lt (Nat.sub_le _ _) t.isLt)).s3
    · exact last_s2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (accAt m c (t.val - 1) (Nat.lt_of_le_of_lt (Nat.sub_le _ _) t.isLt)).s0 (accAt m c (t.val - 1) (Nat.lt_of_le_of_lt (Nat.sub_le _ _) t.isLt)).s1 (accAt m c (t.val - 1) (Nat.lt_of_le_of_lt (Nat.sub_le _ _) t.isLt)).s2 (accAt m c (t.val - 1) (Nat.lt_of_le_of_lt (Nat.sub_le _ _) t.isLt)).s3
    · exact last_s3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (accAt m c (t.val - 1) (Nat.lt_of_le_of_lt (Nat.sub_le _ _) t.isLt)).s0 (accAt m c (t.val - 1) (Nat.lt_of_le_of_lt (Nat.sub_le _ _) t.isLt)).s1 (accAt m c (t.val - 1) (Nat.lt_of_le_of_lt (Nat.sub_le _ _) t.isLt)).s2 (accAt m c (t.val - 1) (Nat.lt_of_le_of_lt (Nat.sub_le _ _) t.isLt)).s3
  · rw [accAt_mid m c t h0 h1]
    unfold accMid; dsimp only
    refine ⟨?_, ?_, ?_, ?_⟩
    · exact mid_s0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((isFirst_iff t).mp h)) (fun h => h1 ((isLast_iff t).mp h)) (iblk m c 0 t) (iblk m c 1 t) (iblk m c 2 t) (iblk m c 3 t) (accAt m c (t.val - 1) (Nat.lt_of_le_of_lt (Nat.sub_le _ _) t.isLt)).s0 (accAt m c (t.val - 1) (Nat.lt_of_le_of_lt (Nat.sub_le _ _) t.isLt)).s1 (accAt m c (t.val - 1) (Nat.lt_of_le_of_lt (Nat.sub_le _ _) t.isLt)).s2 (accAt m c (t.val - 1) (Nat.lt_of_le_of_lt (Nat.sub_le _ _) t.isLt)).s3
    · exact mid_s1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((isFirst_iff t).mp h)) (fun h => h1 ((isLast_iff t).mp h)) (iblk m c 0 t) (iblk m c 1 t) (iblk m c 2 t) (iblk m c 3 t) (accAt m c (t.val - 1) (Nat.lt_of_le_of_lt (Nat.sub_le _ _) t.isLt)).s0 (accAt m c (t.val - 1) (Nat.lt_of_le_of_lt (Nat.sub_le _ _) t.isLt)).s1 (accAt m c (t.val - 1) (Nat.lt_of_le_of_lt (Nat.sub_le _ _) t.isLt)).s2 (accAt m c (t.val - 1) (Nat.lt_of_le_of_lt (Nat.sub_le _ _) t.isLt)).s3
    · exact mid_s2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((isFirst_iff t).mp h)) (fun h => h1 ((isLast_iff t).mp h)) (iblk m c 0 t) (iblk m c 1 t) (iblk m c 2 t) (iblk m c 3 t) (accAt m c (t.val - 1) (Nat.lt_of_le_of_lt (Nat.sub_le _ _) t.isLt)).s0 (accAt m c (t.val - 1) (Nat.lt_of_le_of_lt (Nat.sub_le _ _) t.isLt)).s1 (accAt m c (t.val - 1) (Nat.lt_of_le_of_lt (Nat.sub_le _ _) t.isLt)).s2 (accAt m c (t.val - 1) (Nat.lt_of_le_of_lt (Nat.sub_le _ _) t.isLt)).s3
    · exact mid_s3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((isFirst_iff t).mp h)) (fun h => h1 ((isLast_iff t).mp h)) (iblk m c 0 t) (iblk m c 1 t) (iblk m c 2 t) (iblk m c 3 t) (accAt m c (t.val - 1) (Nat.lt_of_le_of_lt (Nat.sub_le _ _) t.isLt)).s0 (accAt m c (t.val - 1) (Nat.lt_of_le_of_lt (Nat.sub_le _ _) t.isLt)).s1 (accAt m c (t.val - 1) (Nat.lt_of_le_of_lt (Nat.sub_le _ _) t.isLt)).s2 (accAt m c (t.val - 1) (Nat.lt_of_le_of_lt (Nat.sub_le _ _) t.isLt)).s3

set_option maxHeartbeats 1000000 in
/-- At the last column tile the output window holds the loss of the four totals just completed. -/
theorem accAt_out_eq (c : Dev nD) (t : Fin cfg0.N) (h1 : t.val % 16 = 15) :
    (accAt m c t.val t.isLt).out = lossOf (accAt m c t.val t.isLt).s0 (accAt m c t.val t.isLt).s1 (accAt m c t.val t.isLt).s2 (accAt m c t.val t.isLt).s3 := by
  have h0 : ¬t.val % 16 = 0 := by omega
  rw [accAt_last m c t h0 h1]
  unfold accLast; dsimp only
  refine (last_out c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (accAt m c (t.val - 1) (Nat.lt_of_le_of_lt (Nat.sub_le _ _) t.isLt)).s0 (accAt m c (t.val - 1) (Nat.lt_of_le_of_lt (Nat.sub_le _ _) t.isLt)).s1 (accAt m c (t.val - 1) (Nat.lt_of_le_of_lt (Nat.sub_le _ _) t.isLt)).s2 (accAt m c (t.val - 1) (Nat.lt_of_le_of_lt (Nat.sub_le _ _) t.isLt)).s3).trans ?_
  exact congr (congr (congr (congrArg lossOf (last_s0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (accAt m c (t.val - 1) (Nat.lt_of_le_of_lt (Nat.sub_le _ _) t.isLt)).s0 (accAt m c (t.val - 1) (Nat.lt_of_le_of_lt (Nat.sub_le _ _) t.isLt)).s1 (accAt m c (t.val - 1) (Nat.lt_of_le_of_lt (Nat.sub_le _ _) t.isLt)).s2 (accAt m c (t.val - 1) (Nat.lt_of_le_of_lt (Nat.sub_le _ _) t.isLt)).s3).symm)
    (last_s1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (accAt m c (t.val - 1) (Nat.lt_of_le_of_lt (Nat.sub_le _ _) t.isLt)).s0 (accAt m c (t.val - 1) (Nat.lt_of_le_of_lt (Nat.sub_le _ _) t.isLt)).s1 (accAt m c (t.val - 1) (Nat.lt_of_le_of_lt (Nat.sub_le _ _) t.isLt)).s2 (accAt m c (t.val - 1) (Nat.lt_of_le_of_lt (Nat.sub_le _ _) t.isLt)).s3).symm)
    (last_s2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (accAt m c (t.val - 1) (Nat.lt_of_le_of_lt (Nat.sub_le _ _) t.isLt)).s0 (accAt m c (t.val - 1) (Nat.lt_of_le_of_lt (Nat.sub_le _ _) t.isLt)).s1 (accAt m c (t.val - 1) (Nat.lt_of_le_of_lt (Nat.sub_le _ _) t.isLt)).s2 (accAt m c (t.val - 1) (Nat.lt_of_le_of_lt (Nat.sub_le _ _) t.isLt)).s3).symm)
    (last_s3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (accAt m c (t.val - 1) (Nat.lt_of_le_of_lt (Nat.sub_le _ _) t.isLt)).s0 (accAt m c (t.val - 1) (Nat.lt_of_le_of_lt (Nat.sub_le _ _) t.isLt)).s1 (accAt m c (t.val - 1) (Nat.lt_of_le_of_lt (Nat.sub_le _ _) t.isLt)).s2 (accAt m c (t.val - 1) (Nat.lt_of_le_of_lt (Nat.sub_le _ _) t.isLt)).s3).symm

end Cert.KernelIdeal.Frame

end
-- ==== Proof.KernelIdeal.Fold.lean ====
/-
  THE SIXTEEN COLUMN TILES OF A ROW TILE, ADDED UP, AND THE LOSS COLUMN AS THE SPECIFICATION'S ROW TERMS.

  Fix a row tile `a` and a position `p` in it: row `R = a·512 + p`. The scratch columns at `p` start, at the first column
  tile, from zero plus that tile's sums; every later tile adds its sums. By induction on the column tile `j` (no
  enumeration of the grid), after tile `j` each column holds the sum over the tiles `0 … j` of the tile's sum over its
  512 columns. After the sixteenth tile that is the sum over all 8192 columns (`Cert.Spec.sum_blocks`): the four columns
  hold `ps`, `ns`, `pc`, `nc` of row `R`. The last tile stores the loss of the four totals, which is `row R`, and the
  write-backs put it at row `R` of the loss column.

  Addition of extended reals is associative and `0 + y = y`, also at the infinities: no finiteness is needed.
-/
import proofs.«171001_j17884243820948_1_alg».proof.Proof.KernelIdeal.Fold1
import proofs.«171001_j17884243820948_1_alg».proof.Proof.KernelIdeal.Pieces

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx
open Idealize.SL Idealize.SL.Sem

/-! ## Points, rows and columns by tile -/

/-- The point of row tile `a` and column tile `j` is a point of the grid. -/
theorem pt_lt {a j : ℕ} (ha : a < 16) (hj : j < 16) : 16 * a + j < cfg0.N := by
  rw [show cfg0.N = 256 from N_0]; omega

/-- The point of row tile `a` and column tile `j`. -/
abbrev pt (a j : ℕ) (ha : a < 16) (hj : j < 16) : Fin cfg0.N := ⟨16 * a + j, pt_lt ha hj⟩

/-- Position `p` of row tile `a` is row `a·512 + p`. -/
def rowOf (a : ℕ) (ha : a < 16) (p : Fin 512) : Fin 8192 := ⟨a * 512 + p.val, by have := p.isLt; omega⟩

/-- Position `q` of column tile `j` is column `j·512 + q` (the tile number taken modulo 16, so that every `j` names a
    column; for `j < 16` it is `j` itself). -/
def colOf (j : ℕ) (q : Fin 512) : Fin 8192 :=
  ⟨j % 16 * 512 + q.val, by have := q.isLt; have := Nat.mod_lt j (show 0 < 16 by decide); omega⟩

/-- The sixteen tiles' sums are the sum over all columns. -/
theorem sum_cols (f : Fin 8192 → EReal) :
    ∑ j ∈ Finset.range 16, ∑ q : Fin 512, f (colOf j q) = ∑ C : Fin 8192, f C := by
  rw [Finset.sum_range (fun j => ∑ q : Fin 512, f (colOf j q)), ← Cert.Spec.sum_blocks f]
  refine Finset.sum_congr rfl fun j _ => Finset.sum_congr rfl fun q _ => congrArg f (Fin.ext ?_)
  show j.val % 16 * 512 + q.val = j.val * 512 + q.val
  rw [Nat.mod_eq_of_lt j.isLt]

section Fold
variable (m : (ℓ : Loc nD τ sig) → Buf (Elt Ideal) ℓ) (c : Dev nD)
  (X : Fin 8192 → Fin 512 → EReal) (L : Fin 8192 → BitVec 32)
  (hE : ∀ r k, (V m c main_v5 : S8192x512.Idx → Elt Ideal .bf16) (ix2 r k) = Cert.Spec.e X r k)
  (hL6 : ∀ r (z : Fin 1), (V m c main_v6 : S8192x1.Idx → Elt Ideal .i32) (ix2 r z) = L r)
  (hL7 : ∀ (z : Fin 1) r, (V m c main_v7 : S1x8192.Idx → Elt Ideal .i32) (ix2 z r) = L r)

/-! ## The induction over the column tiles -/

include hE hL6 hL7 in
/-- After column tile `j` of row tile `a`, the four scratch columns at position `p` hold the sums over the column tiles
    `0 … j` of the tiles' sums. -/
theorem fold_cols (a : ℕ) (ha : a < 16) (p : Fin 512) : ∀ (j : ℕ) (hj : j < 16),
    (accAt m c (16 * a + j) (pt_lt ha hj)).s0 (ix2 p (0 : Fin 1))
        = ∑ j' ∈ Finset.range (j + 1), ∑ q : Fin 512, Cert.Spec.E X (rowOf a ha p) (colOf j' q) * Cert.Spec.pm L (rowOf a ha p) (colOf j' q)
    ∧ (accAt m c (16 * a + j) (pt_lt ha hj)).s1 (ix2 p (0 : Fin 1))
        = ∑ j' ∈ Finset.range (j + 1), ∑ q : Fin 512, Cert.Spec.E X (rowOf a ha p) (colOf j' q) * Cert.Spec.nm L (rowOf a ha p) (colOf j' q)
    ∧ (accAt m c (16 * a + j) (pt_lt ha hj)).s2 (ix2 p (0 : Fin 1))
        = ∑ j' ∈ Finset.range (j + 1), ∑ q : Fin 512, Cert.Spec.pm L (rowOf a ha p) (colOf j' q)
    ∧ (accAt m c (16 * a + j) (pt_lt ha hj)).s3 (ix2 p (0 : Fin 1))
        = ∑ j' ∈ Finset.range (j + 1), ∑ q : Fin 512, Cert.Spec.nm L (rowOf a ha p) (colOf j' q) := by
  intro j
  induction j with
  | zero =>
    intro hj
    have h0 : (pt a 0 ha hj).val % 16 = 0 := by show (16 * a + 0) % 16 = 0; omega
    have h1 : ¬(pt a 0 ha hj).val % 16 = 15 := by show ¬(16 * a + 0) % 16 = 15; omega
    obtain ⟨e0, e1, e2, e3⟩ := accAt_first_eq m c (pt a 0 ha hj) h0 h1
    have hR : (rowOf a ha p).val = (pt a 0 ha hj).val / 16 * 512 + p.val := by
      show a * 512 + p.val = (16 * a + 0) / 16 * 512 + p.val; omega
    have hC : ∀ q, (colOf 0 q).val = (pt a 0 ha hj).val % 16 * 512 + q.val := fun q => by
      show 0 % 16 * 512 + q.val = (16 * a + 0) % 16 * 512 + q.val; omega
    refine ⟨?_, ?_, ?_, ?_⟩
    · rw [show (accAt m c (16 * a + 0) (pt_lt ha hj)).s0 = _ from e0,
        stepPosSum_at m c X L hE hL6 hL7 (pt a 0 ha hj) p _ (rowOf a ha p) (colOf 0) hR hC,
        PayIdx.pay2_apply, zero_add, Finset.sum_range_one]
    · rw [show (accAt m c (16 * a + 0) (pt_lt ha hj)).s1 = _ from e1,
        stepNegSum_at m c X L hE hL6 hL7 (pt a 0 ha hj) p _ (rowOf a ha p) (colOf 0) hR hC,
        PayIdx.pay3_apply, zero_add, Finset.sum_range_one]
    · rw [show (accAt m c (16 * a + 0) (pt_lt ha hj)).s2 = _ from e2,
        stepPosCnt_at m c L hL6 hL7 (pt a 0 ha hj) p _ (rowOf a ha p) (colOf 0) hR hC,
        PayIdx.pay4_apply, zero_add, Finset.sum_range_one]
    · rw [show (accAt m c (16 * a + 0) (pt_lt ha hj)).s3 = _ from e3,
        stepNegCnt_at m c L hL6 hL7 (pt a 0 ha hj) p _ (rowOf a ha p) (colOf 0) hR hC,
        PayIdx.pay5_apply, zero_add, Finset.sum_range_one]
  | succ j ih =>
    intro hj
    have hj' : j < 16 := by omega
    obtain ⟨i0, i1, i2, i3⟩ := ih hj'
    have h0 : ¬(pt a (j + 1) ha hj).val % 16 = 0 := by show ¬(16 * a + (j + 1)) % 16 = 0; omega
    obtain ⟨e0, e1, e2, e3⟩ := accAt_next_eq m c (pt a (j + 1) ha hj) h0
    have hp : accAt m c ((pt a (j + 1) ha hj).val - 1) (Nat.lt_of_le_of_lt (Nat.sub_le _ _) (pt a (j + 1) ha hj).isLt)
        = accAt m c (16 * a + j) (pt_lt ha hj') :=
      accAt_congr m c (by show 16 * a + (j + 1) - 1 = 16 * a + j; omega) _ _
    rw [hp] at e0 e1 e2 e3
    have hR : (rowOf a ha p).val = (pt a (j + 1) ha hj).val / 16 * 512 + p.val := by
      show a * 512 + p.val = (16 * a + (j + 1)) / 16 * 512 + p.val; omega
    have hC : ∀ q, (colOf (j + 1) q).val = (pt a (j + 1) ha hj).val % 16 * 512 + q.val := fun q => by
      show (j + 1) % 16 * 512 + q.val = (16 * a + (j + 1)) % 16 * 512 + q.val; omega
    refine ⟨?_, ?_, ?_, ?_⟩
    · rw [show (accAt m c (16 * a + (j + 1)) (pt_lt ha hj)).s0 = _ from e0,
        stepPosSum_at m c X L hE hL6 hL7 (pt a (j + 1) ha hj) p _ (rowOf a ha p) (colOf (j + 1)) hR hC, i0]
      exact (Finset.sum_range_succ _ (j + 1)).symm
    · rw [show (accAt m c (16 * a + (j + 1)) (pt_lt ha hj)).s1 = _ from e1,
        stepNegSum_at m c X L hE hL6 hL7 (pt a (j + 1) ha hj) p _ (rowOf a ha p) (colOf (j + 1)) hR hC, i1]
      exact (Finset.sum_range_succ _ (j + 1)).symm
    · rw [show (accAt m c (16 * a + (j + 1)) (pt_lt ha hj)).s2 = _ from e2,
        stepPosCnt_at m c L hL6 hL7 (pt a (j + 1) ha hj) p _ (rowOf a ha p) (colOf (j + 1)) hR hC, i2]
      exact (Finset.sum_range_succ _ (j + 1)).symm
    · rw [show (accAt m c (16 * a + (j + 1)) (pt_lt ha hj)).s3 = _ from e3,
        stepNegCnt_at m c L hL6 hL7 (pt a (j + 1) ha hj) p _ (rowOf a ha p) (colOf (j + 1)) hR hC, i3]
      exact (Finset.sum_range_succ _ (j + 1)).symm

/-! ## The totals and the row's term -/

include hE hL6 hL7 in
/-- After the last column tile the four scratch columns hold the specification's row quantities. -/
theorem totals (a : ℕ) (ha : a < 16) (p : Fin 512) :
    (accAt m c (16 * a + 15) (pt_lt ha (by decide))).s0 (ix2 p (0 : Fin 1)) = Cert.Spec.ps X L (rowOf a ha p)
    ∧ (accAt m c (16 * a + 15) (pt_lt ha (by decide))).s1 (ix2 p (0 : Fin 1)) = Cert.Spec.ns X L (rowOf a ha p)
    ∧ (accAt m c (16 * a + 15) (pt_lt ha (by decide))).s2 (ix2 p (0 : Fin 1)) = Cert.Spec.pc L (rowOf a ha p)
    ∧ (accAt m c (16 * a + 15) (pt_lt ha (by decide))).s3 (ix2 p (0 : Fin 1)) = Cert.Spec.nc L (rowOf a ha p) := by
  obtain ⟨f0, f1, f2, f3⟩ := fold_cols m c X L hE hL6 hL7 a ha p 15 (by decide)
  exact ⟨f0.trans (sum_cols fun C => Cert.Spec.E X (rowOf a ha p) C * Cert.Spec.pm L (rowOf a ha p) C),
    f1.trans (sum_cols fun C => Cert.Spec.E X (rowOf a ha p) C * Cert.Spec.nm L (rowOf a ha p) C),
    f2.trans (sum_cols fun C => Cert.Spec.pm L (rowOf a ha p) C),
    f3.trans (sum_cols fun C => Cert.Spec.nm L (rowOf a ha p) C)⟩

include hE hL6 hL7 in
/-- The output block after the last column tile of row tile `a` holds, at position `p`, the specification's term of row
    `a·512 + p`. -/
theorem row_at (a : ℕ) (ha : a < 16) (p : Fin 512) :
    (accAt m c (16 * a + 15) (pt_lt ha (by decide))).out (ix2 p (0 : Fin 1)) = Cert.Spec.row X L (rowOf a ha p) := by
  obtain ⟨g0, g1, g2, g3⟩ := totals m c X L hE hL6 hL7 a ha p
  have h15 : (pt a 15 ha (by decide)).val % 16 = 15 := by show (16 * a + 15) % 16 = 15; omega
  rw [show (accAt m c (16 * a + 15) (pt_lt ha (by decide))).out = _ from accAt_out_eq m c (pt a 15 ha (by decide)) h15]
  unfold lossOf
  rw [PayIdx.pay1_apply]
  rw [show (accAt m c (pt a 15 ha (by decide)).val (pt a 15 ha (by decide)).isLt).s0 (ix2 p (0 : Fin 1)) = _ from g0,
    show (accAt m c (pt a 15 ha (by decide)).val (pt a 15 ha (by decide)).isLt).s1 (ix2 p (0 : Fin 1)) = _ from g1,
    show (accAt m c (pt a 15 ha (by decide)).val (pt a 15 ha (by decide)).isLt).s2 (ix2 p (0 : Fin 1)) = _ from g2,
    show (accAt m c (pt a 15 ha (by decide)).val (pt a 15 ha (by decide)).isLt).s3 (ix2 p (0 : Fin 1)) = _ from g3]
  rfl

/-! ## The loss column -/

include hE hL6 hL7 in
/-- After the region, row `r` of the loss column holds the specification's term of row `r`. -/
theorem row_of_out (r : Fin 8192) (z : Fin 1) :
    ((dats m 0 c).arrAt 4 cfg0.N : S8192x1.Idx → EReal) (ix2 r z) = Cert.Spec.row X L r := by
  obtain rfl : z = 0 := Subsingleton.elim _ _
  have ha : r.val / 512 < 16 := by have := r.isLt; omega
  have h := row_at m c X L hE hL6 hL7 (r.val / 512) ha ⟨r.val % 512, Nat.mod_lt _ (by decide)⟩
  rw [show rowOf (r.val / 512) ha ⟨r.val % 512, Nat.mod_lt _ (by decide)⟩ = r from
    Fin.ext (by show r.val / 512 * 512 + r.val % 512 = r.val; omega)] at h
  exact (out_col m c r 0).trans h

end Fold

end Cert.KernelIdeal.Frame

end
-- ==== Proof.KernelIdeal.HostIdx.lean ====
/-
  The lines around the region, read entry by entry.

  Before the region the program computes, from the embeddings X (8192 rows of 512 coordinates) and the labels,

    squared length of row r   ∑ₖ X (r, k) · X (r, k)                       a sum over the row, started from zero
    clamped norm of row r     max (√ (squared length)) c12                 kept as an 8192 × 1 column
    normalised entry (r, k)   X (r, k) / clamped norm of row r             spread back over the 512 columns, then
                                                                           narrowed to sixteen bits: no change here
    label column, label row   label r at (r, 0), and at (0, r)             two recasts of the label vector

  so the array the region's two embedding windows read holds, at (r, k), the specification's normalised entry of the
  launch's embeddings, and the two label arrays hold the launch's labels. After the region the program sums the loss
  column over all of its entries — an 8192 × 1 array, so over its 8192 rows — and divides by the number of rows.
-/
import proofs.«171001_j17884243820948_1_alg».proof.Proof.KernelIdeal.Setup
import proofs.«171001_j17884243820948_1_alg».proof.Proof.KernelIdeal.Columns
import proofs.«171001_j17884243820948_1_alg».proof.Proof.Spec
import Idealize.ShloMosaic.Lib.IdealHost
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HostIdx

open Cert.KernelIdeal Cert.KernelIdeal.Gen Cert.KernelIdeal.Frame
open Idealize.ShloMosaic Idealize.ShloMosaic.TcCoe Idealize.ShloMosaic.ValueIdx Idealize.SL.Sem Idealize.ShloMosaic.StableHlo

/-! ## The normalisation, stage by stage -/

/-- The squared length of each row: the sum of the squares of its 512 coordinates, from the zero word. -/
def sqlen (X : (⟨S8192x512, .f32⟩ : BufTy).Contents (Elt Ideal)) : (⟨S8192, .f32⟩ : BufTy).Contents (Elt Ideal) :=
  Host.reduceAdd (F := Ideal) (mulf X X) (constant (F := Ideal) S_ .f32 0x00000000#32) reducesTo_S8192x512_S8192_d1 h_S_

/-- The clamped norm of each row, as a column. -/
def cnorm (X : (⟨S8192x512, .f32⟩ : BufTy).Contents (Elt Ideal)) : (⟨S8192x1, .f32⟩ : BufTy).Contents (Elt Ideal) :=
  maximumf (Host.sqrt (broadcastInDim S8192x1 ![0] bcast_S8192_S8192x1_0 (sqlen X)))
    (broadcastInDim S8192x1 ![] bcast_S_S8192x1 (constant (F := Ideal) S_ .f32 0x2B8CBCCC#32))

/-- Each row divided by its clamped norm, then narrowed to sixteen bits (no change on the extended reals). -/
def normed (X : (⟨S8192x512, .f32⟩ : BufTy).Contents (Elt Ideal)) : (⟨S8192x512, .bf16⟩ : BufTy).Contents (Elt Ideal) :=
  truncf .bf16 (Host.divf (F := Ideal) X (broadcastInDim S8192x512 ![0, 1] bcast_S8192x1_S8192x512_0_1 (cnorm X))) bitsLt_bf16_f32

/-- Row r's squared length is the sum of the squares of its coordinates (the zero start adds nothing). -/
theorem sqlen_apply (X : (⟨S8192x512, .f32⟩ : BufTy).Contents (Elt Ideal)) (r : Fin 8192) :
    sqlen X (ix1 r) = ∑ k : Fin 512, X (ix2 r k) * X (ix2 r k) := by
  unfold sqlen
  rw [hostReduceAdd_apply, Ideal.hostReduceAdd_single reducesTo_S8192x512_S8192_d1 (by decide)]
  show Ideal.ofBits .f32 0x00000000#32 + _ = _
  rw [Ideal.ofBits_zero_f32, zero_add]
  refine Finset.sum_congr rfl fun k _ => ?_
  have e : (Shape.Reduces.lift (by decide : S8192x512.Reduces [1] S8192) (ix1 r) k : S8192x512.Idx) = ix2 r k := by
    funext a
    match a with
    | ⟨0, _⟩ => rfl
    | ⟨1, _⟩ => rfl
  rw [e]; rfl

/-- Entry (r, 0) of the norm column is the specification's clamped norm of row r. -/
theorem cnorm_apply (X : (⟨S8192x512, .f32⟩ : BufTy).Contents (Elt Ideal)) (r : Fin 8192) :
    cnorm X (ix2 r (0 : Fin 1)) = Cert.Spec.n (fun r k => X (ix2 r k)) r := by
  unfold cnorm Cert.Spec.n
  show max (Ideal.sqrt (broadcastInDim S8192x1 ![0] bcast_S8192_S8192x1_0 (sqlen X) (ix2 r (0 : Fin 1))))
      (broadcastInDim S8192x1 ![] bcast_S_S8192x1 (constant (F := Ideal) S_ .f32 0x2B8CBCCC#32) (ix2 r (0 : Fin 1))) = _
  rw [broadcastInDim_scalar_apply,
    broadcastInDim_apply _ bcast_S8192_S8192x1_0 (sqlen X) (ix2 r (0 : Fin 1)) (ix1 r) (fun a => match a with
      | ⟨0, _⟩ => by show r.val = if (8192 : Nat) = 1 then 0 else r.val; rw [if_neg (by decide)]),
    sqlen_apply]
  rfl

/-- Entry (r, k) of the normalised array is the specification's normalised entry. -/
theorem normed_apply (X : (⟨S8192x512, .f32⟩ : BufTy).Contents (Elt Ideal)) (r : Fin 8192) (k : Fin 512) :
    normed X (ix2 r k) = Cert.Spec.e (fun r k => X (ix2 r k)) r k := by
  unfold normed Cert.Spec.e
  show Ideal.div (X (ix2 r k)) (broadcastInDim S8192x512 ![0, 1] bcast_S8192x1_S8192x512_0_1 (cnorm X) (ix2 r k)) = _
  rw [broadcastInDim_apply _ bcast_S8192x1_S8192x512_0_1 (cnorm X) (ix2 r k) (ix2 r (0 : Fin 1)) (fun a => match a with
      | ⟨0, _⟩ => by show r.val = if (8192 : Nat) = 1 then 0 else r.val; rw [if_neg (by decide)]
      | ⟨1, _⟩ => by show 0 = if (1 : Nat) = 1 then 0 else k.val; rw [if_pos rfl]),
    cnorm_apply]

/-! ## The arrays the region finds -/

section Arrays
variable (m : (ℓ : Loc nD τ sig) → Buf (Elt Ideal) ℓ) (c : Dev nD)

/-- The embeddings array the region finds is the normalisation of the launch's embeddings. -/
theorem V_v5_eq : (V m c main_v5 : (⟨S8192x512, .bf16⟩ : BufTy).Contents (Elt Ideal)) = normed (m ((c : Thread nD τ).loc main_arg0)) := by
  dsimp only [V, V0]
  simp only [hostOps0, hostOps0_1, List.flatten_cons, List.flatten_nil, List.append_nil, List.cons_append, List.nil_append]
  after_results
  rfl

/-- The label column the region finds is the launch's label vector recast as 8192 × 1. -/
theorem V_v6_eq : (V m c main_v6 : (⟨S8192x1, .i32⟩ : BufTy).Contents (Elt Ideal))
    = shapeCast S8192x1 (m ((c : Thread nD τ).loc main_arg1) : (⟨S8192, .i32⟩ : BufTy).Contents (Elt Ideal)) shapeCasts_S8192_S8192x1 := by
  dsimp only [V, V0]
  simp only [hostOps0, hostOps0_1, List.flatten_cons, List.flatten_nil, List.append_nil, List.cons_append, List.nil_append]
  after_results
  rfl

/-- The label row the region finds is the launch's label vector recast as 1 × 8192. -/
theorem V_v7_eq : (V m c main_v7 : (⟨S1x8192, .i32⟩ : BufTy).Contents (Elt Ideal))
    = shapeCast S1x8192 (m ((c : Thread nD τ).loc main_arg1) : (⟨S8192, .i32⟩ : BufTy).Contents (Elt Ideal)) shapeCasts_S8192_S1x8192 := by
  dsimp only [V, V0]
  simp only [hostOps0, hostOps0_1, List.flatten_cons, List.flatten_nil, List.append_nil, List.cons_append, List.nil_append]
  after_results
  rfl

end Arrays

section Reads
variable (m : (ℓ : Loc nD τ sig) → Buf (Elt Ideal) ℓ) (c : Dev nD)

/-- The embeddings the region reads are the rows of the launch's embeddings, each divided by its clamped norm. -/
theorem V_v5_apply (r : Fin 8192) (k : Fin 512) :
    (V m c main_v5 : (⟨S8192x512, .bf16⟩ : BufTy).Contents (Elt Ideal)) (ix2 r k)
      = Cert.Spec.e (fun r k => (m ((c : Thread nD τ).loc main_arg0) : (⟨S8192x512, .f32⟩ : BufTy).Contents (Elt Ideal)) (ix2 r k)) r k := by
  rw [V_v5_eq]; exact normed_apply _ r k

/-- The label column holds label r at (r, 0) … -/
theorem V_v6_apply (r : Fin 8192) :
    (V m c main_v6 : (⟨S8192x1, .i32⟩ : BufTy).Contents (Elt Ideal)) (ix2 r (0 : Fin 1))
      = (m ((c : Thread nD τ).loc main_arg1) : (⟨S8192, .i32⟩ : BufTy).Contents (Elt Ideal)) (ix1 r) := by
  rw [V_v6_eq]; exact Columns.shapeCast_a_a1_apply _ _ r 0

/-- … and the label row holds it at (0, r). -/
theorem V_v7_apply (r : Fin 8192) :
    (V m c main_v7 : (⟨S1x8192, .i32⟩ : BufTy).Contents (Elt Ideal)) (ix2 (0 : Fin 1) r)
      = (m ((c : Thread nD τ).loc main_arg1) : (⟨S8192, .i32⟩ : BufTy).Contents (Elt Ideal)) (ix1 r) := by
  rw [V_v7_eq]; exact shapeCast_a_1a_apply _ _ 0 r

/-- The two arguments are as the launch left them. -/
theorem V_arg0 : V m c main_arg0 = m ((c : Thread nD τ).loc main_arg0) := by
  dsimp only [V, V0]
  simp only [hostOps0, hostOps0_1, List.flatten_cons, List.flatten_nil, List.append_nil, List.cons_append, List.nil_append]
  after_results
theorem V_arg1 : V m c main_arg1 = m ((c : Thread nD τ).loc main_arg1) := by
  dsimp only [V, V0]
  simp only [hostOps0, hostOps0_1, List.flatten_cons, List.flatten_nil, List.append_nil, List.cons_append, List.nil_append]
  after_results

end Reads

/-! ## The lines after the region: the mean of the per-row losses -/

/-- The sum of every entry of the loss column, from the zero word, divided by the number of rows. A sum over all
    indices of an 8192 × 1 array is the sum over its 8192 rows. -/
theorem tail_apply (Y : (⟨S8192x1, .f32⟩ : BufTy).Contents (Elt Ideal)) :
    Host.divf (F := Ideal) (Host.reduceAdd (F := Ideal) Y (constant (F := Ideal) S_ .f32 0x00000000#32) reducesTo_S8192x1_S_d0_1 h_S_)
        (constant (F := Ideal) S_ .f32 0x46000000#32)
      = fun _ => Ideal.div (∑ r : Fin 8192, Y (ix2 r (0 : Fin 1))) Cert.Spec.rows := by
  funext j
  rw [hostDivf_apply, hostReduceAdd_apply, Ideal.hostReduceAdd_total reducesTo_S8192x1_S_d0_1 (fun b => b.elim0)]
  show Ideal.div (Ideal.ofBits .f32 0x00000000#32 + ∑ i : S8192x1.Idx, Y i) (Ideal.ofBits .f32 0x46000000#32) = _
  rw [Ideal.ofBits_zero_f32, zero_add, sum_idx2]
  refine congrArg (Ideal.div · _) (Finset.sum_congr rfl fun r _ => ?_)
  exact Fin.sum_univ_one _

end Cert.KernelIdeal.HostIdx

end
-- ==== Proof.KernelIdeal.TailValue.lean ====
/-
  The value the program leaves: the mean of the rows' terms.

  After the region the loss column holds, in row r, the specification's term for row r. The lines that follow sum the
  column over all of its entries and divide by the number of rows; a sum whose every summand is the specification's
  term is the specification's sum, so the quotient is the specification's loss.
-/
import proofs.«171001_j17884243820948_1_alg».proof.Proof.KernelIdeal.HostIdx
import proofs.«171001_j17884243820948_1_alg».proof.Proof.Spec

noncomputable section

open scoped BigOperators

namespace Cert.KernelIdeal.HostIdx

open Cert.KernelIdeal Cert.KernelIdeal.Gen
open Idealize.ShloMosaic Idealize.ShloMosaic.ValueIdx

/-- A loss column that holds each row's term has, as its mean over the 8192 rows, the specification's loss. -/
theorem loss_of_rows (X : Fin 8192 → Fin 512 → EReal) (L : Fin 8192 → BitVec 32)
    (Y : (⟨S8192x1, .f32⟩ : BufTy).Contents (Elt Ideal))
    (hY : ∀ (r : Fin 8192) (z : Fin 1), Y (ix2 r z) = Cert.Spec.row X L r) :
    Host.divf (F := Ideal) (Host.reduceAdd (F := Ideal) Y (constant (F := Ideal) S_ .f32 0x00000000#32) reducesTo_S8192x1_S_d0_1 h_S_)
        (constant (F := Ideal) S_ .f32 0x46000000#32)
      = fun _ => Cert.Spec.loss X L := by
  rw [tail_apply]
  unfold Cert.Spec.loss
  exact funext fun _ => congrArg (Ideal.div · Cert.Spec.rows) (Finset.sum_congr rfl fun r _ => hY r 0)

end Cert.KernelIdeal.HostIdx

end
-- ==== Proof.KernelIdeal.Value.lean ====
/-
  The kernel's result is the specification's loss.

  After the region the loss column holds, in row r, the specification's term of row r, computed from the array of
  normalised embeddings and the two label arrays the region found; those arrays are the normalisation and the two
  recasts of the launch's embeddings and labels. The lines after the region take the column's sum over all rows and
  divide by the number of rows. So the result buffer ends holding the specification's loss of the embeddings and labels
  the program was launched with, and the two argument arrays end as they began.
-/
import proofs.«171001_j17884243820948_1_alg».proof.Proof.KernelIdeal.Launch
import proofs.«171001_j17884243820948_1_alg».proof.Proof.KernelIdeal.Fold
import proofs.«171001_j17884243820948_1_alg».proof.Proof.KernelIdeal.TailValue

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ) (ρ : Dev nD → PrngReg)

/-- The result buffer after the last lines: the loss column's sum over all of its entries, from zero, divided by the
    number of rows. -/
theorem Wf_v10_eq (c : Dev nD) :
    (Wf m c main_v10 : (⟨S_, .f32⟩ : BufTy).Contents (Elt Ideal))
      = Host.divf (F := Ideal) (Host.reduceAdd (F := Ideal) ((dats m 0 c).arrAt 4 cfg0.N : (⟨S8192x1, .f32⟩ : BufTy).Contents (Elt Ideal))
          (constant (F := Ideal) S_ .f32 0x00000000#32) reducesTo_S8192x1_S_d0_1 h_S_) (constant (F := Ideal) S_ .f32 0x46000000#32) := by
  show StableHlo.after hostOps1 (Wx m c) (Proc.devRef .tc main_v10) = _
  after_results
  rw [Wx_v8]

/-- The embeddings the program was launched with, by row and coordinate. -/
def argX (c : Dev nD) : Fin 8192 → Fin 512 → EReal := fun a k => m ((c : Thread nD τ).loc main_arg0) (ix2 a k)
/-- The labels it was launched with, by row. -/
def argL (c : Dev nD) : Fin 8192 → BitVec 32 := fun a => m ((c : Thread nD τ).loc main_arg1) (ix1 a)

/-- The result is the specification's loss of the launch's embeddings and labels. -/
theorem result_eq_spec (c : Dev nD) :
    (Wf m c main_v10 : (⟨S_, .f32⟩ : BufTy).Contents (Elt Ideal)) = fun _ => Cert.Spec.loss (argX m c) (argL m c) := by
  rw [Wf_v10_eq]
  exact HostIdx.loss_of_rows (argX m c) (argL m c) _
    (row_of_out m c (argX m c) (argL m c) (HostIdx.V_v5_apply m c)
      (fun r z => by obtain rfl : z = 0 := Subsingleton.elim _ _; exact HostIdx.V_v6_apply m c r)
      (fun z r => by obtain rfl : z = 0 := Subsingleton.elim _ _; exact HostIdx.V_v7_apply m c r))

/-- Every weakly fair execution of the program terminates with the result buffer at the specification's loss of the
    arguments' contents at the start, and both arguments unchanged. -/
theorem run_spec :
    θ_run (defs (F := Ideal)) (onTc (τ := τ) (main (F := Ideal))) ⟨m, fun _ => 0, ρ⟩ (fun r => ∀ c : Dev nD,
      r.2.mem ((c : Thread nD τ).loc main_v10) = (fun _ => Cert.Spec.loss (argX m c) (argL m c))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (result_eq_spec m c), (h c).2⟩) (run_main m ρ)

end Cert.KernelIdeal.Frame

end
-- ==== Proof.RefNorm.lean ====
/-
  THE REFERENCE'S NORMALISED ROWS. The reference squares the embeddings, sums each row from the initial value zero, takes
  the square root, clamps it below by the constant c12 and divides every coordinate of the row by the result; it also
  forms the transpose of the normalised array. Read at an index these are the specification's `n`, `e` and `e` with its
  two coordinates exchanged. Each lemma reads the stages of one group at an index by coordinates: a stage at an index is
  its operation applied to its operands at an index, a broadcast or transpose reads its operand at a shifted index whose
  coordinates are computed here, and the float operations are the extended reals' own.
-/
import proofs.«171001_j17884243820948_1_alg».proof.Proof.Spec
import proofs.«171001_j17884243820948_1_alg».proof.Proof.RefRead

noncomputable section

open scoped BigOperators

namespace Cert.ReferenceIdeal.RefValue

open Cert.ReferenceIdeal Cert.ReferenceIdeal.Gen Cert.ReferenceIdeal.ReadP Idealize.ShloMosaic Idealize.ShloMosaic.ValueIdx

/-- The embeddings array read by its two coordinates: the specification's `x`. -/
abbrev xs (x0 : (⟨S8192x512, .f32⟩ : BufTy).Contents (Elt Ideal)) : Fin 8192 → Fin 512 → EReal :=
  fun r k => x0 (ix2 r k)

/-- The labels array read by its coordinate: the specification's `l`. -/
abbrev ls (x1 : (⟨S8192, .i32⟩ : BufTy).Contents (Elt Ideal)) : Fin 8192 → BitVec 32 :=
  fun r => x1 (ix1 r)

/-- Row `r`'s sum of squares runs over the entries `(r, k)`: the sum's `k`-th operand index, taken through the
    broadcast to a column, is `(r, k)`. -/
theorem sumsq_idx (r : Fin 8192) (z : Fin 1) (k : Fin 512) :
    idx_main_call0_v1 (idx_main_call0_v2 (ix2 r z)) k = ix2 r k :=
  funext fun a => Fin.ext (by match a with | ⟨0, _⟩ => rfl | ⟨1, _⟩ => rfl)

/-- The clamped norm: the column of norms at `(r, 0)` is `max (√ (∑ₖ x r k · x r k)) c12`. The initial value of the sum is
    the zero pattern, the extended real zero, and `0 + t = t`. -/
theorem norm_eq (x0 : (⟨S8192x512, .f32⟩ : BufTy).Contents (Elt Ideal)) (r : Fin 8192) (z : Fin 1) :
    val_main_v2 (F := Ideal) x0 (ix2 r z) = Cert.Spec.n (xs x0) r := by
  rw [val_main_v2_apply, val_main_v0_apply, val_main_call0_v2_apply, val_main_call0_v1_apply,
    val_main_call0_cst_apply, val_main_v1_apply, val_main_cst_apply]
  simp only [val_main_call0_v0_apply, sumsq_idx, Ideal.maximumf_def, Ideal.hostUnary_sqrt_def, Ideal.mulf_def,
    Ideal.ofBits_def, Ideal.ofBits_zero_f32, zero_add]
  rfl

/-- The norm column broadcast along a row: entry `(r, k)` reads the column at `(r, 0)`. -/
theorem bcast_idx (r : Fin 8192) (k : Fin 512) : idx_main_v3 (ix2 r k) = ix2 r (⟨0, Nat.one_pos⟩ : Fin 1) :=
  funext fun a => Fin.ext (by match a with | ⟨0, _⟩ => rfl | ⟨1, _⟩ => rfl)

/-- The normalised array at `(r, k)` is `x r k / n r`. -/
theorem e_eq (x0 : (⟨S8192x512, .f32⟩ : BufTy).Contents (Elt Ideal)) (r : Fin 8192) (k : Fin 512) :
    val_main_v4 (F := Ideal) x0 (ix2 r k) = Cert.Spec.e (xs x0) r k := by
  rw [val_main_v4_apply, val_main_v3_apply, bcast_idx, norm_eq, Ideal.hostDivf_def]
  rfl

/-- The transpose at `(k, c)` reads the array at `(c, k)`. -/
theorem transpose_idx (k : Fin 512) (c : Fin 8192) : idx_main_v5 (ix2 k c) = ix2 c k :=
  funext fun a => Fin.ext (by match a with | ⟨0, _⟩ => rfl | ⟨1, _⟩ => rfl)

/-- The transposed normalised array at `(k, c)` is `e c k`. -/
theorem eT_eq (x0 : (⟨S8192x512, .f32⟩ : BufTy).Contents (Elt Ideal)) (k : Fin 512) (c : Fin 8192) :
    val_main_v5 (F := Ideal) x0 (ix2 k c) = Cert.Spec.e (xs x0) c k := by
  rw [val_main_v5_apply, transpose_idx, e_eq]

end Cert.ReferenceIdeal.RefValue

end
-- ==== Proof.RefPair.lean ====
/-
  THE REFERENCE'S PAIR TABLES. For every pair of rows `(r, c)` the reference forms the cosine similarity (a contraction
  of the normalised array with its transpose), `exp` of minus the cosine distance, and two 0/1 masks: the positive mask
  as the product `[l r = l c] · (1 − [r = c])`, the second bracket from comparing the row and column counters, and the
  negative mask from the negated label comparison. Read at `(r, c)` these are the specification's `s`, `E`, `pm`, `nm`.

  A one-bit comparison result converts to a float as its value as a natural number: the bit 1 to the extended real 1,
  the bit 0 to 0. Two row counters below 8192 are equal as 32-bit words exactly when they are equal, since both are
  far below 2³².
-/
import proofs.«171001_j17884243820948_1_alg».proof.Proof.RefNorm

noncomputable section

open scoped BigOperators

namespace Cert.ReferenceIdeal.RefValue

open Cert.ReferenceIdeal Cert.ReferenceIdeal.Gen Cert.ReferenceIdeal.ReadP Idealize.ShloMosaic Idealize.ShloMosaic.ValueIdx

/-! ## A comparison bit as a float -/

/-- The bit 1 converts to the extended real one. -/
theorem uitofp_one : FloatOps.uitofp (F := Ideal) .f32 (1#1 : BitVec 1) = (1 : EReal) := by
  show ((((1#1 : BitVec 1).toNat : ℕ) : ℝ) : EReal) = 1
  simp

/-- The bit 0 converts to the extended real zero. -/
theorem uitofp_zero : FloatOps.uitofp (F := Ideal) .f32 (0#1 : BitVec 1) = (0 : EReal) := by
  show ((((0#1 : BitVec 1).toNat : ℕ) : ℝ) : EReal) = 0
  simp

/-- An equality test of two words, converted: one if they are equal, else zero. -/
theorem uitofp_beq (a b : BitVec 32) :
    FloatOps.uitofp (F := Ideal) .f32 (BitVec.ofBool (a == b)) = if a = b then (1 : EReal) else 0 := by
  by_cases h : a = b
  · rw [if_pos h, beq_iff_eq.mpr h]; exact uitofp_one
  · rw [if_neg h, beq_eq_false_iff_ne.mpr h]; exact uitofp_zero

/-- The negated equality test, converted: zero if they are equal, else one. -/
theorem uitofp_not_beq (a b : BitVec 32) :
    FloatOps.uitofp (F := Ideal) .f32 (~~~(BitVec.ofBool (a == b))) = if a = b then (0 : EReal) else 1 := by
  by_cases h : a = b
  · rw [if_pos h, beq_iff_eq.mpr h]; exact uitofp_zero
  · rw [if_neg h, beq_eq_false_iff_ne.mpr h]; exact uitofp_one

/-- Two counters below 8192 are equal as 32-bit words exactly when they are equal. -/
theorem ofNat_eq_iff {a b : ℕ} (ha : a < 8192) (hb : b < 8192) : BitVec.ofNat 32 a = BitVec.ofNat 32 b ↔ a = b := by
  constructor
  · intro h
    have h2 := congrArg BitVec.toNat h
    simp only [BitVec.toNat_ofNat, Nat.reducePow] at h2
    omega
  · intro h; rw [h]

/-! ## Similarity and its exponential -/

/-- The contraction's left operand at step `k` of entry `(r, c)` is the normalised array at `(r, k)`. -/
theorem lidx_eq (r c : Fin 8192) (k : Fin 512) : lidx_main_v6 (ix2 r c) k = ix2 r k :=
  funext fun a => Fin.ext (by match a with | ⟨0, _⟩ => rfl | ⟨1, _⟩ => rfl)

/-- The contraction's right operand at step `k` of entry `(r, c)` is the transpose at `(k, c)`. -/
theorem ridx_eq (r c : Fin 8192) (k : Fin 512) : ridx_main_v6 (ix2 r c) k = ix2 k c :=
  funext fun a => Fin.ext (by match a with | ⟨0, _⟩ => rfl | ⟨1, _⟩ => rfl)

/-- The similarity table at `(r, c)` is `∑ₖ e r k · e c k`. -/
theorem s_eq (x0 : (⟨S8192x512, .f32⟩ : BufTy).Contents (Elt Ideal)) (r c : Fin 8192) :
    val_main_v6 (F := Ideal) x0 (ix2 r c) = Cert.Spec.s (xs x0) r c := by
  rw [val_main_v6_apply]
  unfold Cert.Spec.s
  refine Finset.sum_congr rfl fun k _ => ?_
  rw [lidx_eq, ridx_eq, e_eq, eT_eq]

/-- The table `exp (−(1 − s))` at `(r, c)`: the constant pattern of one is the extended real one. -/
theorem E_eq (x0 : (⟨S8192x512, .f32⟩ : BufTy).Contents (Elt Ideal)) (r c : Fin 8192) :
    val_main_v27 (F := Ideal) x0 (ix2 r c) = Cert.Spec.E (xs x0) r c := by
  rw [val_main_v27_apply, val_main_v26_apply, val_main_v8_apply, val_main_v7_apply, val_main_cst_0_apply, s_eq]
  simp only [Ideal.hostUnary_exp_def, Ideal.hostNegf_def, Ideal.negf_def, Ideal.subf_def, Ideal.ofBits_def,
    Ideal.ofBits_one_f32]
  rfl

/-! ## The masks -/

/-- The label column broadcast along rows reads label `r` at `(r, c)`. -/
theorem rowLabel_idx (r c : Fin 8192) : idx_main_v9 (idx_main_v11 (ix2 r c)) = ix1 r :=
  funext fun a => Fin.ext (by match a with | ⟨0, _⟩ => rfl)

/-- The label row broadcast along columns reads label `c` at `(r, c)`. -/
theorem colLabel_idx (r c : Fin 8192) : idx_main_v10 (idx_main_v12 (ix2 r c)) = ix1 c :=
  funext fun a => Fin.ext (by match a with | ⟨0, _⟩ => rfl)

/-- The label comparison at `(r, c)` is the test `l r = l c`. -/
theorem same_eq (x1 : (⟨S8192, .i32⟩ : BufTy).Contents (Elt Ideal)) (r c : Fin 8192) :
    val_main_v13 (F := Ideal) x1 (ix2 r c) = BitVec.ofBool (ls x1 r == ls x1 c) := by
  rw [val_main_v13_apply, val_main_v11_apply, val_main_v9_apply, val_main_v12_apply, val_main_v10_apply,
    rowLabel_idx, colLabel_idx]
  rfl

/-- The comparison of the row counter (plus the constant zero) with the column counter, converted, is
    `1` on the diagonal and `0` off it. -/
theorem diag_eq (r c : Fin 8192) :
    val_main_v20 (F := Ideal) (ix2 r c) = if r = c then (1 : EReal) else 0 := by
  rw [val_main_v20_apply, val_main_v19_apply, val_main_v18_apply, val_main_v15_apply, val_main_v16_apply,
    val_main_v17_apply, val_main_c_apply]
  show FloatOps.uitofp (F := Ideal) .f32 (BitVec.ofBool (BitVec.ofNat 32 r.val + 0#32 == BitVec.ofNat 32 c.val)) = _
  rw [BitVec.add_zero, uitofp_beq]
  by_cases h : r = c
  · rw [if_pos h, if_pos (by rw [h])]
  · rw [if_neg h, if_neg (fun hw => h (Fin.ext ((ofNat_eq_iff r.isLt c.isLt).mp hw)))]

/-- The positive mask at `(r, c)`: the product of the two 0/1 factors is the specification's mask. -/
theorem pm_eq (x1 : (⟨S8192, .i32⟩ : BufTy).Contents (Elt Ideal)) (r c : Fin 8192) :
    val_main_v23 (F := Ideal) x1 (ix2 r c) = Cert.Spec.pm (ls x1) r c := by
  rw [val_main_v23_apply, val_main_v14_apply, same_eq, uitofp_beq, val_main_v22_apply, val_main_v21_apply,
    val_main_cst_1_apply, diag_eq]
  simp only [Ideal.mulf_def, Ideal.subf_def, Ideal.ofBits_def, Ideal.ofBits_one_f32]
  exact Cert.Spec.mask_mul (ls x1) r c

/-- The negative mask at `(r, c)`: the negated label comparison, converted. -/
theorem nm_eq (x1 : (⟨S8192, .i32⟩ : BufTy).Contents (Elt Ideal)) (r c : Fin 8192) :
    val_main_v25 (F := Ideal) x1 (ix2 r c) = Cert.Spec.nm (ls x1) r c := by
  rw [val_main_v25_apply, val_main_v24_apply, same_eq, uitofp_not_beq]
  rfl

end Cert.ReferenceIdeal.RefValue

end
-- ==== Proof.RefRows.lean ====
/-
  THE REFERENCE'S ROW QUANTITIES AND THE LOSS. Each row sums its two masks and the two masked tables over the columns,
  from the initial value zero; divides each mass by its count clamped below by one; and, where both counts are positive,
  takes minus the logarithm of the positive mean's share of the two means (plus eps), else zero. The loss is the sum of
  the rows' terms, from the initial value zero, divided by the number of rows. Read at row `r` these are the
  specification's `pc`, `nc`, `ps`, `ns`, `pmean`, `nmean`, `row`, and the result is `loss`.

  A float comparison `a > 0` is the bit of `0 < a` on the extended reals; the conjunction of two such bits selects the
  first operand exactly when both inequalities hold. A sum over the indices of a one-axis array is the sum over its
  coordinate.
-/
import proofs.«171001_j17884243820948_1_alg».proof.Proof.RefPair

noncomputable section

open scoped BigOperators

namespace Cert.ReferenceIdeal.RefValue

open Cert.ReferenceIdeal Cert.ReferenceIdeal.Gen Cert.ReferenceIdeal.ReadP Idealize.ShloMosaic Idealize.ShloMosaic.ValueIdx

/-! ## Column sums -/

/-- The `c`-th operand index of row `r`'s column sum is `(r, c)`; the four sums share the index map. -/
theorem col_idx (r c : Fin 8192) : idx_main_v28 (ix1 r) c = ix2 r c :=
  funext fun a => Fin.ext (by match a with | ⟨0, _⟩ => rfl | ⟨1, _⟩ => rfl)

/-- The number of positive partners of row `r`. -/
theorem pc_eq (x1 : (⟨S8192, .i32⟩ : BufTy).Contents (Elt Ideal)) (r : Fin 8192) :
    val_main_v28 (F := Ideal) x1 (ix1 r) = Cert.Spec.pc (ls x1) r := by
  rw [val_main_v28_apply, val_main_cst_2_apply, Ideal.ofBits_def, Ideal.ofBits_zero_f32, zero_add]
  unfold Cert.Spec.pc
  refine Finset.sum_congr rfl fun c _ => ?_
  rw [col_idx, pm_eq]

/-- The number of negative partners of row `r`. -/
theorem nc_eq (x1 : (⟨S8192, .i32⟩ : BufTy).Contents (Elt Ideal)) (r : Fin 8192) :
    val_main_v29 (F := Ideal) x1 (ix1 r) = Cert.Spec.nc (ls x1) r := by
  rw [val_main_v29_apply, val_main_cst_3_apply, Ideal.ofBits_def, Ideal.ofBits_zero_f32, zero_add]
  unfold Cert.Spec.nc
  refine Finset.sum_congr rfl fun c _ => ?_
  rw [show idx_main_v29 (ix1 r) c = ix2 r c from col_idx r c, nm_eq]

/-- The similarity mass on the positive partners of row `r`. -/
theorem ps_eq (x0 : (⟨S8192x512, .f32⟩ : BufTy).Contents (Elt Ideal)) (x1 : (⟨S8192, .i32⟩ : BufTy).Contents (Elt Ideal))
    (r : Fin 8192) : val_main_v31 (F := Ideal) x0 x1 (ix1 r) = Cert.Spec.ps (xs x0) (ls x1) r := by
  rw [val_main_v31_apply, val_main_cst_4_apply, Ideal.ofBits_def, Ideal.ofBits_zero_f32, zero_add]
  unfold Cert.Spec.ps
  refine Finset.sum_congr rfl fun c _ => ?_
  rw [show idx_main_v31 (ix1 r) c = ix2 r c from col_idx r c, val_main_v30_apply, E_eq, pm_eq, Ideal.mulf_def]

/-- The similarity mass on the negative partners of row `r`. -/
theorem ns_eq (x0 : (⟨S8192x512, .f32⟩ : BufTy).Contents (Elt Ideal)) (x1 : (⟨S8192, .i32⟩ : BufTy).Contents (Elt Ideal))
    (r : Fin 8192) : val_main_v36 (F := Ideal) x0 x1 (ix1 r) = Cert.Spec.ns (xs x0) (ls x1) r := by
  rw [val_main_v36_apply, val_main_cst_6_apply, Ideal.ofBits_def, Ideal.ofBits_zero_f32, zero_add]
  unfold Cert.Spec.ns
  refine Finset.sum_congr rfl fun c _ => ?_
  rw [show idx_main_v36 (ix1 r) c = ix2 r c from col_idx r c, val_main_v35_apply, E_eq, nm_eq, Ideal.mulf_def]

/-! ## The two means -/

/-- The mean over the positive partners: the mass over the count clamped below by one. -/
theorem pmean_eq (x0 : (⟨S8192x512, .f32⟩ : BufTy).Contents (Elt Ideal)) (x1 : (⟨S8192, .i32⟩ : BufTy).Contents (Elt Ideal))
    (r : Fin 8192) : val_main_v34 (F := Ideal) x0 x1 (ix1 r) = Cert.Spec.pmean (xs x0) (ls x1) r := by
  rw [val_main_v34_apply, val_main_v33_apply, val_main_v32_apply, val_main_cst_5_apply, ps_eq, pc_eq,
    Ideal.hostDivf_def, Ideal.maximumf_def, Ideal.ofBits_def, Ideal.ofBits_one_f32]
  rfl

/-- The mean over the negative partners. -/
theorem nmean_eq (x0 : (⟨S8192x512, .f32⟩ : BufTy).Contents (Elt Ideal)) (x1 : (⟨S8192, .i32⟩ : BufTy).Contents (Elt Ideal))
    (r : Fin 8192) : val_main_v39 (F := Ideal) x0 x1 (ix1 r) = Cert.Spec.nmean (xs x0) (ls x1) r := by
  rw [val_main_v39_apply, val_main_v38_apply, val_main_v37_apply, val_main_cst_7_apply, ns_eq, nc_eq,
    Ideal.hostDivf_def, Ideal.maximumf_def, Ideal.ofBits_def, Ideal.ofBits_one_f32]
  rfl

/-! ## A row's term -/

/-- The float comparison `p > 0` is the bit of `0 < p`. -/
theorem cmp_ogt_zero (p : EReal) : Ideal.cmp .ogt p 0 = BitVec.ofBool (decide (0 < p)) := rfl

/-- Selecting on the conjunction of the bits of `p > 0` and `q > 0` is the `if` on `0 < p ∧ 0 < q`. -/
theorem select_gt_and {α : Type} (p q : EReal) (a b : α) :
    Scalar.select (IntOp.andi (Ideal.cmp .ogt p 0) (Ideal.cmp .ogt q 0)) a b = if 0 < p ∧ 0 < q then a else b := by
  rw [cmp_ogt_zero, cmp_ogt_zero]
  by_cases hp : 0 < p
  · by_cases hq : 0 < q
    · rw [decide_eq_true hp, decide_eq_true hq, if_pos (show 0 < p ∧ 0 < q from ⟨hp, hq⟩)]; rfl
    · rw [decide_eq_true hp, decide_eq_false hq, if_neg (show ¬(0 < p ∧ 0 < q) from fun h => hq h.2)]; rfl
  · rw [decide_eq_false hp, if_neg (show ¬(0 < p ∧ 0 < q) from fun h => hp h.1)]
    cases decide (0 < q) <;> rfl

/-- Row `r`'s term. -/
theorem row_eq (x0 : (⟨S8192x512, .f32⟩ : BufTy).Contents (Elt Ideal)) (x1 : (⟨S8192, .i32⟩ : BufTy).Contents (Elt Ideal))
    (r : Fin 8192) : val_main_v51 (F := Ideal) x0 x1 (ix1 r) = Cert.Spec.row (xs x0) (ls x1) r := by
  rw [val_main_v51_apply, val_main_v44_apply, val_main_v41_apply, val_main_v43_apply, val_main_v40_apply,
    val_main_v42_apply, val_main_cst_8_apply, val_main_cst_9_apply, pc_eq, nc_eq,
    val_main_call1_v1_apply, val_main_call1_v0_apply, val_main_cst_11_apply,
    val_main_v50_apply, val_main_v49_apply, val_main_v48_apply, val_main_v47_apply, val_main_v46_apply,
    val_main_cst_10_apply, val_main_v45_apply, pmean_eq, nmean_eq]
  simp only [Ideal.cmpf_def, Ideal.ofBits_def, Ideal.ofBits_zero_f32, Ideal.hostNegf_def, Ideal.negf_def,
    Ideal.hostUnary_log_def, Ideal.hostDivf_def, Ideal.addf_def]
  exact select_gt_and _ _ _ _

/-! ## The loss -/

/-- The indices of a one-axis array are its coordinates … -/
def idxEquiv1 {n : ℕ} : (⟨1, ![n]⟩ : Shape).Idx ≃ Fin n where
  toFun i := i 0
  invFun a := ix1 a
  left_inv i := (eq_ix1 i).symm
  right_inv _ := rfl

/-- … so a sum over them is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The result: the sum of the rows' terms over the number of rows. -/
theorem loss_eq (x0 : (⟨S8192x512, .f32⟩ : BufTy).Contents (Elt Ideal)) (x1 : (⟨S8192, .i32⟩ : BufTy).Contents (Elt Ideal))
    (i : S_.Idx) : val_main_v53 (F := Ideal) x0 x1 i = Cert.Spec.loss (xs x0) (ls x1) := by
  rw [val_main_v53_apply, val_main_v52_apply, val_main_cst_12_apply, val_main_cst_13_apply, Ideal.hostDivf_def,
    Ideal.ofBits_def, Ideal.ofBits_def, Ideal.ofBits_zero_f32, zero_add, sum_idx1]
  unfold Cert.Spec.loss
  refine congrArg (Ideal.div · _) (Finset.sum_congr rfl fun r _ => ?_)
  exact row_eq x0 x1 r

end Cert.ReferenceIdeal.RefValue

end
-- ==== Proof.RefValue.lean ====
/-
  THE REFERENCE COMPUTES THE SPECIFICATION. The reference's result, as a function of its two argument arrays, is the
  specification's `loss` of the embeddings read by their two coordinates and the labels read by their coordinate
  (`result_eq_spec`: the stages of the previous modules, composed). Then the two facts about the reference's run: it
  ends with its arguments unchanged (`frame_ri`), and it ends with the result array holding `loss` of the arguments'
  contents at the start (`run_spec`).
-/
import proofs.«171001_j17884243820948_1_alg».proof.Defs
import proofs.«171001_j17884243820948_1_alg».proof.Proof.Gen.Pre_finite_inputs
import proofs.«171001_j17884243820948_1_alg».proof.Proof.Spec
import proofs.«171001_j17884243820948_1_alg».proof.Proof.RefRun
import proofs.«171001_j17884243820948_1_alg».proof.Proof.RefRead
import proofs.«171001_j17884243820948_1_alg».proof.Proof.RefRows

noncomputable section

open scoped BigOperators

open Idealize.ShloMosaic Idealize.ShloMosaic.TcCoe Idealize.SL.Sem

namespace Cert.ReferenceIdeal.RefValue

open Cert.ReferenceIdeal Cert.ReferenceIdeal.Gen Cert.ReferenceIdeal.ReadP Idealize.ShloMosaic.ValueIdx

/-- The reference's result array (one element) is the specification's loss of the arguments. -/
theorem result_eq_spec (x0 : (⟨S8192x512, .f32⟩ : BufTy).Contents (Elt Ideal))
    (x1 : (⟨S8192, .i32⟩ : BufTy).Contents (Elt Ideal)) :
    val_main_v53 (F := Ideal) x0 x1
      = fun _ => Cert.Spec.loss (fun r k => x0 (ix2 r k)) (fun r => x1 (ix1 r)) :=
  funext fun i => loss_eq x0 x1 i

end Cert.ReferenceIdeal.RefValue

namespace Cert.Proof.RefClaims

open Cert.ReferenceIdeal Idealize.ShloMosaic.ValueIdx

/-- Every run of the reference terminates with both arguments unchanged. -/
theorem frame_ri : Cert.frame_ReferenceIdeal := fun m ρ _ =>
  (θ_run Cert.ReferenceIdeal.defs _ _).mono (fun _ h c => (h c).2) (Cert.ReferenceIdeal.ValueP.run (F := Ideal) m ρ)

/-- Every run of the reference terminates with the result array holding the specification's loss of the arguments'
    contents at the start, and both arguments unchanged. -/
theorem run_spec (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ fun r => ∀ c : Dev nD,
      r.2.mem ((c.tc : Thread nD τ).loc main_v53)
          = (fun _ => Cert.Spec.loss (fun a k => m' ((c.tc : Thread nD τ).loc main_arg0) (ix2 a k))
              (fun a => m' ((c.tc : Thread nD τ).loc main_arg1) (ix1 a)))
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  (θ_run Cert.ReferenceIdeal.defs _ _).mono
    (fun _ h c => ⟨(h c).1.trans ((Cert.ReferenceIdeal.ReadP.val_main_v53_eq m' c).trans
        (Cert.ReferenceIdeal.RefValue.result_eq_spec _ _)), (h c).2⟩)
    (Cert.ReferenceIdeal.ValueP.run (F := Ideal) m' ρ')

end Cert.Proof.RefClaims

end
-- ==== Proof.lean ====
/-
  The pairwise-loss kernel against its plain reference.

  Both programs take embeddings `x : f32[8192, 512]` and labels `l : i32[8192]`, normalise each row of `x` to unit
  length (its norm clamped from below), and for every row `r` form, over all columns `c`, the sums of
  `exp (-(1 - e_r · e_c))` over the columns with the same label other than `r` itself and over the columns with
  another label, the two counts, the two means, and the row's loss `-log (pos / (pos + neg + ε))` where both counts
  are positive, else `0`; the result is the mean of the row losses.

  The reference forms the whole 8192 × 8192 table. The kernel never does: it walks a 16 × 16 grid of 512 × 512 tiles,
  adds each tile's row sums into four scratch columns that it resets at the first column tile of a row tile, and at the
  last column tile stores the row tile's losses; the host then sums the loss column and divides.

  Over the extended reals the two are one function of the arguments (`Cert.Spec.loss`): a row's sum over all columns is
  the sum, over the sixteen column tiles, of the tile's sum, because addition of extended reals is associative and
  commutative and `0 + y = y` (also at the infinities: no finiteness of the inputs is used); the kernel's 0/1 mask
  "same label and not the diagonal" is the reference's product of a 0/1 mask with one minus the 0/1 diagonal; `0 - y`
  is `-y`; the change to a narrower float format before the kernel's products is the identity on extended reals.

  The three frames: each program runs to its end, faults nowhere and leaves its two arguments as they were. For the
  kernel, read as printed and read at the extended reals, this is the run of its region over the grid: the two windows
  on the embeddings share that one array, each holding half of it and neither writing it.
-/
import proofs.«171001_j17884243820948_1_alg».proof.Defs
import proofs.«171001_j17884243820948_1_alg».proof.Proof.Gen.Kernel
import proofs.«171001_j17884243820948_1_alg».proof.Proof.Gen.KernelIdeal
import proofs.«171001_j17884243820948_1_alg».proof.Proof.Gen.ReferenceIdeal
import proofs.«171001_j17884243820948_1_alg».proof.Proof.Gen.Pre_finite_inputs
import proofs.«171001_j17884243820948_1_alg».proof.Proof.Kernel.Launch
import proofs.«171001_j17884243820948_1_alg».proof.Proof.KernelIdeal.Launch
import proofs.«171001_j17884243820948_1_alg».proof.Proof.KernelIdeal.Value
import proofs.«171001_j17884243820948_1_alg».proof.Proof.RefValue
import Idealize.ShloMosaic.Adequacy
import Idealize.ShloMosaic.Init

noncomputable section

namespace Cert.Proof

open Idealize.ShloMosaic Idealize.SL.Sem

/-- The kernel as printed runs to its end with its arguments unchanged. -/
theorem frame_k : Cert.frame_Kernel := fun m ρ _ =>
  (θ_run Cert.Kernel.defs _ _).mono (fun _ h c => (h c).2) (Cert.Kernel.Frame.run_main (F := Bits) m ρ)

/-- So does the kernel read at the extended reals. -/
theorem frame_ki : Cert.frame_KernelIdeal := fun m ρ _ =>
  (θ_run Cert.KernelIdeal.defs _ _).mono (fun _ h c => (h c).2) (Cert.KernelIdeal.Frame.run_main (F := Ideal) m ρ)

/-- Nothing was rewritten when the kernel was read at the extended reals. -/
theorem preserves : Cert.preserves_Kernel_KernelIdeal := trivial

/-- From memories agreeing on the arguments both programs end with the specification's loss of those arguments in
    their result: the kernel by its run over the grid and the fold of the sixteen column tiles, the reference by its
    run read stage by stage. -/
theorem algebraic : Cert.algebraic_KernelIdeal_ReferenceIdeal := by
  intro m ρ m' ρ' _ hagree
  refine ⟨_, Cert.KernelIdeal.Frame.run_spec m ρ, ?_⟩
  refine (θ_run Cert.ReferenceIdeal.defs _ _).mono (fun _ h c => ⟨(h c).1.trans ?_, (h c).2⟩)
    (Cert.Proof.RefClaims.run_spec m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, RefClaims.frame_ri, preserves, algebraic⟩

end Cert.Proof

end
